-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128x128 .f32) (main_arg12 : FVec F S128 .f32) (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩
abbrev S10000x256 : Shape := ⟨2, ![10000, 256]⟩
abbrev S128x256 : Shape := ⟨2, ![128, 256]⟩
abbrev S200x256 : Shape := ⟨2, ![200, 256]⟩

abbrev nBuf : Space → Nat
  | .hbm => 22
  | .vmem => 23
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S200x128, .f32⟩
  | .local _ .vmem, ⟨16, _⟩ => ⟨S200x128, .f32⟩
  | .local _ .vmem, ⟨17, _⟩ => ⟨S10000x256, .bf16⟩
  | .local _ .vmem, ⟨18, _⟩ => ⟨S10000x256, .bf16⟩
  | .local _ .vmem, ⟨19, _⟩ => ⟨S10000x256, .bf16⟩
  | .local _ .vmem, ⟨20, _⟩ => ⟨S10000x256, .bf16⟩
  | .local _ .vmem, ⟨21, _⟩ => ⟨S128x256, .bf16⟩
  | .local _ .vmem, ⟨22, _⟩ => ⟨S128x256, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_5 : BitVec 32 := 0#32
  let v9 : BitVec 1 := Scalar.cmpi .eq arg0 c0_i32_5
  let v10 : BitVec 32 := Scalar.extui v9
  let c0_i32_6 : BitVec 32 := 0#32
  let v11 : BitVec 1 := Scalar.cmpi .ne v10 c0_i32_6
  v11

def k0_off1 (i : grid0.Coords) : Fin 2 → Nat :=
  let arg1 : BitVec 32 := BitVec.ofNat 32 (i 1).val
  let c200_i32 : BitVec 32 := 200#32
  let v44 : BitVec 32 := Scalar.muli arg1 c200_i32
  let v45 : Index := Scalar.indexCast v44
  let c0_22 : Index := 0#32
  ![v45.toNat, 0]
def k0_cond3 (i : grid0.Coords) : BitVec 1 :=
  let arg0 : BitVec 32 := BitVec.ofNat 32 (i 0).val
  let c1_i32 : BitVec 32 := 1#32
  let v12 : BitVec 1 := Scalar.cmpi .eq arg0 c1_i32
  let v13 : BitVec 32 := Scalar.extui v12
  let c0_i32_7 : BitVec 32 := 0#32
  let v14 : BitVec 1 := Scalar.cmpi .ne v13 c0_i32_7
  v14

def k0_off2 (i : grid0.Coords) : Fin 2 → Nat :=
  let arg1 : BitVec 32 := BitVec.ofNat 32 (i 1).val
  let c200_i32 : BitVec 32 := 200#32
  let v40 : BitVec 32 := Scalar.muli arg1 c200_i32
  let v41 : Index := Scalar.indexCast v40
  let c0_19 : Index := 0#32
  ![v41.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S200x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  concatenates_S128x128_S128x128_S128x256_d1 : Shape.Concatenates [S128x128, S128x128] S128x256 1
  inb_S10000x128_S10000x128_0_0 : ∀ a, (![0, 0] : Fin 2 → Nat) a + S10000x128.size a ≤ S10000x128.size a
  h_S10000x128 : 0 < S10000x128.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  packedbf16_S128x256_S128x256_0_0 : (Rect.unit (s := S128x256) ![0, 0] S128x256.size inb_S128x256_S128x256_0_0).PackedRows (EltTy.packing .bf16)
  inb_S200x10000_S200x10000_0_0 : ∀ a, (![0, 0] : Fin 2 → Nat) a + S200x10000.size a ≤ S200x10000.size a
  h_S200x10000 : 0 < S200x10000.numel
  slices_S200x256_o0_128_S200x128 : S200x256.Slices ![0, 128] S200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  slices_S200x256_o0_0_S200x128 : S200x256.Slices ![0, 0] S200x128
  h_S200x256 : 0 < S200x256.numel
  shapeCasts_S200x256_S200x256 : S200x256.ShapeCasts S200x256
  h_S200x128 : 0 < S200x128.numel
  inb_S200x128_S200x128_0_0 : ∀ a, (![0, 0] : Fin 2 → Nat) a + S200x128.size a ≤ S200x128.size a
  dot_S128x128_S128x128_S128x128_1_0_0_1_n_n_wf : DotDims.WF S128x128 S128x128 S128x128 [1] [0] [0] [1] [] []
  dot_S10000x128_S128x256_S10000x256_1_0_0_1_n_n_wf : DotDims.WF S10000x128 S128x256 S10000x256 [1] [0] [0] [1] [] []
  dot_S200x10000_S10000x256_S200x256_1_0_0_1_n_n_wf : DotDims.WF S200x10000 S10000x256 S200x256 [1] [0] [0] [1] [] []
  dot_S200x128_S128x256_S200x256_1_0_0_1_n_n_wf : DotDims.WF S200x128 S128x256 S200x256 [1] [0] [0] [1] [] []
  hrank0 : 0 < grid0.rank
  k0_off1_inb : ∀ i : grid0.Coords, ∀ (k0_h2 : k0_cond2 i = 1#1), ∀ a, (k0_off1 i) a + S200x256.size a ≤ S10000x256.size a
  k0_off1_packedbf16 : ∀ i : grid0.Coords, ∀ (k0_h2 : k0_cond2 i = 1#1), (Rect.unit (s := S10000x256) (k0_off1 i) S200x256.size (k0_off1_inb i k0_h2)).PackedRows (EltTy.packing .bf16)
  k0_off2_inb : ∀ i : grid0.Coords, ∀ (k0_h3 : k0_cond3 i = 1#1), ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S200x128.size a ≤ S10000x128.size a
  hwx0_13 : ∀ i : grid0.Coords, EltTy.bits .f32 = 32 ∨ (Rect.block (s := S10000x128) S200x128.size (cc0_transform_13 i) (hinb0_13 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x128_S128x256_S200x256_1_0_0_1_n_n : DotDims S200x128 S128x256 S200x256 where
  lhsContracting := [1]
  rhsContracting := [0]
  lhsNonContracting := [0]
  rhsNonContracting := [1]
  lhsBatch := []
  rhsBatch := []
  wf := dot_S200x128_S128x256_S200x256_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S200x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond3 i == 1#1) | ⟨_ + 14, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 80
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S_, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S10000x128, .f32⟩
  | .hbm, ⟨41, _⟩ => ⟨S1x128, .f32⟩
  | .hbm, ⟨42, _⟩ => ⟨S10000x128, .f32⟩
  | .hbm, ⟨43, _⟩ => ⟨S10000x128, .f32⟩
  | .hbm, ⟨44, _⟩ => ⟨S_, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S1x128, .f32⟩
  | .hbm, ⟨52, _⟩ => ⟨S10000x128, .f32⟩
  | .hbm, ⟨53, _⟩ => ⟨S10000x128, .f32⟩
  | .hbm, ⟨54, _⟩ => ⟨S10000x128, .f32⟩
  | .hbm, ⟨55, _⟩ => ⟨S10000x128, .f32⟩
  | .hbm, ⟨56, _⟩ => ⟨S1x128, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S_, .f32⟩
  | .hbm, ⟨62, _⟩ => ⟨S10000x128, .f32⟩
  | .hbm, ⟨63, _⟩ => ⟨S10000x128, .f32⟩
  | .hbm, ⟨64, _⟩ => ⟨S_, .f32⟩
  | .hbm, ⟨65, _⟩ => ⟨S10000x128, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S1x128, .f32⟩
  | .hbm, ⟨74, _⟩ => ⟨S10000x128, .f32⟩
  | .hbm, ⟨75, _⟩ => ⟨S10000x128, .f32⟩
  | .hbm, ⟨76, _⟩ => ⟨S_, .f32⟩
  | .hbm, ⟨77, _⟩ => ⟨S10000x128, .f32⟩
  | .hbm, ⟨78, _⟩ => ⟨S10000x128, .f32⟩
  | .hbm, ⟨79, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call0_cst : Ref sig .tc := ⟨.hbm, 44, rfl⟩
abbrev main_call0_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelGrid.lean ====
/-
  The grid of the one pallas_call is 2 x 50, walked in row-major order: position t = 50 * layer + block.
  The body branches three ways on the coordinates; over the 100 positions each branch condition is a
  comparison of the position with 0 or 50:
    * the prologue (both coordinates zero) runs at position 0 only;
    * the first-layer branch (layer = 0) runs at positions 0 .. 49;
    * the second-layer branch (layer = 1) runs at positions 50 .. 99.
  The row band a first-layer position stores into the carried buffers starts at row 200 * t, the rows of the
  input a second-layer position adds back start at row 200 * (t - 50); the output window is idle through the
  first layer and written back at every position of the second.
-/
import proofs.«177975_g80453327389404_cont_9to1c4b_650_7_alg».proof.Proof.Gen.Kernel.Frame
import proofs.«177975_g80453327389404_cont_9to1c4b_650_7_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-- The prologue's condition, from the grid coordinates. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem condFirst_iff : ∀ t : Fin cfg0.N, condFirst (grid0.coords t) ↔ t.val = 0 :=
  (by decide +kernel : ∀ t : Fin grid0.N, condFirst (grid0.coords t) ↔ t.val = 0)

theorem condLayer1_iff : ∀ t : Fin cfg0.N, k0_cond2 (grid0.coords t) = 1#1 ↔ t.val < 50 :=
  (by decide +kernel : ∀ t : Fin grid0.N, k0_cond2 (grid0.coords t) = 1#1 ↔ t.val < 50)

theorem condLayer2_iff : ∀ t : Fin cfg0.N, k0_cond3 (grid0.coords t) = 1#1 ↔ 50 ≤ t.val :=
  (by decide +kernel : ∀ t : Fin grid0.N, k0_cond3 (grid0.coords t) = 1#1 ↔ 50 ≤ t.val)

/-- The output window is idle exactly through the first layer. -/
theorem idle_out : ∀ t : Fin cfg0.N, cfg0.idle 13 (grid0.coords t) = decide (t.val < 50) :=
  (by decide +kernel : ∀ t : Fin grid0.N, cfg0.idle 13 (grid0.coords t) = decide (t.val < 50))

/-- The output window is written back exactly at the positions of the second layer. -/
theorem flush_out : ∀ t : Fin cfg0.N, (cfg0.win 13).flush t = decide (50 ≤ t.val) :=
  (by decide +kernel : ∀ t : Fin grid0.N, (cfg0.win 13).flush t = decide (50 ≤ t.val))

/-- The row band of a first-layer position. -/
theorem bandOffset : ∀ t : Fin cfg0.N, t.val < 50 → k0_off1 (grid0.coords t) = ![200 * t.val, 0] :=
  (by decide +kernel : ∀ t : Fin grid0.N, t.val < 50 → k0_off1 (grid0.coords t) = ![200 * t.val, 0])

/-- The input rows a second-layer position adds back. -/
theorem residualOffset : ∀ t : Fin cfg0.N, 50 ≤ t.val → k0_off2 (grid0.coords t) = ![200 * (t.val - 50), 0] :=
  (by decide +kernel : ∀ t : Fin grid0.N, 50 ≤ t.val → k0_off2 (grid0.coords t) = ![200 * (t.val - 50), 0])

end Cert.Kernel.Hand

end
-- ==== Proof.GatedConvSpec.lean ====
/-
  Two gated graph-convolution layers and a residual, as one function of the argument arrays over the
  extended reals.

  A matrix is a function of a rank-2 index, a bias a function of a rank-1 index. One layer takes node
  features `inp` [n, d], two dense adjacencies `adj`, `gate` [n, n], a weight `W` [d, d], a bias `b` [d] and
  two gate projections `l1W`, `l2W` [d, d] with biases `l1b`, `l2b` [d]:

      h = inp · W,   out = adj · h,   lat = gate · h,
      g = logistic(s),   y = max(g · out + (1 − g) · lat + b, 0).

  The two spellings differ only in the gate's argument `s`:
    * `layer`      : s = ((out · l1W + l1b) + lat · l2W) + l2b            (project the aggregated features)
    * `layerFused` : s = (adj · (inp · (W · l1W)) + gate · (inp · (W · l2W))) + (l1b + l2b)
                                                                 (aggregate the projected features)
  They agree when every entry is a real number: a product of matrices with real entries is associative
  ((A · B) · C = A · (B · C) needs x · (a + b) = x · a + x · b, which fails at the infinities), and regrouping the
  four summands of `s` needs only that + is commutative and associative, which holds on all of the extended
  reals. `net` / `netFused` stack two layers and add the input back.
-/
import Idealize.ShloMosaic.PureOps.Ideal
import Idealize.ShloMosaic.Lib.ValueIdx

noncomputable section

open scoped BigOperators

namespace GatedConv

open Idealize.ShloMosaic Idealize.ShloMosaic.ValueIdx

/-- A matrix of extended reals with `a` rows and `b` columns. -/
abbrev Mat (a b : Nat) : Type := (⟨2, ![a, b]⟩ : Shape).Idx → EReal
/-- A vector of extended reals of length `b`. -/
abbrev Vc (b : Nat) : Type := (⟨1, ![b]⟩ : Shape).Idx → EReal

/-- The matrix product: entry (r, c) is the sum over `l` of A(r, l) · B(l, c). -/
def mm {a k b : Nat} (A : Mat a k) (B : Mat k b) : Mat a b :=
  fun j => ∑ l : Fin k, A (ix2 (j 0) l) * B (ix2 l (j 1))

/-- The float 1.0 (its f32 pattern, read at the ideal instance). -/
def one : EReal := Ideal.ofBits .f32 0x3F800000#32
/-- The float 0.0 (its f32 pattern, read at the ideal instance). -/
def zero : EReal := Ideal.ofBits .f32 0x00000000#32

/-- Gate, mix, add the bias and rectify: max(g · out + (1 − g) · lat + bias, 0) with g = logistic(s). -/
def mix (s out lat bias : EReal) : EReal :=
  max (Ideal.logistic s * out + (one - Ideal.logistic s) * lat + bias) zero

/-- One layer, the gate's argument computed from the AGGREGATED features: ((out · l1W + l1b) + lat · l2W) + l2b. -/
def layer {n d : Nat} (inp : Mat n d) (adj gate : Mat n n) (W : Mat d d) (b : Vc d)
    (l1W : Mat d d) (l1b : Vc d) (l2W : Mat d d) (l2b : Vc d) : Mat n d := fun j =>
  mix (((mm (mm adj (mm inp W)) l1W j + l1b (ix1 (j 1))) + mm (mm gate (mm inp W)) l2W j) + l2b (ix1 (j 1)))
    (mm adj (mm inp W) j) (mm gate (mm inp W) j) (b (ix1 (j 1)))

/-- One layer, the gate's argument computed by aggregating the PROJECTED features:
    (adj · (inp · (W · l1W)) + gate · (inp · (W · l2W))) + (l1b + l2b). -/
def layerFused {n d : Nat} (inp : Mat n d) (adj gate : Mat n n) (W : Mat d d) (b : Vc d)
    (l1W : Mat d d) (l1b : Vc d) (l2W : Mat d d) (l2b : Vc d) : Mat n d := fun j =>
  mix ((mm adj (mm inp (mm W l1W)) j + mm gate (mm inp (mm W l2W)) j) + (l1b (ix1 (j 1)) + l2b (ix1 (j 1))))
    (mm adj (mm inp W) j) (mm gate (mm inp W) j) (b (ix1 (j 1)))

/-- Two layers and the residual, the layers in the first spelling. -/
def net {n d : Nat} (x : Mat n d) (adj gate : Mat n n)
    (W1 : Mat d d) (b1 : Vc d) (l1W1 : Mat d d) (l1b1 : Vc d) (l2W1 : Mat d d) (l2b1 : Vc d)
    (W2 : Mat d d) (b2 : Vc d) (l1W2 : Mat d d) (l1b2 : Vc d) (l2W2 : Mat d d) (l2b2 : Vc d) : Mat n d := fun j =>
  layer (layer x adj gate W1 b1 l1W1 l1b1 l2W1 l2b1) adj gate W2 b2 l1W2 l1b2 l2W2 l2b2 j + x j

/-- Two layers and the residual, the layers in the second spelling. -/
def netFused {n d : Nat} (x : Mat n d) (adj gate : Mat n n)
    (W1 : Mat d d) (b1 : Vc d) (l1W1 : Mat d d) (l1b1 : Vc d) (l2W1 : Mat d d) (l2b1 : Vc d)
    (W2 : Mat d d) (b2 : Vc d) (l1W2 : Mat d d) (l1b2 : Vc d) (l2W2 : Mat d d) (l2b2 : Vc d) : Mat n d := fun j =>
  layerFused (layerFused x adj gate W1 b1 l1W1 l1b1 l2W1 l2b1) adj gate W2 b2 l1W2 l1b2 l2W2 l2b2 j + x j

/-- Every entry is a real number (neither infinity). -/
def IsReal {s : Shape} (f : s.Idx → EReal) : Prop := ∀ i, ∃ r : ℝ, f i = (r : EReal)

end GatedConv

end
-- ==== Proof.GatedConvBlocks.lean ====
/-
  The kernel's arrangement of the same two layers, in the vocabulary of blocks.

  The kernel multiplies each adjacency once per layer against a 256-column right-hand side that holds two
  128-column matrices side by side (`hcat`): the features times the weight on the left, the features times the
  weight times a gate projection on the right. The product's left half (`lhalf`) is then the aggregated
  feature matrix and its right half (`rhalf`) the aggregated projected one. It works on bands of 200 rows
  (`rows k`: rows 200 k … 200 k + 199 of a matrix with 10000 rows); a product's band is the band's product,
  since entry (r, c) of A · B reads row r of A only. `band` is the gate-mix-rectify step on one band from the two
  256-column products and the two bias rows (each a 1 x 128 matrix).
-/
import proofs.«177975_g80453327389404_cont_9to1c4b_650_7_alg».proof.Proof.GatedConvSpec

noncomputable section

open scoped BigOperators

namespace GatedConv

open Idealize.ShloMosaic Idealize.ShloMosaic.ValueIdx

/-- Two 128-column matrices side by side. -/
def hcat {a : Nat} (A B : Mat a 128) : Mat a 256 := fun j =>
  if h : (j 1).val < 128 then A (ix2 (j 0) ⟨(j 1).val, h⟩)
  else B (ix2 (j 0) ⟨(j 1).val - 128, by have := idx2_lt1 j; omega⟩)

/-- The left 128 columns of a 256-column matrix. -/
def lhalf {a : Nat} (M : Mat a 256) : Mat a 128 := fun j =>
  M (ix2 (j 0) ⟨(j 1).val, by have := idx2_lt1 j; omega⟩)

/-- The right 128 columns of a 256-column matrix. -/
def rhalf {a : Nat} (M : Mat a 256) : Mat a 128 := fun j =>
  M (ix2 (j 0) ⟨(j 1).val + 128, by have := idx2_lt1 j; omega⟩)

/-- Band `k` of a matrix with 10000 rows: its rows 200 k … 200 k + 199. -/
def rows {d : Nat} (k : Fin 50) (A : Mat 10000 d) : Mat 200 d := fun j =>
  A (ix2 ⟨200 * k.val + (j 0).val, by have := idx2_lt0 j; have := k.isLt; omega⟩ (j 1))

/-- Gate, mix, add the bias and rectify on one band: `P` and `Q` are the two adjacencies' 256-column products
    (left halves the aggregated features, right halves the aggregated projected features), `gb` the summed gate
    biases and `b` the layer bias, each as a 1 x 128 row. -/
def band {a : Nat} (P Q : Mat a 256) (gb b : Mat 1 128) : Mat a 128 := fun j =>
  mix ((rhalf P j + rhalf Q j) + gb (ix2 0 (j 1))) (lhalf P j) (lhalf Q j) (b (ix2 0 (j 1)))

/-- A vector of length 128 as a 1 x 128 row. -/
def asRow (v : Vc 128) : Mat 1 128 := fun j => v (ix1 (j 1))

/-- The entrywise sum of two vectors. -/
def vadd {b : Nat} (u v : Vc b) : Vc b := fun j => u j + v j

end GatedConv

end
-- ==== Proof.RowBands.lean ====
/-
  A buffer of 10000 x 256 elements filled one 200-row band per step.

  The buffer is read through a view of the shape [10000, 256]; step k stores a [200, 256] payload through the
  unit-stride rectangle at offsets (200 k, 0). If before the step the buffer reads "the bands below k hold B, the rest
  holds d" (mixed k (full B) d), and the payload is band k of B, then after the step it reads the same with k + 1:
  an element of the rectangle (200 k ≤ row < 200 (k + 1), any column) reads the payload at its place in the rectangle,
  which is full B there; any other element keeps what it held, and its row is either below 200 k (both sides read
  full B) or at least 200 (k + 1) (both sides read d). At k = 0 nothing is asked of the buffer, at k = 50 every row
  is below 200 k and the buffer reads full B. A store through the whole shape leaves its payload.
-/
import Idealize.ShloMosaic.Lib.Writes
import Idealize.ShloMosaic.Lib.Pipeline.FrameBody
import Idealize.ShloMosaic.Lib.Pipeline.Value
import Idealize.ShloMosaic.Lib.ValueIdx
import proofs.«177975_g80453327389404_cont_9to1c4b_650_7_alg».proof.Proof.GatedConvBlocks

noncomputable section

namespace RowBands

open Idealize.ShloMosaic Idealize.ShloMosaic.ValueIdx

variable {Val : EltTy → Type} [∀ e, Nonempty (Val e)] {sig : RefSig} {κ : Kind} {sp : Space} {e : EltTy}

/-- The buffer's shape: 10000 rows of 256 elements. -/
abbrev Big : Shape := ⟨2, ![10000, 256]⟩
/-- One band's sizes: 200 rows of 256 elements. -/
abbrev bsz : Fin 2 → ℕ := ![200, 256]

/-- One store through the whole shape (the unit-stride rectangle of the shape's own sizes at zero offsets) leaves its
    payload, whatever the buffer held. -/
theorem read_store_whole {S : Shape} (v : View sig κ sp S e) (f : v.ty.Contents Val) {off : Fin S.rank → ℕ}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩)]
  exact View.canon_unit_zero h inb w

/-- G on the rows below 200 k, d on the others. -/
def mixed {α : Type} (k : ℕ) (G d : Big.Idx → α) : Big.Idx → α :=
  fun y => if (y 0).val < 200 * k then G y else d y

/-- No row is below 0. -/
theorem mixed_zero {α : Type} (G d : Big.Idx → α) : mixed 0 G d = d := by
  funext y
  unfold mixed
  rw [if_neg (by omega)]

/-- Every row is below 200 · 50 = 10000. -/
theorem mixed_all {α : Type} (G d : Big.Idx → α) : mixed 50 G d = G := by
  funext y
  have hy := idx2_lt0 y
  unfold mixed
  rw [if_pos (by omega)]

/-- The buffer whose band q (rows 200 q … 200 q + 199) is B q: row r is row r mod 200 of band r / 200. -/
def full {α : Type} (B : Fin 50 → (⟨2, ![200, 256]⟩ : Shape).Idx → α) : Big.Idx → α := fun y =>
  B ⟨(y 0).val / 200, by have := idx2_lt0 y; omega⟩
    (ix2 (n0 := 200) (n1 := 256) ⟨(y 0).val % 200, Nat.mod_lt _ (by omega)⟩ (y 1))

/-- Two readings of B at equal bands and equal indices agree. -/
private theorem B_congr {α : Type} (B : Fin 50 → (⟨2, ![200, 256]⟩ : Shape).Idx → α) {q q' : Fin 50}
    {j j' : (⟨2, ![200, 256]⟩ : Shape).Idx} (hq : q = q') (hj : j = j') : B q j = B q' j' := by
  subst hq; subst hj; rfl

/-- At the element the rectangle of band k places its own index x, the full buffer reads band k at x: the row is
    200 k + x₀ with x₀ < 200, whose quotient by 200 is k and whose remainder is x₀; the column is 0 + x₁. -/
theorem full_emb {α : Type} (B : Fin 50 → (⟨2, ![200, 256]⟩ : Shape).Idx → α) (k : ℕ) (hk : k < 50) (off : Fin 2 → ℕ)
    (hoff : off = ![200 * k, 0]) (inb : ∀ a, off a + bsz a ≤ Big.size a)
    (x : (Rect.unit (s := Big) off bsz inb).shape.Idx) :
    full B ((Rect.unit (s := Big) off bsz inb).emb x) = B ⟨k, hk⟩ x := by
  subst hoff
  have hx0 : (x (0 : Fin 2)).val < 200 := (x (0 : Fin 2)).isLt
  have e0 : (((Rect.unit (s := Big) ![200 * k, 0] bsz inb).emb x) (0 : Fin 2)).val = 200 * k + (x (0 : Fin 2)).val := by
    show 200 * k + 1 * (x (0 : Fin 2)).val = _
    rw [Nat.one_mul]
  have e1 : (((Rect.unit (s := Big) ![200 * k, 0] bsz inb).emb x) (1 : Fin 2)).val = (x (1 : Fin 2)).val := by
    show 0 + 1 * (x (1 : Fin 2)).val = _
    rw [Nat.one_mul, Nat.zero_add]
  unfold full
  refine B_congr B (Fin.ext ?_) (funext fun a => ?_)
  · show (((Rect.unit (s := Big) ![200 * k, 0] bsz inb).emb x) (0 : Fin 2)).val / 200 = k
    rw [e0]; omega
  · match a with
    | ⟨0, _⟩ =>
      apply Fin.ext
      show (((Rect.unit (s := Big) ![200 * k, 0] bsz inb).emb x) (0 : Fin 2)).val % 200 = (x (0 : Fin 2)).val
      rw [e0]; omega
    | ⟨1, _⟩ =>
      apply Fin.ext
      exact e1

/-- ONE STEP: the buffer reads "bands below k hold B, the rest d"; band k of B is stored through the rectangle of band
    k; the buffer then reads "bands below k + 1 hold B, the rest d". -/
theorem read_store_band (v : View sig κ sp Big e) (f : v.ty.Contents Val) (k : ℕ) (hk : k < 50)
    (B : Fin 50 → (⟨2, ![200, 256]⟩ : Shape).Idx → Val e) (d : Big.Idx → Val e)
    (hf : v.read Val f = mixed k (full B) d) (off : Fin 2 → ℕ) (hoff : off = ![200 * k, 0])
    (inb : ∀ a, off a + bsz a ≤ Big.size a) (w : (Rect.unit (s := Big) off bsz inb).shape.Idx → Val e)
    (hw : w = B ⟨k, hk⟩) :
    v.read Val (v.writes Val f [(⟨Rect.unit (s := Big) off bsz inb, w⟩ : View.Piece Val Big e)])
      = mixed (k + 1) (full B) d := by
  -- the one piece agrees with the full buffer
  have hL : ∀ p ∈ [(⟨Rect.unit (s := Big) off bsz inb, w⟩ : View.Piece Val Big e)], ∀ x : p.1.shape.Idx, p.2 x = full B (p.1.emb x) := by
    intro p hp x
    obtain rfl := List.mem_singleton.mp hp
    subst hw
    exact (full_emb B k hk off hoff inb x).symm
  funext y
  have hy1 := idx2_lt1 y
  by_cases hy : y ∈ (Rect.unit (s := Big) off bsz inb).set
  · -- under the store: the payload, which is the full buffer there; and the row is below 200 (k + 1)
    refine (View.read_writes_apply_of_pieces v f (full B) [(⟨Rect.unit (s := Big) off bsz inb, w⟩ : View.Piece Val Big e)] hL y
      ⟨(⟨Rect.unit (s := Big) off bsz inb, w⟩ : View.Piece Val Big e), List.mem_singleton_self _, hy⟩).trans ?_
    rw [Rect.mem_set_unit] at hy
    have h0 := (hy (0 : Fin 2)).2
    subst hoff
    have h0' : (y 0).val < 200 * k + 200 := h0
    unfold mixed
    rw [if_pos (by omega)]
  · -- off the store: what the buffer held; the row is below 200 k or at least 200 (k + 1)
    refine (View.read_writes_apply_of_forall_not_mem v f y [(⟨Rect.unit (s := Big) off bsz inb, w⟩ : View.Piece Val Big e)]
      (fun p hp => by obtain rfl := List.mem_singleton.mp hp; exact hy)).trans ?_
    rw [hf]
    rw [Rect.mem_set_unit] at hy
    subst hoff
    have hrow : (y 0).val < 200 * k ∨ 200 * k + 200 ≤ (y 0).val := by
      by_contra hc
      apply hy
      intro a
      match a with
      | ⟨0, _⟩ =>
        show 200 * k ≤ (y 0).val ∧ (y 0).val < 200 * k + 200
        omega
      | ⟨1, _⟩ =>
        show 0 ≤ (y 1).val ∧ (y 1).val < 0 + 256
        omega
    unfold mixed
    rcases hrow with h | h
    · rw [if_pos h, if_pos (by omega)]
    · rw [if_neg (by omega), if_neg (by omega)]

/-- Band q of the full buffer is B q. -/
theorem rows_full (B : Fin 50 → GatedConv.Mat 200 256) (q : Fin 50) : GatedConv.rows q (full B) = B q := by
  funext j
  have hj := idx2_lt0 j
  have hq := q.isLt
  unfold GatedConv.rows full
  refine B_congr B (Fin.ext ?_) (funext fun a => ?_)
  · show (200 * q.val + (j 0).val) / 200 = q.val
    omega
  · match a with
    | ⟨0, _⟩ =>
      apply Fin.ext
      show (200 * q.val + (j 0).val) % 200 = (j 0).val
      omega
    | ⟨1, _⟩ => rfl

end RowBands

end
-- ==== Proof.KernelCarried.lean ====
/-
  What the kernel carries from one grid position to the next, in closed form, and the proof data of its one
  pipeline.

  Six buffers outlive a position. Position 0 fills four of them whole, each a fixed function of the weight
  blocks and the feature block it finds there: the two first-layer right-hand sides (`rhsAdj1`, `rhsGate1`)
  and the two second-layer projection weights (`projAdj2`, `projGate2`). The other two are filled one 200-row
  band per first-layer position: position q < 50 stores band q, a function (`bandAdj q`, `bandGate q`) of that
  position's two adjacency blocks, its two bias rows and the four buffers above. So after position n the
  rows below 200 · min(n + 1, 50) of each hold the bands' values (`fullAdj2`, `fullGate2`: band q is the q-th
  function) and the rows above still hold whatever the buffer held before the pipeline started; from
  position 49 on they hold `fullAdj2` and `fullGate2` outright. A second-layer position computes its output
  block (`outAt`) from its two adjacency blocks, its two bias rows, its 200 rows of the features and those
  two buffers. The invariant before position n says exactly this; before position 0 it is the class's own
  (every carried buffer at anything).
-/
import proofs.«177975_g80453327389404_cont_9to1c4b_650_7_alg».proof.Proof.KernelGrid
import proofs.«177975_g80453327389404_cont_9to1c4b_650_7_alg».proof.Proof.RowBands

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The staging memrefs a position is called with, and the six carried buffers -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S200x128 .f32 := win0_13.stage (cfg0.slots t 13)
abbrev hs13 (t : Fin cfg0.N) : (ms13 t).IsWhole := hstage0_13 ((cfg0.slots t 13).cast nbuf0_13)
abbrev sc0 : Memref sig .tc .vmem S10000x256 .bf16 := Memref.whole cc0_scratch0
abbrev sc1 : Memref sig .tc .vmem S10000x256 .bf16 := Memref.whole cc0_scratch1
abbrev sc2 : Memref sig .tc .vmem S10000x256 .bf16 := Memref.whole cc0_scratch2
abbrev sc3 : Memref sig .tc .vmem S10000x256 .bf16 := Memref.whole cc0_scratch3
abbrev sc4 : Memref sig .tc .vmem S128x256 .bf16 := Memref.whole cc0_scratch4
abbrev sc5 : Memref sig .tc .vmem S128x256 .bf16 := Memref.whole cc0_scratch5

/-- The class's region invariant with the six carried buffers written out: each at some contents, and the
    generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-! ## Positions -/

/-- Position 0. -/
abbrev p0 : Fin cfg0.N := ⟨0, lt_of_lt_of_eq (by decide : 0 < 100) N_0.symm⟩
/-- The first-layer position that stores band `q`. -/
def pos1 (q : Fin 50) : Fin cfg0.N := ⟨q.val, lt_of_lt_of_eq (by have := q.isLt; omega : q.val < 100) N_0.symm⟩

theorem pos1_val (q : Fin 50) : (pos1 q).val = q.val := rfl

/-! ## The carried contents -/

/-- What position 0 leaves in the first carried buffer: the adjacency's first-layer right-hand side. -/
def rhsAdj1 (c : Dev nD) : Vec F S10000x256 .bf16 :=
  k0_pay9 (iblk m c 3 p0) (iblk m c 3 p0) (iblk m c 4 p0) (iblk m c 2 p0)
/-- … in the second: the gate adjacency's first-layer right-hand side. -/
def rhsGate1 (c : Dev nD) : Vec F S10000x256 .bf16 :=
  k0_pay10 (iblk m c 3 p0) (iblk m c 3 p0) (iblk m c 5 p0) (iblk m c 2 p0)
/-- … in the fifth: the second layer's weight beside its product with the first gate projection. -/
def projAdj2 (c : Dev nD) : Vec F S128x256 .bf16 :=
  k0_pay1 (k0_pay11 (iblk m c 6 p0)) (iblk m c 6 p0) (k0_pay12 (iblk m c 7 p0)) (constant S128x128 .f32 0x00000000#32)
/-- … in the sixth: the same with the second gate projection. -/
def projGate2 (c : Dev nD) : Vec F S128x256 .bf16 :=
  k0_pay2 (k0_pay11 (iblk m c 6 p0)) (iblk m c 6 p0) (iblk m c 8 p0)

/-- The band a first-layer position stores into the third carried buffer. -/
def bandAdjAt (c : Dev nD) (t : Fin cfg0.N) : Vec F S200x256 .bf16 :=
  k0_pay14 (k0_pay3 (iblk m c 0 t)) (k0_pay4 (iblk m c 1 t)) (rhsAdj1 m c) (rhsGate1 m c) (iblk m c 10 t) (iblk m c 9 t) (projAdj2 m c)
/-- The band a first-layer position stores into the fourth carried buffer. -/
def bandGateAt (c : Dev nD) (t : Fin cfg0.N) : Vec F S200x256 .bf16 :=
  k0_pay5 (k0_pay15 (k0_pay3 (iblk m c 0 t)) (k0_pay4 (iblk m c 1 t)) (rhsAdj1 m c) (rhsGate1 m c) (iblk m c 10 t) (iblk m c 9 t) (projGate2 m c))

/-- The third carried buffer once every band is stored. -/
def fullAdj2 (c : Dev nD) : Vec F S10000x256 .bf16 := RowBands.full fun q => bandAdjAt m c (pos1 q)
/-- The fourth carried buffer once every band is stored. -/
def fullGate2 (c : Dev nD) : Vec F S10000x256 .bf16 := RowBands.full fun q => bandGateAt m c (pos1 q)

/-- The output block a second-layer position stores (at a first-layer position, where the window is idle and
    nothing is written back, contents the certificate does not name). -/
def outAt (c : Dev nD) (t : Fin cfg0.N) : Vec F S200x128 .f32 :=
  if h : k0_cond3 (grid0.coords t) = 1#1 then
    k0_pay6 (iblk m c 0 t) (iblk m c 1 t) (fullAdj2 m c) (fullGate2 m c) (iblk m c 12 t) (iblk m c 11 t)
      (View.ld (iblk m c 2 t) (Rect.unit (s := S10000x128) (k0_off2 (grid0.coords t)) S200x128.size (k0_off2_inb (grid0.coords t) h)))
  else Pipeline.Dat.unnamed (cfg := cfg0) 13 t

/-! ## The invariant -/

/-- The region invariant before position `n`. -/
def Phi (c : Dev nD) : (n : ℕ) → n ≤ cfg0.N → sProp 𝕄
  | 0, _ => Pipeline.ΦA spec0 c
  | n + 1, _ => iprop(iprop(owns (c : Thread nD τ) sc0 fullShare (rhsAdj1 m c) ∗ owns (c : Thread nD τ) sc1 fullShare (rhsGate1 m c)
      ∗ (∃ d, owns (c : Thread nD τ) sc2 fullShare (RowBands.mixed (min (n + 1) 50) (fullAdj2 m c) d))
      ∗ (∃ d, owns (c : Thread nD τ) sc3 fullShare (RowBands.mixed (min (n + 1) 50) (fullGate2 m c) d))
      ∗ owns (c : Thread nD τ) sc4 fullShare (projAdj2 m c) ∗ owns (c : Thread nD τ) sc5 fullShare (projGate2 m c)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n + 1 ≤ cfg0.N) :
    Phi m c (n + 1) hn = iprop(iprop(owns (c : Thread nD τ) sc0 fullShare (rhsAdj1 m c) ∗ owns (c : Thread nD τ) sc1 fullShare (rhsGate1 m c)
      ∗ (∃ d, owns (c : Thread nD τ) sc2 fullShare (RowBands.mixed (min (n + 1) 50) (fullAdj2 m c) d))
      ∗ (∃ d, owns (c : Thread nD τ) sc3 fullShare (RowBands.mixed (min (n + 1) 50) (fullGate2 m c) d))
      ∗ owns (c : Thread nD τ) sc4 fullShare (projAdj2 m c) ∗ owns (c : Thread nD τ) sc5 fullShare (projGate2 m c)) ∗ (∃ r, prngReg c r)) := rfl

theorem Phi_pos (c : Dev nD) (n : ℕ) (h : n ≤ cfg0.N) (hz : n ≠ 0) :
    Phi m c n h = iprop(iprop(owns (c : Thread nD τ) sc0 fullShare (rhsAdj1 m c) ∗ owns (c : Thread nD τ) sc1 fullShare (rhsGate1 m c)
      ∗ (∃ d, owns (c : Thread nD τ) sc2 fullShare (RowBands.mixed (min n 50) (fullAdj2 m c) d))
      ∗ (∃ d, owns (c : Thread nD τ) sc3 fullShare (RowBands.mixed (min n 50) (fullGate2 m c) d))
      ∗ owns (c : Thread nD τ) sc4 fullShare (projAdj2 m c) ∗ owns (c : Thread nD τ) sc5 fullShare (projGate2 m c)) ∗ (∃ r, prngReg c r)) := by
  cases n with
  | zero => exact absurd rfl hz
  | succ n => rfl

/-! ## The proof data -/

/-- The proof data of the one pipeline on core `c`: the arrays as the region finds them; after the body each
    input's buffer at its block and the output's at `outAt`; the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_9 : ∀ t : Fin cfg0.N, cfg0.idle 9 (grid0.coords t) = false := fun _ => rfl
theorem live_10 : ∀ t : Fin cfg0.N, cfg0.idle 10 (grid0.coords t) = false := fun _ => rfl
theorem live_11 : ∀ t : Fin cfg0.N, cfg0.idle 11 (grid0.coords t) = false := fun _ => rfl
theorem live_12 : ∀ t : Fin cfg0.N, cfg0.idle 12 (grid0.coords t) = false := fun _ => rfl

end Cert.Kernel.Hand

end
-- ==== Proof.KernelRunLayer2.lean ====
/-
  The body at a position of the second layer. Neither the prologue nor the first-layer branch runs; the
  second-layer branch loads the two carried row-band buffers whole, the two biases, the rows of the input it
  adds back and the output block, and stores the output block whole. Every staged input and all six carried
  buffers are handed back as they were found; the output block ends at the one stored piece.
-/
import proofs.«177975_g80453327389404_cont_9to1c4b_650_7_alg».proof.Proof.KernelGrid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
/-- The stored piece of the output block (found by the run), with the run: from the inputs and the carried
    buffers at named contents, the output block at anything, the body runs to a continuation that holds the
    inputs and the carried buffers unchanged and the output block with the piece written. -/
noncomputable def runLayer2 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : ¬condFirst i) (hc1 : ¬k0_cond2 i = 1#1) (hc2 : k0_cond3 i = 1#1)
    (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    { L13 : List (View.Piece (Elt F) S200x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare s0 ∗ owns (c : Thread nD τ) arg17 fullShare s1 ∗ owns (c : Thread nD τ) arg18 fullShare s2 ∗ owns (c : Thread nD τ) arg19 fullShare s3 ∗ owns (c : Thread nD τ) arg20 fullShare s4 ∗ owns (c : Thread nD τ) arg21 fullShare s5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ owns (c : Thread nD τ) arg16 fullShare s0 ∗ owns (c : Thread nD τ) arg17 fullShare s1 ∗ owns (c : Thread nD τ) arg18 fullShare s2 ∗ owns (c : Thread nD τ) arg19 fullShare s3 ∗ owns (c : Thread nD τ) arg20 fullShare s4 ∗ owns (c : Thread nD τ) arg21 fullShare s5) -∗ K ⟨⟩))
          ⊢ wp frame (wpE (defs₀ (F := F)) Variants.none c none) E (cc0__mono_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun E K => ?run⟩
  case run =>
    simp only [cc0__mono_kernel_eq_skeleton]; unfold cc0__mono_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    iexists _; isplitr; · ipureintro; exact harg21.read_unread _
    iexact H21

end Cert.Kernel.Hand

end
-- ==== Proof.KernelRunLayer1.lean ====
/-
  The body at a later position of the first layer. The prologue does not run; the first-layer branch reads
  the four buffers the prologue filled, computes the position's row band and stores it into the two carried
  row-band buffers. The staged inputs, the (idle) output block and the four prologue buffers are handed back
  as found; each row-band buffer ends at its prior contents with the stored piece written.
-/
import proofs.«177975_g80453327389404_cont_9to1c4b_650_7_alg».proof.Proof.KernelGrid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
/-- The stored pieces (found by the run), with the run. -/
noncomputable def runLayer1 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : ¬condFirst i) (hc1 : k0_cond2 i = 1#1) (hc2 : ¬k0_cond3 i = 1#1)
    (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    Σ' (L18 : List (View.Piece (Elt F) S10000x256 .bf16)), { L19 : List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare s0 ∗ owns (c : Thread nD τ) arg17 fullShare s1 ∗ owns (c : Thread nD τ) arg18 fullShare s2 ∗ owns (c : Thread nD τ) arg19 fullShare s3 ∗ owns (c : Thread nD τ) arg20 fullShare s4 ∗ owns (c : Thread nD τ) arg21 fullShare s5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare s0 ∗ owns (c : Thread nD τ) arg17 fullShare s1 ∗ (arg18.view.loc (c : Thread nD τ) ↦[arg18.view.set]{fullShare} arg18.view.writes (Elt F) (harg18.unread s2) L18) ∗ (arg19.view.loc (c : Thread nD τ) ↦[arg19.view.set]{fullShare} arg19.view.writes (Elt F) (harg19.unread s3) L19) ∗ owns (c : Thread nD τ) arg20 fullShare s4 ∗ owns (c : Thread nD τ) arg21 fullShare s5) -∗ K ⟨⟩))
          ⊢ wp frame (wpE (defs₀ (F := F)) Variants.none c none) E (cc0__mono_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0__mono_kernel_eq_skeleton]; unfold cc0__mono_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]; · iexact H18
    isplitl [H19]; · iexact H19
    isplitl [H20]
    · iexists _; isplitr; · ipureintro; exact harg20.read_unread _
      iexact H20
    iexists _; isplitr; · ipureintro; exact harg21.read_unread _
    iexact H21

end Cert.Kernel.Hand

end
-- ==== Proof.KernelRunFirst.lean ====
/-
  The body at position 0. The prologue runs: it stores the two first-layer right-hand sides and the two
  second-layer projection weights, each buffer whole; then the first-layer branch reads them back, computes
  the position's row band and stores it into the two carried row-band buffers. The staged inputs and the
  (idle) output block are handed back as found; each of the six carried buffers ends at its prior contents
  with the stored pieces written.
-/
import proofs.«177975_g80453327389404_cont_9to1c4b_650_7_alg».proof.Proof.KernelGrid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
/-- The stored pieces (found by the run), with the run. -/
noncomputable def runFirst (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1)
    (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    Σ' (L16 : List (View.Piece (Elt F) S10000x256 .bf16)), Σ' (L17 : List (View.Piece (Elt F) S10000x256 .bf16)), Σ' (L18 : List (View.Piece (Elt F) S10000x256 .bf16)), Σ' (L19 : List (View.Piece (Elt F) S10000x256 .bf16)), Σ' (L20 : List (View.Piece (Elt F) S128x256 .bf16)), { L21 : List (View.Piece (Elt F) S128x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare s0 ∗ owns (c : Thread nD τ) arg17 fullShare s1 ∗ owns (c : Thread nD τ) arg18 fullShare s2 ∗ owns (c : Thread nD τ) arg19 fullShare s3 ∗ owns (c : Thread nD τ) arg20 fullShare s4 ∗ owns (c : Thread nD τ) arg21 fullShare s5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (arg16.view.loc (c : Thread nD τ) ↦[arg16.view.set]{fullShare} arg16.view.writes (Elt F) (harg16.unread s0) L16) ∗ (arg17.view.loc (c : Thread nD τ) ↦[arg17.view.set]{fullShare} arg17.view.writes (Elt F) (harg17.unread s1) L17) ∗ (arg18.view.loc (c : Thread nD τ) ↦[arg18.view.set]{fullShare} arg18.view.writes (Elt F) (harg18.unread s2) L18) ∗ (arg19.view.loc (c : Thread nD τ) ↦[arg19.view.set]{fullShare} arg19.view.writes (Elt F) (harg19.unread s3) L19) ∗ (arg20.view.loc (c : Thread nD τ) ↦[arg20.view.set]{fullShare} arg20.view.writes (Elt F) (harg20.unread s4) L20) ∗ (arg21.view.loc (c : Thread nD τ) ↦[arg21.view.set]{fullShare} arg21.view.writes (Elt F) (harg21.unread s5) L21)) -∗ K ⟨⟩))
          ⊢ wp frame (wpE (defs₀ (F := F)) Variants.none c none) E (cc0__mono_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc0__mono_kernel_eq_skeleton]; unfold cc0__mono_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexact H16
    isplitl [H17]; · iexact H17
    isplitl [H18]; · iexact H18
    isplitl [H19]; · iexact H19
    isplitl [H20]; · iexact H20
    iexact H21

end Cert.Kernel.Hand

end
-- ==== Proof.KernelStored.lean ====
/-
  What the three runs of the body store, piece by piece, over the named payloads.

  Every load of the body reads a buffer that is owned whole at named contents, through the whole-buffer
  rectangle (it reads the contents) or, for the two carried row-band buffers and the rows of the features
  added back, through a 200-row rectangle at the position's offset; a buffer the same run has just stored
  whole reads back the stored payload. Substituting these into the pieces the runs found leaves each stored
  piece as a rectangle with one payload term of the contents the position was called with.
-/
import proofs.«177975_g80453327389404_cont_9to1c4b_650_7_alg».proof.Proof.KernelRunLayer2
import proofs.«177975_g80453327389404_cont_9to1c4b_650_7_alg».proof.Proof.KernelRunLayer1
import proofs.«177975_g80453327389404_cont_9to1c4b_650_7_alg».proof.Proof.KernelRunFirst
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

theorem zero2 : (![0, 0] : Fin 2 → ℕ) = fun _ => 0 := by funext a; fin_cases a <;> rfl

/-- A second-layer position stores its output block whole. -/
theorem storedLayer2 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : ¬condFirst i) (hc1 : ¬k0_cond2 i = 1#1) (hc2 : k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runLayer2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 s0 s1 s2 s3 s4 s5).1 = [⟨Rect.unit (s := S200x128) ![0, 0] S200x128.size inb_S200x128_S200x128_0_0, k0_pay6 x0 x1 s2 s3 x12 x11 (View.ld x2 (Rect.unit (s := S10000x128) (k0_off2 i) S200x128.size (k0_off2_inb i hc2)))⟩] := by
  unfold runLayer2; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

/-- A later first-layer position stores its band of the third carried buffer … -/
theorem storedLayer1_adj (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : ¬condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runLayer1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).1 = [⟨Rect.unit (s := S10000x256) (k0_off1 i) S200x256.size (k0_off1_inb i hc1), k0_pay14 (k0_pay3 x0) (k0_pay4 x1) s0 s1 x10 x9 s4⟩] := by
  unfold runLayer1; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

/-- … and of the fourth. -/
theorem storedLayer1_gate (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : ¬condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runLayer1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).2.1 = [⟨Rect.unit (s := S10000x256) (k0_off1 i) S200x256.size (k0_off1_inb i hc1), k0_pay5 (k0_pay15 (k0_pay3 x0) (k0_pay4 x1) s0 s1 x10 x9 s5)⟩] := by
  unfold runLayer1; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

/-- Position 0 stores the four prologue buffers whole … -/
theorem storedFirst_rhsAdj (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).1 = [⟨Rect.unit (s := S10000x256) ![0, 0] S10000x256.size inb_S10000x256_S10000x256_0_0, k0_pay9 x3 x3 x4 x2⟩] := by
  unfold runFirst; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

theorem storedFirst_rhsGate (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).2.1 = [⟨Rect.unit (s := S10000x256) ![0, 0] S10000x256.size inb_S10000x256_S10000x256_0_0, k0_pay10 x3 x3 x5 x2⟩] := by
  unfold runFirst; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

theorem storedFirst_projAdj (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).2.2.2.2.1 = [⟨Rect.unit (s := S128x256) ![0, 0] S128x256.size inb_S128x256_S128x256_0_0, k0_pay1 (k0_pay11 x6) x6 (k0_pay12 x7) (constant S128x128 .f32 0x00000000#32)⟩] := by
  unfold runFirst; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

theorem storedFirst_projGate (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).2.2.2.2.2.1 = [⟨Rect.unit (s := S128x256) ![0, 0] S128x256.size inb_S128x256_S128x256_0_0, k0_pay2 (k0_pay11 x6) x6 x8⟩] := by
  unfold runFirst; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

/-- … and its band of the two row-band buffers, computed from the prologue's values. -/
theorem storedFirst_adj (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).2.2.1 = [⟨Rect.unit (s := S10000x256) (k0_off1 i) S200x256.size (k0_off1_inb i hc1), k0_pay14 (k0_pay3 x0) (k0_pay4 x1) (k0_pay9 x3 x3 x4 x2) (k0_pay10 x3 x3 x5 x2) x10 x9 (k0_pay1 (k0_pay11 x6) x6 (k0_pay12 x7) (constant S128x128 .f32 0x00000000#32))⟩] := by
  unfold runFirst; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

theorem storedFirst_gate (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).2.2.2.1 = [⟨Rect.unit (s := S10000x256) (k0_off1 i) S200x256.size (k0_off1_inb i hc1), k0_pay5 (k0_pay15 (k0_pay3 x0) (k0_pay4 x1) (k0_pay9 x3 x3 x4 x2) (k0_pay10 x3 x3 x5 x2) x10 x9 (k0_pay2 (k0_pay11 x6) x6 x8))⟩] := by
  unfold runFirst; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

end Cert.Kernel.Hand

end
-- ==== Proof.KernelObligation.lean ====
/-
  The body obligation of the one pipeline: at every grid position the body, called with the invariant before
  the position and each window's staging buffer at what the schedule leaves there, runs to the invariant after
  the position and each buffer at what the proof data names.

  Three cases by the position. At position 0 the invariant is the class's own (the six carried buffers at
  anything): the prologue fills four of them and band 0 of the other two, whose remaining rows keep what they
  held. At a later first-layer position t < 50 the four prologue buffers are read and kept, and band t of the
  row-band buffers is stored over rows that so far held bands 0 … t − 1 and the original rest. At a
  second-layer position (t ≥ 50) all six carried buffers are read and kept — the row-band buffers now hold
  every band — and the output block is stored whole. The output window is idle and not written back through
  the first layer, so there its buffer is handed back exactly as found.
-/
import proofs.«177975_g80453327389404_cont_9to1c4b_650_7_alg».proof.Proof.KernelCarried
import proofs.«177975_g80453327389404_cont_9to1c4b_650_7_alg».proof.Proof.KernelStored

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-- What the body is called with at position `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem min_le50 (n : ℕ) (h : n ≤ 50) : min n 50 = n := by omega
theorem min_ge (n : ℕ) (h : 50 ≤ n) : min n 50 = 50 := by omega

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rewrite [show (dats m 0 c).owesAt () t.succ = (dats m 0 c).owesAt () t.castSucc from rfl]
  rewrite [show (dats m 0 c).Φ t.succ = Phi m c (t.val + 1) t.isLt from rfl, Phi_succ]
  rewrite [show (dats m 0 c).leavesExact 0 t = owns (c : Thread nD τ) (ms0 t) fullShare ((dats m 0 c).after 0 t) from by
    unfold Dat.leavesExact; rw [live_0 t], after_0]
  rewrite [show (dats m 0 c).leavesExact 1 t = owns (c : Thread nD τ) (ms1 t) fullShare ((dats m 0 c).after 1 t) from by
    unfold Dat.leavesExact; rw [live_1 t], after_1]
  rewrite [show (dats m 0 c).leavesExact 2 t = owns (c : Thread nD τ) (ms2 t) fullShare ((dats m 0 c).after 2 t) from by
    unfold Dat.leavesExact; rw [live_2 t], after_2]
  rewrite [show (dats m 0 c).leavesExact 3 t = owns (c : Thread nD τ) (ms3 t) fullShare ((dats m 0 c).after 3 t) from by
    unfold Dat.leavesExact; rw [live_3 t], after_3]
  rewrite [show (dats m 0 c).leavesExact 4 t = owns (c : Thread nD τ) (ms4 t) fullShare ((dats m 0 c).after 4 t) from by
    unfold Dat.leavesExact; rw [live_4 t], after_4]
  rewrite [show (dats m 0 c).leavesExact 5 t = owns (c : Thread nD τ) (ms5 t) fullShare ((dats m 0 c).after 5 t) from by
    unfold Dat.leavesExact; rw [live_5 t], after_5]
  rewrite [show (dats m 0 c).leavesExact 6 t = owns (c : Thread nD τ) (ms6 t) fullShare ((dats m 0 c).after 6 t) from by
    unfold Dat.leavesExact; rw [live_6 t], after_6]
  rewrite [show (dats m 0 c).leavesExact 7 t = owns (c : Thread nD τ) (ms7 t) fullShare ((dats m 0 c).after 7 t) from by
    unfold Dat.leavesExact; rw [live_7 t], after_7]
  rewrite [show (dats m 0 c).leavesExact 8 t = owns (c : Thread nD τ) (ms8 t) fullShare ((dats m 0 c).after 8 t) from by
    unfold Dat.leavesExact; rw [live_8 t], after_8]
  rewrite [show (dats m 0 c).leavesExact 9 t = owns (c : Thread nD τ) (ms9 t) fullShare ((dats m 0 c).after 9 t) from by
    unfold Dat.leavesExact; rw [live_9 t], after_9]
  rewrite [show (dats m 0 c).leavesExact 10 t = owns (c : Thread nD τ) (ms10 t) fullShare ((dats m 0 c).after 10 t) from by
    unfold Dat.leavesExact; rw [live_10 t], after_10]
  rewrite [show (dats m 0 c).leavesExact 11 t = owns (c : Thread nD τ) (ms11 t) fullShare ((dats m 0 c).after 11 t) from by
    unfold Dat.leavesExact; rw [live_11 t], after_11]
  rewrite [show (dats m 0 c).leavesExact 12 t = owns (c : Thread nD τ) (ms12 t) fullShare ((dats m 0 c).after 12 t) from by
    unfold Dat.leavesExact; rw [live_12 t], after_12]
  have hN : t.val < 100 := lt_of_lt_of_eq t.isLt (show cfg0.N = 100 from N_0)
  by_cases h1 : t.val < 50
  · rewrite [Dat.leavesExact_idle (dats m 0 c) 13 t (by rw [idle_out]; exact decide_eq_true h1) (by rw [flush_out]; exact decide_eq_false (Nat.not_le.mpr h1))]
    rewrite [min_le50 (t.val + 1) (by omega)]
    by_cases hz : t.val = 0
    · -- position 0
      rewrite [Phi_castSucc m c t, Phi_zero m c _ _ hz, PhiA_eq]
      iintro ⟨⟨⟨⟨%d0, HS0⟩, ⟨%d1, HS1⟩, ⟨%d2, HS2⟩, ⟨%d3, HS3⟩, ⟨%d4, HS4⟩, ⟨%d5, HS5⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _) sc2 (Memref.isWhole_whole _) sc3 (Memref.isWhole_whole _) sc4 (Memref.isWhole_whole _) sc5 (Memref.isWhole_whole _) ((condFirst_iff t).mpr hz) ((condLayer1_iff t).mpr h1) (fun h => absurd ((condLayer2_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t e13) d0 d1 d2 d3 d4 d5).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, HS0, HS1, HS2, HS3, HS4, HS5⟩
      obtain rfl : t = p0 := Fin.ext hz
      isplitl [HS0 HS1 HS2 HS3 HS4 HS5 Hg]
      · isplitl [HS0 HS1 HS2 HS3 HS4 HS5]
        · isplitl [HS0]
          · unfold owns; iexists _; isplitr
            swap; · iexact HS0
            ipureintro
            rw [storedFirst_rhsAdj]
            exact RowBands.read_store_whole _ _ zero2 _ _
          isplitl [HS1]
          · unfold owns; iexists _; isplitr
            swap; · iexact HS1
            ipureintro
            rw [storedFirst_rhsGate]
            exact RowBands.read_store_whole _ _ zero2 _ _
          isplitl [HS2]
          · iexists d2
            unfold owns; iexists _; isplitr
            swap; · iexact HS2
            ipureintro
            rw [storedFirst_adj]
            exact RowBands.read_store_band sc2.view _ 0 (by decide) (fun q => bandAdjAt m c (pos1 q)) d2
              (by rw [Memref.IsWhole.read_unread, RowBands.mixed_zero]) (k0_off1 (grid0.coords p0)) (bandOffset p0 (by decide)) _ _ rfl
          isplitl [HS3]
          · iexists d3
            unfold owns; iexists _; isplitr
            swap; · iexact HS3
            ipureintro
            rw [storedFirst_gate]
            exact RowBands.read_store_band sc3.view _ 0 (by decide) (fun q => bandGateAt m c (pos1 q)) d3
              (by rw [Memref.IsWhole.read_unread, RowBands.mixed_zero]) (k0_off1 (grid0.coords p0)) (bandOffset p0 (by decide)) _ _ rfl
          isplitl [HS4]
          · unfold owns; iexists _; isplitr
            swap; · iexact HS4
            ipureintro
            rw [storedFirst_projAdj]
            exact RowBands.read_store_whole _ _ zero2 _ _
          unfold owns; iexists _; isplitr
          swap; · iexact HS5
          ipureintro
          rw [storedFirst_projGate]
          exact RowBands.read_store_whole _ _ zero2 _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _; iexact H13
    · -- a later first-layer position
      rewrite [Phi_castSucc m c t, Phi_pos m c _ _ hz, min_le50 t.val (by omega)]
      iintro ⟨⟨⟨HS0, HS1, ⟨%d2, HS2⟩, ⟨%d3, HS3⟩, HS4, HS5⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
      iapply ((runLayer1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _) sc2 (Memref.isWhole_whole _) sc3 (Memref.isWhole_whole _) sc4 (Memref.isWhole_whole _) sc5 (Memref.isWhole_whole _) (fun h => hz ((condFirst_iff t).mp h)) ((condLayer1_iff t).mpr h1) (fun h => absurd ((condLayer2_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t e13) (rhsAdj1 m c) (rhsGate1 m c) (RowBands.mixed t.val (fullAdj2 m c) d2) (RowBands.mixed t.val (fullGate2 m c) d3) (projAdj2 m c) (projGate2 m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]
          · iexists d2
            unfold owns; iexists _; isplitr
            swap; · iexact HS2
            ipureintro
            rw [storedLayer1_adj]
            exact RowBands.read_store_band sc2.view _ t.val h1 (fun q => bandAdjAt m c (pos1 q)) d2
              (Memref.IsWhole.read_unread _ _) (k0_off1 (grid0.coords t)) (bandOffset t h1) _ _
              (by show bandAdjAt m c t = bandAdjAt m c (pos1 ⟨t.val, h1⟩); rw [show pos1 ⟨t.val, h1⟩ = t from Fin.ext rfl])
          isplitl [HS3]
          · iexists d3
            unfold owns; iexists _; isplitr
            swap; · iexact HS3
            ipureintro
            rw [storedLayer1_gate]
            exact RowBands.read_store_band sc3.view _ t.val h1 (fun q => bandGateAt m c (pos1 q)) d3
              (Memref.IsWhole.read_unread _ _) (k0_off1 (grid0.coords t)) (bandOffset t h1) _ _
              (by show bandGateAt m c t = bandGateAt m c (pos1 ⟨t.val, h1⟩); rw [show pos1 ⟨t.val, h1⟩ = t from Fin.ext rfl])
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _; iexact H13
  · -- a second-layer position
    have hz : t.val ≠ 0 := by omega
    rewrite [show (dats m 0 c).leavesExact 13 t = owns (c : Thread nD τ) (ms13 t) fullShare ((dats m 0 c).after 13 t) from by
      unfold Dat.leavesExact; rw [show cfg0.idle 13 (grid0.coords t) = false from by rw [idle_out]; exact decide_eq_false h1], after_13]
    rewrite [min_ge (t.val + 1) (by omega)]
    rewrite [Phi_castSucc m c t, Phi_pos m c _ _ hz, min_ge t.val (by omega)]
    iintro ⟨⟨⟨HS0, HS1, ⟨%d2, HS2⟩, ⟨%d3, HS3⟩, HS4, HS5⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
    iapply ((runLayer2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _) sc2 (Memref.isWhole_whole _) sc3 (Memref.isWhole_whole _) sc4 (Memref.isWhole_whole _) sc5 (Memref.isWhole_whole _) (fun h => hz ((condFirst_iff t).mp h)) (fun h => h1 ((condLayer1_iff t).mp h)) ((condLayer2_iff t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (rhsAdj1 m c) (rhsGate1 m c) (RowBands.mixed 50 (fullAdj2 m c) d2) (RowBands.mixed 50 (fullGate2 m c) d3) (projAdj2 m c) (projGate2 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, ⟨%f13, H13⟩, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexists d2; iexact HS2
        isplitl [HS3]; · iexists d3; iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns; iexists _; isplitr
    swap; · iexact H13
    ipureintro
    rw [storedLayer2]
    refine (RowBands.read_store_whole _ _ zero2 _ _).trans ?_
    rw [RowBands.mixed_all, RowBands.mixed_all]
    unfold outAt
    rw [dif_pos ((condLayer2_iff t).mpr (by omega))]
    rfl

/-- The library's body obligation, at every position. -/
theorem body_obligation (c : Dev nD) : BodyObligation (dats (F := F) m 0 c) (defs₀ (F := F)) Variants.none () Set.univ := fun t => by
  rw [bigSep_W0, bigSep_W0]
  exact sound_body m c t

/-- What the launch hands the region is the invariant before position 0. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last position the invariant gives the class's back: the carried contents are forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 100 := N_0; omega), PhiA_eq]
  iintro ⟨⟨HS0, HS1, ⟨%d2, HS2⟩, ⟨%d3, HS3⟩, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-! ## The run and the frame -/

set_option backward.isDefEq.respectTransparency.types false in
/-- Every weakly fair execution of @main terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.KernelIdealGrid.lean ====
/-
  The grid of the one pallas_call is 2 x 50, walked in row-major order: position t = 50 * layer + block.
  The body branches three ways on the coordinates; over the 100 positions each branch condition is a
  comparison of the position with 0 or 50:
    * the prologue (both coordinates zero) runs at position 0 only;
    * the first-layer branch (layer = 0) runs at positions 0 .. 49;
    * the second-layer branch (layer = 1) runs at positions 50 .. 99.
  The row band a first-layer position stores into the carried buffers starts at row 200 * t, the rows of the
  input a second-layer position adds back start at row 200 * (t - 50); the output window is idle through the
  first layer and written back at every position of the second.
-/
import proofs.«177975_g80453327389404_cont_9to1c4b_650_7_alg».proof.Proof.Gen.KernelIdeal.Frame
import proofs.«177975_g80453327389404_cont_9to1c4b_650_7_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The prologue's condition, from the grid coordinates. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem condFirst_iff : ∀ t : Fin cfg0.N, condFirst (grid0.coords t) ↔ t.val = 0 :=
  (by decide +kernel : ∀ t : Fin grid0.N, condFirst (grid0.coords t) ↔ t.val = 0)

theorem condLayer1_iff : ∀ t : Fin cfg0.N, k0_cond2 (grid0.coords t) = 1#1 ↔ t.val < 50 :=
  (by decide +kernel : ∀ t : Fin grid0.N, k0_cond2 (grid0.coords t) = 1#1 ↔ t.val < 50)

theorem condLayer2_iff : ∀ t : Fin cfg0.N, k0_cond3 (grid0.coords t) = 1#1 ↔ 50 ≤ t.val :=
  (by decide +kernel : ∀ t : Fin grid0.N, k0_cond3 (grid0.coords t) = 1#1 ↔ 50 ≤ t.val)

/-- The output window is idle exactly through the first layer. -/
theorem idle_out : ∀ t : Fin cfg0.N, cfg0.idle 13 (grid0.coords t) = decide (t.val < 50) :=
  (by decide +kernel : ∀ t : Fin grid0.N, cfg0.idle 13 (grid0.coords t) = decide (t.val < 50))

/-- The output window is written back exactly at the positions of the second layer. -/
theorem flush_out : ∀ t : Fin cfg0.N, (cfg0.win 13).flush t = decide (50 ≤ t.val) :=
  (by decide +kernel : ∀ t : Fin grid0.N, (cfg0.win 13).flush t = decide (50 ≤ t.val))

/-- The row band of a first-layer position. -/
theorem bandOffset : ∀ t : Fin cfg0.N, t.val < 50 → k0_off1 (grid0.coords t) = ![200 * t.val, 0] :=
  (by decide +kernel : ∀ t : Fin grid0.N, t.val < 50 → k0_off1 (grid0.coords t) = ![200 * t.val, 0])

/-- The input rows a second-layer position adds back. -/
theorem residualOffset : ∀ t : Fin cfg0.N, 50 ≤ t.val → k0_off2 (grid0.coords t) = ![200 * (t.val - 50), 0] :=
  (by decide +kernel : ∀ t : Fin grid0.N, 50 ≤ t.val → k0_off2 (grid0.coords t) = ![200 * (t.val - 50), 0])

end Cert.KernelIdeal.Hand

end
-- ==== Proof.KernelIdealCarried.lean ====
/-
  What the kernel carries from one grid position to the next, in closed form, and the proof data of its one
  pipeline.

  Six buffers outlive a position. Position 0 fills four of them whole, each a fixed function of the weight
  blocks and the feature block it finds there: the two first-layer right-hand sides (`rhsAdj1`, `rhsGate1`)
  and the two second-layer projection weights (`projAdj2`, `projGate2`). The other two are filled one 200-row
  band per first-layer position: position q < 50 stores band q, a function (`bandAdj q`, `bandGate q`) of that
  position's two adjacency blocks, its two bias rows and the four buffers above. So after position n the
  rows below 200 · min(n + 1, 50) of each hold the bands' values (`fullAdj2`, `fullGate2`: band q is the q-th
  function) and the rows above still hold whatever the buffer held before the pipeline started; from
  position 49 on they hold `fullAdj2` and `fullGate2` outright. A second-layer position computes its output
  block (`outAt`) from its two adjacency blocks, its two bias rows, its 200 rows of the features and those
  two buffers. The invariant before position n says exactly this; before position 0 it is the class's own
  (every carried buffer at anything).
-/
import proofs.«177975_g80453327389404_cont_9to1c4b_650_7_alg».proof.Proof.KernelIdealGrid
import proofs.«177975_g80453327389404_cont_9to1c4b_650_7_alg».proof.Proof.RowBands

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The staging memrefs a position is called with, and the six carried buffers -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S200x128 .f32 := win0_13.stage (cfg0.slots t 13)
abbrev hs13 (t : Fin cfg0.N) : (ms13 t).IsWhole := hstage0_13 ((cfg0.slots t 13).cast nbuf0_13)
abbrev sc0 : Memref sig .tc .vmem S10000x256 .bf16 := Memref.whole cc0_scratch0
abbrev sc1 : Memref sig .tc .vmem S10000x256 .bf16 := Memref.whole cc0_scratch1
abbrev sc2 : Memref sig .tc .vmem S10000x256 .bf16 := Memref.whole cc0_scratch2
abbrev sc3 : Memref sig .tc .vmem S10000x256 .bf16 := Memref.whole cc0_scratch3
abbrev sc4 : Memref sig .tc .vmem S128x256 .bf16 := Memref.whole cc0_scratch4
abbrev sc5 : Memref sig .tc .vmem S128x256 .bf16 := Memref.whole cc0_scratch5

/-- The class's region invariant with the six carried buffers written out: each at some contents, and the
    generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-! ## Positions -/

/-- Position 0. -/
abbrev p0 : Fin cfg0.N := ⟨0, lt_of_lt_of_eq (by decide : 0 < 100) N_0.symm⟩
/-- The first-layer position that stores band `q`. -/
def pos1 (q : Fin 50) : Fin cfg0.N := ⟨q.val, lt_of_lt_of_eq (by have := q.isLt; omega : q.val < 100) N_0.symm⟩

theorem pos1_val (q : Fin 50) : (pos1 q).val = q.val := rfl

/-! ## The carried contents -/

/-- What position 0 leaves in the first carried buffer: the adjacency's first-layer right-hand side. -/
def rhsAdj1 (c : Dev nD) : Vec F S10000x256 .bf16 :=
  k0_pay9 (iblk m c 3 p0) (iblk m c 3 p0) (iblk m c 4 p0) (iblk m c 2 p0)
/-- … in the second: the gate adjacency's first-layer right-hand side. -/
def rhsGate1 (c : Dev nD) : Vec F S10000x256 .bf16 :=
  k0_pay10 (iblk m c 3 p0) (iblk m c 3 p0) (iblk m c 5 p0) (iblk m c 2 p0)
/-- … in the fifth: the second layer's weight beside its product with the first gate projection. -/
def projAdj2 (c : Dev nD) : Vec F S128x256 .bf16 :=
  k0_pay1 (k0_pay11 (iblk m c 6 p0)) (iblk m c 6 p0) (k0_pay12 (iblk m c 7 p0)) (constant S128x128 .f32 0x00000000#32)
/-- … in the sixth: the same with the second gate projection. -/
def projGate2 (c : Dev nD) : Vec F S128x256 .bf16 :=
  k0_pay2 (k0_pay11 (iblk m c 6 p0)) (iblk m c 6 p0) (iblk m c 8 p0)

/-- The band a first-layer position stores into the third carried buffer. -/
def bandAdjAt (c : Dev nD) (t : Fin cfg0.N) : Vec F S200x256 .bf16 :=
  k0_pay14 (k0_pay3 (iblk m c 0 t)) (k0_pay4 (iblk m c 1 t)) (rhsAdj1 m c) (rhsGate1 m c) (iblk m c 10 t) (iblk m c 9 t) (projAdj2 m c)
/-- The band a first-layer position stores into the fourth carried buffer. -/
def bandGateAt (c : Dev nD) (t : Fin cfg0.N) : Vec F S200x256 .bf16 :=
  k0_pay5 (k0_pay15 (k0_pay3 (iblk m c 0 t)) (k0_pay4 (iblk m c 1 t)) (rhsAdj1 m c) (rhsGate1 m c) (iblk m c 10 t) (iblk m c 9 t) (projGate2 m c))

/-- The third carried buffer once every band is stored. -/
def fullAdj2 (c : Dev nD) : Vec F S10000x256 .bf16 := RowBands.full fun q => bandAdjAt m c (pos1 q)
/-- The fourth carried buffer once every band is stored. -/
def fullGate2 (c : Dev nD) : Vec F S10000x256 .bf16 := RowBands.full fun q => bandGateAt m c (pos1 q)

/-- The output block a second-layer position stores (at a first-layer position, where the window is idle and
    nothing is written back, contents the certificate does not name). -/
def outAt (c : Dev nD) (t : Fin cfg0.N) : Vec F S200x128 .f32 :=
  if h : k0_cond3 (grid0.coords t) = 1#1 then
    k0_pay6 (iblk m c 0 t) (iblk m c 1 t) (fullAdj2 m c) (fullGate2 m c) (iblk m c 12 t) (iblk m c 11 t)
      (View.ld (iblk m c 2 t) (Rect.unit (s := S10000x128) (k0_off2 (grid0.coords t)) S200x128.size (k0_off2_inb (grid0.coords t) h)))
  else Pipeline.Dat.unnamed (cfg := cfg0) 13 t

/-! ## The invariant -/

/-- The region invariant before position `n`. -/
def Phi (c : Dev nD) : (n : ℕ) → n ≤ cfg0.N → sProp 𝕄
  | 0, _ => Pipeline.ΦA spec0 c
  | n + 1, _ => iprop(iprop(owns (c : Thread nD τ) sc0 fullShare (rhsAdj1 m c) ∗ owns (c : Thread nD τ) sc1 fullShare (rhsGate1 m c)
      ∗ (∃ d, owns (c : Thread nD τ) sc2 fullShare (RowBands.mixed (min (n + 1) 50) (fullAdj2 m c) d))
      ∗ (∃ d, owns (c : Thread nD τ) sc3 fullShare (RowBands.mixed (min (n + 1) 50) (fullGate2 m c) d))
      ∗ owns (c : Thread nD τ) sc4 fullShare (projAdj2 m c) ∗ owns (c : Thread nD τ) sc5 fullShare (projGate2 m c)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n + 1 ≤ cfg0.N) :
    Phi m c (n + 1) hn = iprop(iprop(owns (c : Thread nD τ) sc0 fullShare (rhsAdj1 m c) ∗ owns (c : Thread nD τ) sc1 fullShare (rhsGate1 m c)
      ∗ (∃ d, owns (c : Thread nD τ) sc2 fullShare (RowBands.mixed (min (n + 1) 50) (fullAdj2 m c) d))
      ∗ (∃ d, owns (c : Thread nD τ) sc3 fullShare (RowBands.mixed (min (n + 1) 50) (fullGate2 m c) d))
      ∗ owns (c : Thread nD τ) sc4 fullShare (projAdj2 m c) ∗ owns (c : Thread nD τ) sc5 fullShare (projGate2 m c)) ∗ (∃ r, prngReg c r)) := rfl

theorem Phi_pos (c : Dev nD) (n : ℕ) (h : n ≤ cfg0.N) (hz : n ≠ 0) :
    Phi m c n h = iprop(iprop(owns (c : Thread nD τ) sc0 fullShare (rhsAdj1 m c) ∗ owns (c : Thread nD τ) sc1 fullShare (rhsGate1 m c)
      ∗ (∃ d, owns (c : Thread nD τ) sc2 fullShare (RowBands.mixed (min n 50) (fullAdj2 m c) d))
      ∗ (∃ d, owns (c : Thread nD τ) sc3 fullShare (RowBands.mixed (min n 50) (fullGate2 m c) d))
      ∗ owns (c : Thread nD τ) sc4 fullShare (projAdj2 m c) ∗ owns (c : Thread nD τ) sc5 fullShare (projGate2 m c)) ∗ (∃ r, prngReg c r)) := by
  cases n with
  | zero => exact absurd rfl hz
  | succ n => rfl

/-! ## The proof data -/

/-- The proof data of the one pipeline on core `c`: the arrays as the region finds them; after the body each
    input's buffer at its block and the output's at `outAt`; the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_9 : ∀ t : Fin cfg0.N, cfg0.idle 9 (grid0.coords t) = false := fun _ => rfl
theorem live_10 : ∀ t : Fin cfg0.N, cfg0.idle 10 (grid0.coords t) = false := fun _ => rfl
theorem live_11 : ∀ t : Fin cfg0.N, cfg0.idle 11 (grid0.coords t) = false := fun _ => rfl
theorem live_12 : ∀ t : Fin cfg0.N, cfg0.idle 12 (grid0.coords t) = false := fun _ => rfl

end Cert.KernelIdeal.Hand

end
-- ==== Proof.KernelIdealRunLayer2.lean ====
/-
  The body at a position of the second layer. Neither the prologue nor the first-layer branch runs; the
  second-layer branch loads the two carried row-band buffers whole, the two biases, the rows of the input it
  adds back and the output block, and stores the output block whole. Every staged input and all six carried
  buffers are handed back as they were found; the output block ends at the one stored piece.
-/
import proofs.«177975_g80453327389404_cont_9to1c4b_650_7_alg».proof.Proof.KernelIdealGrid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
/-- The stored piece of the output block (found by the run), with the run: from the inputs and the carried
    buffers at named contents, the output block at anything, the body runs to a continuation that holds the
    inputs and the carried buffers unchanged and the output block with the piece written. -/
noncomputable def runLayer2 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : ¬condFirst i) (hc1 : ¬k0_cond2 i = 1#1) (hc2 : k0_cond3 i = 1#1)
    (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    { L13 : List (View.Piece (Elt F) S200x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare s0 ∗ owns (c : Thread nD τ) arg17 fullShare s1 ∗ owns (c : Thread nD τ) arg18 fullShare s2 ∗ owns (c : Thread nD τ) arg19 fullShare s3 ∗ owns (c : Thread nD τ) arg20 fullShare s4 ∗ owns (c : Thread nD τ) arg21 fullShare s5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ owns (c : Thread nD τ) arg16 fullShare s0 ∗ owns (c : Thread nD τ) arg17 fullShare s1 ∗ owns (c : Thread nD τ) arg18 fullShare s2 ∗ owns (c : Thread nD τ) arg19 fullShare s3 ∗ owns (c : Thread nD τ) arg20 fullShare s4 ∗ owns (c : Thread nD τ) arg21 fullShare s5) -∗ K ⟨⟩))
          ⊢ wp frame (wpE (defs₀ (F := F)) Variants.none c none) E (cc0__mono_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun E K => ?run⟩
  case run =>
    simp only [cc0__mono_kernel_eq_skeleton]; unfold cc0__mono_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    iexists _; isplitr; · ipureintro; exact harg21.read_unread _
    iexact H21

end Cert.KernelIdeal.Hand

end
-- ==== Proof.KernelIdealRunLayer1.lean ====
/-
  The body at a later position of the first layer. The prologue does not run; the first-layer branch reads
  the four buffers the prologue filled, computes the position's row band and stores it into the two carried
  row-band buffers. The staged inputs, the (idle) output block and the four prologue buffers are handed back
  as found; each row-band buffer ends at its prior contents with the stored piece written.
-/
import proofs.«177975_g80453327389404_cont_9to1c4b_650_7_alg».proof.Proof.KernelIdealGrid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
/-- The stored pieces (found by the run), with the run. -/
noncomputable def runLayer1 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : ¬condFirst i) (hc1 : k0_cond2 i = 1#1) (hc2 : ¬k0_cond3 i = 1#1)
    (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    Σ' (L18 : List (View.Piece (Elt F) S10000x256 .bf16)), { L19 : List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare s0 ∗ owns (c : Thread nD τ) arg17 fullShare s1 ∗ owns (c : Thread nD τ) arg18 fullShare s2 ∗ owns (c : Thread nD τ) arg19 fullShare s3 ∗ owns (c : Thread nD τ) arg20 fullShare s4 ∗ owns (c : Thread nD τ) arg21 fullShare s5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare s0 ∗ owns (c : Thread nD τ) arg17 fullShare s1 ∗ (arg18.view.loc (c : Thread nD τ) ↦[arg18.view.set]{fullShare} arg18.view.writes (Elt F) (harg18.unread s2) L18) ∗ (arg19.view.loc (c : Thread nD τ) ↦[arg19.view.set]{fullShare} arg19.view.writes (Elt F) (harg19.unread s3) L19) ∗ owns (c : Thread nD τ) arg20 fullShare s4 ∗ owns (c : Thread nD τ) arg21 fullShare s5) -∗ K ⟨⟩))
          ⊢ wp frame (wpE (defs₀ (F := F)) Variants.none c none) E (cc0__mono_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0__mono_kernel_eq_skeleton]; unfold cc0__mono_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]; · iexact H18
    isplitl [H19]; · iexact H19
    isplitl [H20]
    · iexists _; isplitr; · ipureintro; exact harg20.read_unread _
      iexact H20
    iexists _; isplitr; · ipureintro; exact harg21.read_unread _
    iexact H21

end Cert.KernelIdeal.Hand

end
-- ==== Proof.KernelIdealRunFirst.lean ====
/-
  The body at position 0. The prologue runs: it stores the two first-layer right-hand sides and the two
  second-layer projection weights, each buffer whole; then the first-layer branch reads them back, computes
  the position's row band and stores it into the two carried row-band buffers. The staged inputs and the
  (idle) output block are handed back as found; each of the six carried buffers ends at its prior contents
  with the stored pieces written.
-/
import proofs.«177975_g80453327389404_cont_9to1c4b_650_7_alg».proof.Proof.KernelIdealGrid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
/-- The stored pieces (found by the run), with the run. -/
noncomputable def runFirst (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1)
    (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    Σ' (L16 : List (View.Piece (Elt F) S10000x256 .bf16)), Σ' (L17 : List (View.Piece (Elt F) S10000x256 .bf16)), Σ' (L18 : List (View.Piece (Elt F) S10000x256 .bf16)), Σ' (L19 : List (View.Piece (Elt F) S10000x256 .bf16)), Σ' (L20 : List (View.Piece (Elt F) S128x256 .bf16)), { L21 : List (View.Piece (Elt F) S128x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare s0 ∗ owns (c : Thread nD τ) arg17 fullShare s1 ∗ owns (c : Thread nD τ) arg18 fullShare s2 ∗ owns (c : Thread nD τ) arg19 fullShare s3 ∗ owns (c : Thread nD τ) arg20 fullShare s4 ∗ owns (c : Thread nD τ) arg21 fullShare s5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (arg16.view.loc (c : Thread nD τ) ↦[arg16.view.set]{fullShare} arg16.view.writes (Elt F) (harg16.unread s0) L16) ∗ (arg17.view.loc (c : Thread nD τ) ↦[arg17.view.set]{fullShare} arg17.view.writes (Elt F) (harg17.unread s1) L17) ∗ (arg18.view.loc (c : Thread nD τ) ↦[arg18.view.set]{fullShare} arg18.view.writes (Elt F) (harg18.unread s2) L18) ∗ (arg19.view.loc (c : Thread nD τ) ↦[arg19.view.set]{fullShare} arg19.view.writes (Elt F) (harg19.unread s3) L19) ∗ (arg20.view.loc (c : Thread nD τ) ↦[arg20.view.set]{fullShare} arg20.view.writes (Elt F) (harg20.unread s4) L20) ∗ (arg21.view.loc (c : Thread nD τ) ↦[arg21.view.set]{fullShare} arg21.view.writes (Elt F) (harg21.unread s5) L21)) -∗ K ⟨⟩))
          ⊢ wp frame (wpE (defs₀ (F := F)) Variants.none c none) E (cc0__mono_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc0__mono_kernel_eq_skeleton]; unfold cc0__mono_kernel_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | exact hc0 | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexact H16
    isplitl [H17]; · iexact H17
    isplitl [H18]; · iexact H18
    isplitl [H19]; · iexact H19
    isplitl [H20]; · iexact H20
    iexact H21

end Cert.KernelIdeal.Hand

end
-- ==== Proof.KernelIdealStored.lean ====
/-
  What the three runs of the body store, piece by piece, over the named payloads.

  Every load of the body reads a buffer that is owned whole at named contents, through the whole-buffer
  rectangle (it reads the contents) or, for the two carried row-band buffers and the rows of the features
  added back, through a 200-row rectangle at the position's offset; a buffer the same run has just stored
  whole reads back the stored payload. Substituting these into the pieces the runs found leaves each stored
  piece as a rectangle with one payload term of the contents the position was called with.
-/
import proofs.«177975_g80453327389404_cont_9to1c4b_650_7_alg».proof.Proof.KernelIdealRunLayer2
import proofs.«177975_g80453327389404_cont_9to1c4b_650_7_alg».proof.Proof.KernelIdealRunLayer1
import proofs.«177975_g80453327389404_cont_9to1c4b_650_7_alg».proof.Proof.KernelIdealRunFirst
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

theorem zero2 : (![0, 0] : Fin 2 → ℕ) = fun _ => 0 := by funext a; fin_cases a <;> rfl

/-- A second-layer position stores its output block whole. -/
theorem storedLayer2 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : ¬condFirst i) (hc1 : ¬k0_cond2 i = 1#1) (hc2 : k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runLayer2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 s0 s1 s2 s3 s4 s5).1 = [⟨Rect.unit (s := S200x128) ![0, 0] S200x128.size inb_S200x128_S200x128_0_0, k0_pay6 x0 x1 s2 s3 x12 x11 (View.ld x2 (Rect.unit (s := S10000x128) (k0_off2 i) S200x128.size (k0_off2_inb i hc2)))⟩] := by
  unfold runLayer2; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

/-- A later first-layer position stores its band of the third carried buffer … -/
theorem storedLayer1_adj (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : ¬condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runLayer1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).1 = [⟨Rect.unit (s := S10000x256) (k0_off1 i) S200x256.size (k0_off1_inb i hc1), k0_pay14 (k0_pay3 x0) (k0_pay4 x1) s0 s1 x10 x9 s4⟩] := by
  unfold runLayer1; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

/-- … and of the fourth. -/
theorem storedLayer1_gate (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : ¬condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runLayer1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).2.1 = [⟨Rect.unit (s := S10000x256) (k0_off1 i) S200x256.size (k0_off1_inb i hc1), k0_pay5 (k0_pay15 (k0_pay3 x0) (k0_pay4 x1) s0 s1 x10 x9 s5)⟩] := by
  unfold runLayer1; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

/-- Position 0 stores the four prologue buffers whole … -/
theorem storedFirst_rhsAdj (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).1 = [⟨Rect.unit (s := S10000x256) ![0, 0] S10000x256.size inb_S10000x256_S10000x256_0_0, k0_pay9 x3 x3 x4 x2⟩] := by
  unfold runFirst; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

theorem storedFirst_rhsGate (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).2.1 = [⟨Rect.unit (s := S10000x256) ![0, 0] S10000x256.size inb_S10000x256_S10000x256_0_0, k0_pay10 x3 x3 x5 x2⟩] := by
  unfold runFirst; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

theorem storedFirst_projAdj (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).2.2.2.2.1 = [⟨Rect.unit (s := S128x256) ![0, 0] S128x256.size inb_S128x256_S128x256_0_0, k0_pay1 (k0_pay11 x6) x6 (k0_pay12 x7) (constant S128x128 .f32 0x00000000#32)⟩] := by
  unfold runFirst; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

theorem storedFirst_projGate (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).2.2.2.2.2.1 = [⟨Rect.unit (s := S128x256) ![0, 0] S128x256.size inb_S128x256_S128x256_0_0, k0_pay2 (k0_pay11 x6) x6 x8⟩] := by
  unfold runFirst; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

/-- … and its band of the two row-band buffers, computed from the prologue's values. -/
theorem storedFirst_adj (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).2.2.1 = [⟨Rect.unit (s := S10000x256) (k0_off1 i) S200x256.size (k0_off1_inb i hc1), k0_pay14 (k0_pay3 x0) (k0_pay4 x1) (k0_pay9 x3 x3 x4 x2) (k0_pay10 x3 x3 x5 x2) x10 x9 (k0_pay1 (k0_pay11 x6) x6 (k0_pay12 x7) (constant S128x128 .f32 0x00000000#32))⟩] := by
  unfold runFirst; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

theorem storedFirst_gate (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S200x128 .f32) (harg15 : arg15.IsWhole) (arg16 : Memref sig .tc .vmem S10000x256 .bf16) (harg16 : arg16.IsWhole) (arg17 : Memref sig .tc .vmem S10000x256 .bf16) (harg17 : arg17.IsWhole) (arg18 : Memref sig .tc .vmem S10000x256 .bf16) (harg18 : arg18.IsWhole) (arg19 : Memref sig .tc .vmem S10000x256 .bf16) (harg19 : arg19.IsWhole) (arg20 : Memref sig .tc .vmem S128x256 .bf16) (harg20 : arg20.IsWhole) (arg21 : Memref sig .tc .vmem S128x256 .bf16) (harg21 : arg21.IsWhole)
    (hc0 : condFirst i) (hc1 : k0_cond2 i = 1#1) (hc2 : ¬k0_cond3 i = 1#1) (x0 : Vec F S200x10000 .f32) (x1 : Vec F S200x10000 .f32) (x2 : Vec F S10000x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S1x128 .f32) (x10 : Vec F S1x128 .f32) (x11 : Vec F S1x128 .f32) (x12 : Vec F S1x128 .f32) (x13 : Vec F S200x128 .f32) (s0 : Vec F S10000x256 .bf16) (s1 : Vec F S10000x256 .bf16) (s2 : Vec F S10000x256 .bf16) (s3 : Vec F S10000x256 .bf16) (s4 : Vec F S128x256 .bf16) (s5 : Vec F S128x256 .bf16) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 s0 s1 s2 s3 s4 s5).2.2.2.1 = [⟨Rect.unit (s := S10000x256) (k0_off1 i) S200x256.size (k0_off1_inb i hc1), k0_pay5 (k0_pay15 (k0_pay3 x0) (k0_pay4 x1) (k0_pay9 x3 x3 x4 x2) (k0_pay10 x3 x3 x5 x2) x10 x9 (k0_pay2 (k0_pay11 x6) x6 x8))⟩] := by
  unfold runFirst; dsimp only
  sl_unfold_run_names
  simp only [View.readAt_eq_ld, Memref.IsWhole.read_unread, View.ld_unit_zero (S := S200x10000) zero2, View.ld_unit_zero (S := S10000x128) zero2, View.ld_unit_zero (S := S128x128) zero2, View.ld_unit_zero (S := S1x128) zero2, View.ld_unit_zero (S := S200x128) zero2, View.ld_unit_zero (S := S10000x256) zero2, View.ld_unit_zero (S := S128x256) zero2, View.ld_unit_zero (S := S200x256) zero2, View.readCov_unit_zero (S := S10000x256) _ zero2, View.readCov_unit_zero (S := S128x256) _ zero2]
  try rfl

end Cert.KernelIdeal.Hand

end
-- ==== Proof.KernelIdealObligation.lean ====
/-
  The body obligation of the one pipeline: at every grid position the body, called with the invariant before
  the position and each window's staging buffer at what the schedule leaves there, runs to the invariant after
  the position and each buffer at what the proof data names.

  Three cases by the position. At position 0 the invariant is the class's own (the six carried buffers at
  anything): the prologue fills four of them and band 0 of the other two, whose remaining rows keep what they
  held. At a later first-layer position t < 50 the four prologue buffers are read and kept, and band t of the
  row-band buffers is stored over rows that so far held bands 0 … t − 1 and the original rest. At a
  second-layer position (t ≥ 50) all six carried buffers are read and kept — the row-band buffers now hold
  every band — and the output block is stored whole. The output window is idle and not written back through
  the first layer, so there its buffer is handed back exactly as found.
-/
import proofs.«177975_g80453327389404_cont_9to1c4b_650_7_alg».proof.Proof.KernelIdealCarried
import proofs.«177975_g80453327389404_cont_9to1c4b_650_7_alg».proof.Proof.KernelIdealStored

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-- What the body is called with at position `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem min_le50 (n : ℕ) (h : n ≤ 50) : min n 50 = n := by omega
theorem min_ge (n : ℕ) (h : 50 ≤ n) : min n 50 = 50 := by omega

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rewrite [show (dats m 0 c).owesAt () t.succ = (dats m 0 c).owesAt () t.castSucc from rfl]
  rewrite [show (dats m 0 c).Φ t.succ = Phi m c (t.val + 1) t.isLt from rfl, Phi_succ]
  rewrite [show (dats m 0 c).leavesExact 0 t = owns (c : Thread nD τ) (ms0 t) fullShare ((dats m 0 c).after 0 t) from by
    unfold Dat.leavesExact; rw [live_0 t], after_0]
  rewrite [show (dats m 0 c).leavesExact 1 t = owns (c : Thread nD τ) (ms1 t) fullShare ((dats m 0 c).after 1 t) from by
    unfold Dat.leavesExact; rw [live_1 t], after_1]
  rewrite [show (dats m 0 c).leavesExact 2 t = owns (c : Thread nD τ) (ms2 t) fullShare ((dats m 0 c).after 2 t) from by
    unfold Dat.leavesExact; rw [live_2 t], after_2]
  rewrite [show (dats m 0 c).leavesExact 3 t = owns (c : Thread nD τ) (ms3 t) fullShare ((dats m 0 c).after 3 t) from by
    unfold Dat.leavesExact; rw [live_3 t], after_3]
  rewrite [show (dats m 0 c).leavesExact 4 t = owns (c : Thread nD τ) (ms4 t) fullShare ((dats m 0 c).after 4 t) from by
    unfold Dat.leavesExact; rw [live_4 t], after_4]
  rewrite [show (dats m 0 c).leavesExact 5 t = owns (c : Thread nD τ) (ms5 t) fullShare ((dats m 0 c).after 5 t) from by
    unfold Dat.leavesExact; rw [live_5 t], after_5]
  rewrite [show (dats m 0 c).leavesExact 6 t = owns (c : Thread nD τ) (ms6 t) fullShare ((dats m 0 c).after 6 t) from by
    unfold Dat.leavesExact; rw [live_6 t], after_6]
  rewrite [show (dats m 0 c).leavesExact 7 t = owns (c : Thread nD τ) (ms7 t) fullShare ((dats m 0 c).after 7 t) from by
    unfold Dat.leavesExact; rw [live_7 t], after_7]
  rewrite [show (dats m 0 c).leavesExact 8 t = owns (c : Thread nD τ) (ms8 t) fullShare ((dats m 0 c).after 8 t) from by
    unfold Dat.leavesExact; rw [live_8 t], after_8]
  rewrite [show (dats m 0 c).leavesExact 9 t = owns (c : Thread nD τ) (ms9 t) fullShare ((dats m 0 c).after 9 t) from by
    unfold Dat.leavesExact; rw [live_9 t], after_9]
  rewrite [show (dats m 0 c).leavesExact 10 t = owns (c : Thread nD τ) (ms10 t) fullShare ((dats m 0 c).after 10 t) from by
    unfold Dat.leavesExact; rw [live_10 t], after_10]
  rewrite [show (dats m 0 c).leavesExact 11 t = owns (c : Thread nD τ) (ms11 t) fullShare ((dats m 0 c).after 11 t) from by
    unfold Dat.leavesExact; rw [live_11 t], after_11]
  rewrite [show (dats m 0 c).leavesExact 12 t = owns (c : Thread nD τ) (ms12 t) fullShare ((dats m 0 c).after 12 t) from by
    unfold Dat.leavesExact; rw [live_12 t], after_12]
  have hN : t.val < 100 := lt_of_lt_of_eq t.isLt (show cfg0.N = 100 from N_0)
  by_cases h1 : t.val < 50
  · rewrite [Dat.leavesExact_idle (dats m 0 c) 13 t (by rw [idle_out]; exact decide_eq_true h1) (by rw [flush_out]; exact decide_eq_false (Nat.not_le.mpr h1))]
    rewrite [min_le50 (t.val + 1) (by omega)]
    by_cases hz : t.val = 0
    · -- position 0
      rewrite [Phi_castSucc m c t, Phi_zero m c _ _ hz, PhiA_eq]
      iintro ⟨⟨⟨⟨%d0, HS0⟩, ⟨%d1, HS1⟩, ⟨%d2, HS2⟩, ⟨%d3, HS3⟩, ⟨%d4, HS4⟩, ⟨%d5, HS5⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _) sc2 (Memref.isWhole_whole _) sc3 (Memref.isWhole_whole _) sc4 (Memref.isWhole_whole _) sc5 (Memref.isWhole_whole _) ((condFirst_iff t).mpr hz) ((condLayer1_iff t).mpr h1) (fun h => absurd ((condLayer2_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t e13) d0 d1 d2 d3 d4 d5).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, HS0, HS1, HS2, HS3, HS4, HS5⟩
      obtain rfl : t = p0 := Fin.ext hz
      isplitl [HS0 HS1 HS2 HS3 HS4 HS5 Hg]
      · isplitl [HS0 HS1 HS2 HS3 HS4 HS5]
        · isplitl [HS0]
          · unfold owns; iexists _; isplitr
            swap; · iexact HS0
            ipureintro
            rw [storedFirst_rhsAdj]
            exact RowBands.read_store_whole _ _ zero2 _ _
          isplitl [HS1]
          · unfold owns; iexists _; isplitr
            swap; · iexact HS1
            ipureintro
            rw [storedFirst_rhsGate]
            exact RowBands.read_store_whole _ _ zero2 _ _
          isplitl [HS2]
          · iexists d2
            unfold owns; iexists _; isplitr
            swap; · iexact HS2
            ipureintro
            rw [storedFirst_adj]
            exact RowBands.read_store_band sc2.view _ 0 (by decide) (fun q => bandAdjAt m c (pos1 q)) d2
              (by rw [Memref.IsWhole.read_unread, RowBands.mixed_zero]) (k0_off1 (grid0.coords p0)) (bandOffset p0 (by decide)) _ _ rfl
          isplitl [HS3]
          · iexists d3
            unfold owns; iexists _; isplitr
            swap; · iexact HS3
            ipureintro
            rw [storedFirst_gate]
            exact RowBands.read_store_band sc3.view _ 0 (by decide) (fun q => bandGateAt m c (pos1 q)) d3
              (by rw [Memref.IsWhole.read_unread, RowBands.mixed_zero]) (k0_off1 (grid0.coords p0)) (bandOffset p0 (by decide)) _ _ rfl
          isplitl [HS4]
          · unfold owns; iexists _; isplitr
            swap; · iexact HS4
            ipureintro
            rw [storedFirst_projAdj]
            exact RowBands.read_store_whole _ _ zero2 _ _
          unfold owns; iexists _; isplitr
          swap; · iexact HS5
          ipureintro
          rw [storedFirst_projGate]
          exact RowBands.read_store_whole _ _ zero2 _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _; iexact H13
    · -- a later first-layer position
      rewrite [Phi_castSucc m c t, Phi_pos m c _ _ hz, min_le50 t.val (by omega)]
      iintro ⟨⟨⟨HS0, HS1, ⟨%d2, HS2⟩, ⟨%d3, HS3⟩, HS4, HS5⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
      iapply ((runLayer1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _) sc2 (Memref.isWhole_whole _) sc3 (Memref.isWhole_whole _) sc4 (Memref.isWhole_whole _) sc5 (Memref.isWhole_whole _) (fun h => hz ((condFirst_iff t).mp h)) ((condLayer1_iff t).mpr h1) (fun h => absurd ((condLayer2_iff t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t e13) (rhsAdj1 m c) (rhsGate1 m c) (RowBands.mixed t.val (fullAdj2 m c) d2) (RowBands.mixed t.val (fullGate2 m c) d3) (projAdj2 m c) (projGate2 m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]
          · iexists d2
            unfold owns; iexists _; isplitr
            swap; · iexact HS2
            ipureintro
            rw [storedLayer1_adj]
            exact RowBands.read_store_band sc2.view _ t.val h1 (fun q => bandAdjAt m c (pos1 q)) d2
              (Memref.IsWhole.read_unread _ _) (k0_off1 (grid0.coords t)) (bandOffset t h1) _ _
              (by show bandAdjAt m c t = bandAdjAt m c (pos1 ⟨t.val, h1⟩); rw [show pos1 ⟨t.val, h1⟩ = t from Fin.ext rfl])
          isplitl [HS3]
          · iexists d3
            unfold owns; iexists _; isplitr
            swap; · iexact HS3
            ipureintro
            rw [storedLayer1_gate]
            exact RowBands.read_store_band sc3.view _ t.val h1 (fun q => bandGateAt m c (pos1 q)) d3
              (Memref.IsWhole.read_unread _ _) (k0_off1 (grid0.coords t)) (bandOffset t h1) _ _
              (by show bandGateAt m c t = bandGateAt m c (pos1 ⟨t.val, h1⟩); rw [show pos1 ⟨t.val, h1⟩ = t from Fin.ext rfl])
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _; iexact H13
  · -- a second-layer position
    have hz : t.val ≠ 0 := by omega
    rewrite [show (dats m 0 c).leavesExact 13 t = owns (c : Thread nD τ) (ms13 t) fullShare ((dats m 0 c).after 13 t) from by
      unfold Dat.leavesExact; rw [show cfg0.idle 13 (grid0.coords t) = false from by rw [idle_out]; exact decide_eq_false h1], after_13]
    rewrite [min_ge (t.val + 1) (by omega)]
    rewrite [Phi_castSucc m c t, Phi_pos m c _ _ hz, min_ge t.val (by omega)]
    iintro ⟨⟨⟨HS0, HS1, ⟨%d2, HS2⟩, ⟨%d3, HS3⟩, HS4, HS5⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
    iapply ((runLayer2 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _) sc2 (Memref.isWhole_whole _) sc3 (Memref.isWhole_whole _) sc4 (Memref.isWhole_whole _) sc5 (Memref.isWhole_whole _) (fun h => hz ((condFirst_iff t).mp h)) (fun h => h1 ((condLayer1_iff t).mp h)) ((condLayer2_iff t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (rhsAdj1 m c) (rhsGate1 m c) (RowBands.mixed 50 (fullAdj2 m c) d2) (RowBands.mixed 50 (fullGate2 m c) d3) (projAdj2 m c) (projGate2 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, ⟨%f13, H13⟩, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexists d2; iexact HS2
        isplitl [HS3]; · iexists d3; iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns; iexists _; isplitr
    swap; · iexact H13
    ipureintro
    rw [storedLayer2]
    refine (RowBands.read_store_whole _ _ zero2 _ _).trans ?_
    rw [RowBands.mixed_all, RowBands.mixed_all]
    unfold outAt
    rw [dif_pos ((condLayer2_iff t).mpr (by omega))]
    rfl

/-- The library's body obligation, at every position. -/
theorem body_obligation (c : Dev nD) : BodyObligation (dats (F := F) m 0 c) (defs₀ (F := F)) Variants.none () Set.univ := fun t => by
  rw [bigSep_W0, bigSep_W0]
  exact sound_body m c t

/-- What the launch hands the region is the invariant before position 0. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last position the invariant gives the class's back: the carried contents are forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 100 := N_0; omega), PhiA_eq]
  iintro ⟨⟨HS0, HS1, ⟨%d2, HS2⟩, ⟨%d3, HS3⟩, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-! ## The run and the frame -/

set_option backward.isDefEq.respectTransparency.types false in
/-- Every weakly fair execution of @main terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.KernelIdealBlockFacts.lean ====
/-
  What each window's block is, at the ideal instance, in terms of the argument arrays.

  The one pallas_call stages thirteen inputs. Eleven are staged whole (block index (0, 0) at every position):
  the features, the six weights, and the four bias rows the host lines before the call prepare (a bias
  reshaped to a 1 x 128 row; the two gate biases of a layer added, then reshaped). The two adjacencies are
  staged one 200-row band per position: position t = 50 * layer + block reads band t mod 50. The output is
  written back one 200-row band per second-layer position, band t mod 50 = t - 50, and those fifty bands
  cover the result array. A second-layer position also reads the 200 rows t - 50 of the features.
  The facts are stated here as one structure and proved in a module of their own.
-/
import proofs.«177975_g80453327389404_cont_9to1c4b_650_7_alg».proof.Proof.KernelIdealGrid
import proofs.«177975_g80453327389404_cont_9to1c4b_650_7_alg».proof.Proof.GatedConvBlocks

noncomputable section

namespace Cert.KernelIdeal.Hand

open Idealize.ShloMosaic Idealize.ShloMosaic.TcCoe Idealize.SL.Sem
open Cert.KernelIdeal Cert.KernelIdeal.Gen GatedConv

variable (m : (ℓ : Loc nD τ sig) → Buf (Elt Ideal) ℓ) (c : Dev nD)

/-- The fifteen argument arrays on core `c`, as matrices and vectors of extended reals. -/
abbrev aX : Mat 10000 128 := m ((c.tc : Thread nD τ).loc main_arg0)
abbrev aAdj : Mat 10000 10000 := m ((c.tc : Thread nD τ).loc main_arg1)
abbrev aGate : Mat 10000 10000 := m ((c.tc : Thread nD τ).loc main_arg2)
abbrev aW1 : Mat 128 128 := m ((c.tc : Thread nD τ).loc main_arg3)
abbrev ab1 : Vc 128 := m ((c.tc : Thread nD τ).loc main_arg4)
abbrev al1W1 : Mat 128 128 := m ((c.tc : Thread nD τ).loc main_arg5)
abbrev al1b1 : Vc 128 := m ((c.tc : Thread nD τ).loc main_arg6)
abbrev al2W1 : Mat 128 128 := m ((c.tc : Thread nD τ).loc main_arg7)
abbrev al2b1 : Vc 128 := m ((c.tc : Thread nD τ).loc main_arg8)
abbrev aW2 : Mat 128 128 := m ((c.tc : Thread nD τ).loc main_arg9)
abbrev ab2 : Vc 128 := m ((c.tc : Thread nD τ).loc main_arg10)
abbrev al1W2 : Mat 128 128 := m ((c.tc : Thread nD τ).loc main_arg11)
abbrev al1b2 : Vc 128 := m ((c.tc : Thread nD τ).loc main_arg12)
abbrev al2W2 : Mat 128 128 := m ((c.tc : Thread nD τ).loc main_arg13)
abbrev al2b2 : Vc 128 := m ((c.tc : Thread nD τ).loc main_arg14)

/-- The band a position works on: position t = 50 * layer + block works on band t mod 50. -/
def bandOf (t : Fin cfg0.N) : Fin 50 := ⟨t.val % 50, Nat.mod_lt _ (by decide)⟩

/-- Each window's block, read off the arrays as the region finds them, in terms of the argument arrays. -/
structure BlockFacts : Prop where
  feat : ∀ t : Fin cfg0.N, (iblk (F := Ideal) m c 2 t : Mat 10000 128) = aX m c
  w1 : ∀ t : Fin cfg0.N, (iblk (F := Ideal) m c 3 t : Mat 128 128) = aW1 m c
  l1w1 : ∀ t : Fin cfg0.N, (iblk (F := Ideal) m c 4 t : Mat 128 128) = al1W1 m c
  l2w1 : ∀ t : Fin cfg0.N, (iblk (F := Ideal) m c 5 t : Mat 128 128) = al2W1 m c
  w2 : ∀ t : Fin cfg0.N, (iblk (F := Ideal) m c 6 t : Mat 128 128) = aW2 m c
  l1w2 : ∀ t : Fin cfg0.N, (iblk (F := Ideal) m c 7 t : Mat 128 128) = al1W2 m c
  l2w2 : ∀ t : Fin cfg0.N, (iblk (F := Ideal) m c 8 t : Mat 128 128) = al2W2 m c
  b1 : ∀ t : Fin cfg0.N, (iblk (F := Ideal) m c 9 t : Mat 1 128) = asRow (ab1 m c)
  gb1 : ∀ t : Fin cfg0.N, (iblk (F := Ideal) m c 10 t : Mat 1 128) = asRow (vadd (al1b1 m c) (al2b1 m c))
  b2 : ∀ t : Fin cfg0.N, (iblk (F := Ideal) m c 11 t : Mat 1 128) = asRow (ab2 m c)
  gb2 : ∀ t : Fin cfg0.N, (iblk (F := Ideal) m c 12 t : Mat 1 128) = asRow (vadd (al1b2 m c) (al2b2 m c))
  adj : ∀ t : Fin cfg0.N, (iblk (F := Ideal) m c 0 t : Mat 200 10000) = rows (bandOf t) (aAdj m c)
  gate : ∀ t : Fin cfg0.N, (iblk (F := Ideal) m c 1 t : Mat 200 10000) = rows (bandOf t) (aGate m c)
  resid : ∀ (t : Fin cfg0.N) (h : k0_cond3 (grid0.coords t) = 1#1),
    (View.ld (iblk (F := Ideal) m c 2 t) (Rect.unit (s := S10000x128) (k0_off2 (grid0.coords t)) S200x128.size (k0_off2_inb (grid0.coords t) h)) : Mat 200 128)
      = rows (bandOf t) (aX m c)
  outRead : ∀ (t : Fin cfg0.N) (G : Mat 10000 128), 50 ≤ t.val →
    (((cfg0.win 13).blk t).view.read (Elt Ideal) G : Mat 200 128) = rows (bandOf t) G
  outCover : ∀ i : ((cfg0.win 13).arr.view.loc (c.tc : Thread nD τ)).2.ty.Idx,
    ∃ t : Fin cfg0.N, (cfg0.win 13).flush t = true ∧ i ∈ ((cfg0.win 13).blk t).view.set

end Cert.KernelIdeal.Hand

end
-- ==== Proof.KernelIdealPayloads.lean ====
/-
  The arithmetic of the kernel's named payloads, read at the ideal instance, as matrix operations over the extended
  reals.

  At the ideal instance a narrowing format change and a cast to the same shape are the identity; a contraction of an
  M×K by a K×N operand on the one shared axis, accumulated into the zero matrix, is the matrix product; a concatenation
  of two 128-column matrices along the column axis is the two side by side; the slices of a 256-column matrix at column
  offsets 0 and 128 are its left and right halves; and a 1 x 128 row broadcast over the rows reads that row's entry of
  the column. The four helper families are stated over variable extents, so nothing is ever evaluated over a long index
  set. With them each payload is a matrix expression: the projected right-hand sides X · [W' | W · A], the
  gate-mix-rectify step on one band of rows, that band times the next layer's side-by-side weights, and the last band
  with the residual added. The remaining operations are pointwise and agree with the definitions entry by entry.
-/
import proofs.«177975_g80453327389404_cont_9to1c4b_650_7_alg».proof.Proof.Gen.KernelIdeal.Skeleton
import proofs.«177975_g80453327389404_cont_9to1c4b_650_7_alg».proof.Proof.GatedConvBlocks
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StackMember

noncomputable section

open scoped BigOperators

namespace Cert.KernelIdeal.Payloads

open Idealize.ShloMosaic Idealize.ShloMosaic.ValueIdx Cert.KernelIdeal Cert.KernelIdeal.Gen GatedConv

/-! ## The non-pointwise operations as matrix operations, over variable extents -/

/-- A plain M×K by K×N product accumulated into the zero matrix is the matrix product: at output index (r, c) the
    contraction index is its one coordinate l, the left operand is read at (r, l) and the right one at (l, c). -/
theorem matmul_plain_zero {m k n : Nat} {φ₁ φ₂ : FTy} (prec : Option ContractPrecision)
    (L : FVec Ideal ⟨2, ![m, k]⟩ φ₁) (R : FVec Ideal ⟨2, ![k, n]⟩ φ₂) :
    matmul (DotDims.plain m k n) prec L R (constant (F := Ideal) ⟨2, ![m, n]⟩ .f32 0x00000000#32) = mm L R := by
  rw [matmul_zero_eq_dotGeneral]
  funext j
  obtain ⟨a, b, rfl⟩ : ∃ (a : Fin m) (b : Fin n), j = ix2 a b := ⟨j 0, j 1, eq_ix2 j⟩
  exact StackMember.dotGeneral_plain_apply prec L R a b

/-- Two 128-column matrices concatenated along the column axis are the two side by side. -/
theorem concatenate_eq_hcat {a : Nat} (A B : Mat a 128)
    (h : Shape.Concatenates [(⟨2, ![a, 128]⟩ : Shape), ⟨2, ![a, 128]⟩] ⟨2, ![a, 256]⟩ 1) :
    concatenate (⟨2, ![a, 256]⟩ : Shape) 1 [⟨⟨2, ![a, 128]⟩, A⟩, ⟨⟨2, ![a, 128]⟩, B⟩] h = hcat A B := by
  funext j
  by_cases hj : (j 1).val < 128
  · have e : hcat A B j = A (ix2 (j 0) ⟨(j 1).val, hj⟩) := by unfold hcat; exact dif_pos hj
    rw [e]
    refine concatenate_pair_apply_left 1 A B h j rfl (ix2 (j 0) ⟨(j 1).val, hj⟩) fun b => ?_
    match b with
    | ⟨0, _⟩ => rfl
    | ⟨1, _⟩ => rfl
  · have hlt : (j 1).val < 256 := idx2_lt1 j
    have e : hcat A B j = B (ix2 (j 0) ⟨(j 1).val - 128, by omega⟩) := by unfold hcat; exact dif_neg hj
    rw [e]
    refine concatenate_pair_apply_right 1 A B h j rfl rfl (ix2 (j 0) ⟨(j 1).val - 128, by omega⟩) (fun b hb => ?_) ?_
    · match b with
      | ⟨0, _⟩ => rfl
      | ⟨1, _⟩ => exact absurd rfl hb
    · show (j 1).val - 128 + 128 = (j 1).val
      omega

/-- The slice of a 256-column matrix at column offset 128 is its right half. -/
theorem slice_128_eq_rhalf {a : Nat} (M : Mat a 256) (h : (⟨2, ![a, 256]⟩ : Shape).Slices ![0, 128] ⟨2, ![a, 128]⟩) :
    extractStridedSlice (⟨2, ![a, 128]⟩ : Shape) ![0, 128] M h = rhalf M := by
  funext j
  obtain ⟨p, q, rfl⟩ : ∃ (p : Fin a) (q : Fin 128), j = ix2 p q := ⟨j 0, j 1, eq_ix2 j⟩
  exact slice2_axis1_apply 128 M h p q ⟨q.val + 128, by have := q.isLt; omega⟩ (Nat.add_comm _ _)

/-- The slice of a 256-column matrix at column offset 0 is its left half. -/
theorem slice_0_eq_lhalf {a : Nat} (M : Mat a 256) (h : (⟨2, ![a, 256]⟩ : Shape).Slices ![0, 0] ⟨2, ![a, 128]⟩) :
    extractStridedSlice (⟨2, ![a, 128]⟩ : Shape) ![0, 0] M h = lhalf M := by
  funext j
  obtain ⟨p, q, rfl⟩ : ∃ (p : Fin a) (q : Fin 128), j = ix2 p q := ⟨j 0, j 1, eq_ix2 j⟩
  exact slice2_axis1_apply 0 M h p q ⟨q.val, by have := q.isLt; omega⟩ (Nat.zero_add _).symm

/-- A 1 x 128 row, cast to its own shape and broadcast over a rows, reads the row's entry of the column everywhere. -/
theorem broadcast_row {a : Nat} (v : Mat 1 128) (h1 : (⟨2, ![1, 128]⟩ : Shape).ShapeCasts ⟨2, ![1, 128]⟩)
    (h2 : (⟨2, ![1, 128]⟩ : Shape).Broadcasts ⟨2, ![a, 128]⟩) :
    broadcastTo (⟨2, ![a, 128]⟩ : Shape) (shapeCast (⟨2, ![1, 128]⟩ : Shape) v h1) h2 = fun j => v (ix2 0 (j 1)) := by
  rw [shapeCast_self]
  funext j
  obtain ⟨p, q, rfl⟩ : ∃ (p : Fin a) (q : Fin 128), j = ix2 p q := ⟨j 0, j 1, eq_ix2 j⟩
  exact broadcastTo_1b_ab_apply v h2 p q

/-! ## The four contraction records are plain products -/

theorem dot128_eq : dot_S128x128_S128x128_S128x128_1_0_0_1_n_n = DotDims.plain 128 128 128 := rfl
theorem dotX_eq : dot_S10000x128_S128x256_S10000x256_1_0_0_1_n_n = DotDims.plain 10000 128 256 := rfl
theorem dotAdj_eq : dot_S200x10000_S10000x256_S200x256_1_0_0_1_n_n = DotDims.plain 200 10000 256 := rfl
theorem dotBand_eq : dot_S200x128_S128x256_S200x256_1_0_0_1_n_n = DotDims.plain 200 128 256 := rfl

/-- A narrowing format change is the identity on extended reals, as a function. -/
theorem truncf_eq {s : Shape} {φ ψ : FTy} (a : FVec Ideal s φ) (h : ψ.bits < φ.bits) :
    (truncf ψ a h : FVec Ideal s ψ) = a := rfl

/-! ## 3. Format changes and same-shape casts are the identity -/

theorem pay3 (v : FVec Ideal S200x10000 .f32) : k0_pay3 (F := Ideal) v = v := rfl
theorem pay4 (v : FVec Ideal S200x10000 .f32) : k0_pay4 (F := Ideal) v = v := rfl
theorem pay5 (v : FVec Ideal S200x256 .bf16) : k0_pay5 (F := Ideal) v = v := by
  unfold k0_pay5
  exact shapeCast_self _ _

/-! ## 1. The projected right-hand sides: X · [W' | W · A] -/

theorem pay9 (W W' A : FVec Ideal S128x128 .f32) (X : FVec Ideal S10000x128 .f32) :
    k0_pay9 (F := Ideal) W W' A X = mm X (hcat W' (mm W A)) := by
  unfold k0_pay9 k0_pay7 k0_pay8
  simp only [dot128_eq, dotX_eq, truncf_eq, shapeCast_self, matmul_plain_zero, concatenate_eq_hcat]

theorem pay10 (W W' A : FVec Ideal S128x128 .f32) (X : FVec Ideal S10000x128 .f32) :
    k0_pay10 (F := Ideal) W W' A X = mm X (hcat W' (mm W A)) := by
  unfold k0_pay10 k0_pay7 k0_pay8
  simp only [dot128_eq, dotX_eq, truncf_eq, shapeCast_self, matmul_plain_zero, concatenate_eq_hcat]

/-! ## 2. The second layer's weights side by side: [W' | W · A] -/

theorem pay1 (W W' A : FVec Ideal S128x128 .f32) :
    k0_pay1 (F := Ideal) (k0_pay11 W) W' (k0_pay12 A) (constant (F := Ideal) S128x128 .f32 0x00000000#32)
      = hcat W' (mm W A) := by
  unfold k0_pay1 k0_pay11 k0_pay12
  simp only [dot128_eq, truncf_eq, shapeCast_self, matmul_plain_zero, concatenate_eq_hcat]

theorem pay2 (W W' A : FVec Ideal S128x128 .f32) :
    k0_pay2 (F := Ideal) (k0_pay11 W) W' A = hcat W' (mm W A) := by
  unfold k0_pay2 k0_pay11
  simp only [dot128_eq, truncf_eq, shapeCast_self, matmul_plain_zero, concatenate_eq_hcat]

/-! ## 4. The gate-mix-rectify step on one band -/

theorem pay13 (a g : FVec Ideal S200x10000 .bf16) (HA HG : FVec Ideal S10000x256 .bf16) (gb b : FVec Ideal S1x128 .f32) :
    k0_pay13 (F := Ideal) a g HA HG gb b = band (mm a HA) (mm g HG) gb b := by
  unfold k0_pay13
  simp only [dotAdj_eq, truncf_eq, matmul_plain_zero, slice_128_eq_rhalf, slice_0_eq_lhalf, broadcast_row]
  funext j
  rfl

/-! ## 5. The band times the next layer's side-by-side weights -/

theorem pay14 (a g : FVec Ideal S200x10000 .bf16) (HA HG : FVec Ideal S10000x256 .bf16) (gb b : FVec Ideal S1x128 .f32)
    (WA : FVec Ideal S128x256 .bf16) :
    k0_pay14 (F := Ideal) a g HA HG gb b WA = mm (band (mm a HA) (mm g HG) gb b) WA := by
  unfold k0_pay14
  rw [pay13]
  simp only [dotBand_eq, truncf_eq, shapeCast_self, matmul_plain_zero]

theorem pay15 (a g : FVec Ideal S200x10000 .bf16) (HA HG : FVec Ideal S10000x256 .bf16) (gb b : FVec Ideal S1x128 .f32)
    (WA : FVec Ideal S128x256 .bf16) :
    k0_pay15 (F := Ideal) a g HA HG gb b WA = mm (band (mm a HA) (mm g HG) gb b) WA := by
  unfold k0_pay15
  rw [pay13]
  simp only [dotBand_eq, truncf_eq, matmul_plain_zero]

/-! ## 6. The last band with the residual added -/

theorem pay6 (a g : FVec Ideal S200x10000 .f32) (S S' : FVec Ideal S10000x256 .bf16) (gb b : FVec Ideal S1x128 .f32)
    (xr : FVec Ideal S200x128 .f32) :
    k0_pay6 (F := Ideal) a g S S' gb b xr = fun j => band (mm a S) (mm g S') gb b j + xr j := by
  unfold k0_pay6 k0_pay3 k0_pay4
  simp only [dotAdj_eq, truncf_eq, matmul_plain_zero, slice_128_eq_rhalf, slice_0_eq_lhalf, broadcast_row]
  funext j
  rfl

end Cert.KernelIdeal.Payloads

end
-- ==== Proof.LibERealMatMul.lean ====
/-
  Finite sums of products of real numbers inside the extended reals.

  The extended reals are not a ring: x · (a + b) = x · a + x · b fails at the infinities, so the usual proofs about sums
  of products do not apply to them directly. On real entries everything is inherited from ℝ through the coercion
  ℝ → EReal, which is additive, multiplicative and monotone. This file gives:

    1. `coe_finsum`: the coercion commutes with a finite sum;
    2. `sum_coe_mul_coe`: a finite sum of products of coerced reals is the coercion of the real sum of products, and
       `exists_real_sum_coe_mul_coe`: in particular it is a real number;
    3. `sum_mul_assoc`: the associativity law behind (A · B) · C = A · (B · C) for matrices with real entries, over
       arbitrary finite index types: ∑ l, (∑ k, a k · b k l) · c l = ∑ k, a k · ∑ l, b k l · c l;
    4. `coe_max`: the coercion commutes with the maximum.
-/
import Mathlib.Data.EReal.Operations
import Mathlib.Algebra.BigOperators.Ring.Finset
import Mathlib.Algebra.BigOperators.Group.Finset.Sigma

open scoped BigOperators

namespace LibERealMatMul

/-- The coercion ℝ → EReal takes a finite sum to the sum of the coercions: it is additive and sends 0 to 0, so this
    is an induction on the finite set. -/
theorem coe_finsum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- A finite sum of products of coerced reals is the coercion of the real sum of the products: the coercion is
    multiplicative on each summand and then commutes with the sum. -/
theorem sum_coe_mul_coe {ι : Type*} (s : Finset ι) (f g : ι → ℝ) :
    ∑ i ∈ s, (f i : EReal) * (g i : EReal) = ((∑ i ∈ s, f i * g i : ℝ) : EReal) := by
  rw [coe_finsum]
  exact Finset.sum_congr rfl fun i _ => (EReal.coe_mul _ _).symm

/-- A finite sum of products of coerced reals is a real number (neither infinity). -/
theorem exists_real_sum_coe_mul_coe {ι : Type*} (s : Finset ι) (f g : ι → ℝ) :
    ∃ r : ℝ, ∑ i ∈ s, (f i : EReal) * (g i : EReal) = (r : EReal) :=
  ⟨_, sum_coe_mul_coe s f g⟩

/-- The associativity law of the matrix product on real entries, over arbitrary finite index types: both sides are the
    coercion of the double sum ∑ k ∑ l a k · b k l · c l. Each inner sum is a coerced real, so each outer sum is one too;
    in ℝ distribute, exchange the two sums and reassociate. -/
theorem sum_mul_assoc {ι κ : Type*} [Fintype ι] [Fintype κ] (a : ι → ℝ) (b : ι → κ → ℝ) (c : κ → ℝ) :
    ∑ l : κ, (∑ k : ι, (a k : EReal) * (b k l : EReal)) * (c l : EReal)
      = ∑ k : ι, (a k : EReal) * ∑ l : κ, (b k l : EReal) * (c l : EReal) := by
  have hL : ∀ l : κ, ∑ k : ι, (a k : EReal) * (b k l : EReal) = ((∑ k : ι, a k * b k l : ℝ) : EReal) :=
    fun l => sum_coe_mul_coe Finset.univ a fun k => b k l
  have hR : ∀ k : ι, ∑ l : κ, (b k l : EReal) * (c l : EReal) = ((∑ l : κ, b k l * c l : ℝ) : EReal) :=
    fun k => sum_coe_mul_coe Finset.univ (b k) c
  simp only [hL, hR]
  rw [sum_coe_mul_coe, sum_coe_mul_coe]
  congr 1
  simp only [Finset.sum_mul, Finset.mul_sum]
  rw [Finset.sum_comm]
  exact Finset.sum_congr rfl fun k _ => Finset.sum_congr rfl fun l _ => mul_assoc _ _ _

/-- The coercion ℝ → EReal is monotone, so it commutes with the maximum. -/
theorem coe_max (x y : ℝ) : ((max x y : ℝ) : EReal) = max (x : EReal) (y : EReal) :=
  EReal.coe_strictMono.monotone.map_max (a := x) (b := y)

end LibERealMatMul
-- ==== Proof.GatedConvAlgebra.lean ====
/-
  The algebra of the two spellings of a gated graph-convolution layer, over the extended reals.

  On matrices whose entries are all real numbers the matrix product is real and associative: writing each entry as the
  coercion of a real, a finite sum of products of coerced reals is the coercion of the real sum of products, and
  associativity is the real one (both facts are the general ones about finite sums over arbitrary index types, imported;
  here they are read at the entries of matrices). A layer of real arguments is then real (the logistic of a real s is the
  real (1 + e^(-s))⁻¹, the two float constants denote the reals 1 and 0, and sums, differences, products and the maximum
  of reals are real), the two spellings of a layer agree (associativity twice for each projection, and a regrouping of
  four summands that holds in any commutative additive monoid), and so do the two spellings of the two-layer network with
  its residual.
-/
import proofs.«177975_g80453327389404_cont_9to1c4b_650_7_alg».proof.Proof.GatedConvSpec
import proofs.«177975_g80453327389404_cont_9to1c4b_650_7_alg».proof.Proof.LibERealMatMul

noncomputable section

open scoped BigOperators

namespace GatedConv

open Idealize.ShloMosaic Idealize.ShloMosaic.ValueIdx

/-! ## The coercion of the reals into the extended reals and finite sums -/

/-- The coercion ℝ → EReal takes a finite sum to the sum of the coercions. -/
theorem coe_finsum {ι : Type*} (s : Finset ι) (f : ι → ℝ) :
    ((∑ i ∈ s, f i : ℝ) : EReal) = ∑ i ∈ s, (f i : EReal) :=
  LibERealMatMul.coe_finsum s f

/-- A matrix all of whose entries are real is the coercion of a real matrix. -/
theorem IsReal.exists_eq {s : Shape} {f : s.Idx → EReal} (hf : IsReal f) :
    ∃ f' : s.Idx → ℝ, f = fun i => (f' i : EReal) := by
  choose f' hf' using hf
  exact ⟨f', funext hf'⟩

/-- The product of two coerced real matrices is the coercion of the real matrix product. -/
theorem mm_coe {a k b : Nat} (A' : (⟨2, ![a, k]⟩ : Shape).Idx → ℝ) (B' : (⟨2, ![k, b]⟩ : Shape).Idx → ℝ) :
    mm (fun i => (A' i : EReal)) (fun i => (B' i : EReal))
      = fun j => ((∑ l : Fin k, A' (ix2 (j 0) l) * B' (ix2 l (j 1)) : ℝ) : EReal) := by
  funext j
  exact LibERealMatMul.sum_coe_mul_coe Finset.univ (fun l => A' (ix2 (j 0) l)) (fun l => B' (ix2 l (j 1)))

/-! ## 1. A product of real matrices is real -/

/-- A finite sum of products of reals is real. -/
theorem mm_real {a k b : Nat} {A : Mat a k} {B : Mat k b} (hA : IsReal A) (hB : IsReal B) : IsReal (mm A B) := by
  obtain ⟨A', rfl⟩ := hA.exists_eq
  obtain ⟨B', rfl⟩ := hB.exists_eq
  intro j
  exact ⟨_, congrFun (mm_coe A' B') j⟩

/-! ## 2. The product of real matrices is associative -/

/-- (A · B) · C = A · (B · C) for real entries: at entry (r, c) this is the associativity law for finite sums of
    products of reals, with a = row r of A, b = B and c = column c of C. -/
theorem mm_assoc {a k l b : Nat} {A : Mat a k} {B : Mat k l} {C : Mat l b}
    (hA : IsReal A) (hB : IsReal B) (hC : IsReal C) : mm (mm A B) C = mm A (mm B C) := by
  obtain ⟨A', rfl⟩ := hA.exists_eq
  obtain ⟨B', rfl⟩ := hB.exists_eq
  obtain ⟨C', rfl⟩ := hC.exists_eq
  funext j
  exact LibERealMatMul.sum_mul_assoc (fun m => A' (ix2 (j 0) m)) (fun m q => B' (ix2 m q)) (fun q => C' (ix2 q (j 1)))

/-! ## 3. A layer of real arguments is real -/

/-- The pattern of the float 1.0 denotes the real 1. -/
theorem one_eq : one = ((1 : ℝ) : EReal) := by
  rw [EReal.coe_one]; unfold one
  simp [Ideal.ofBits, Ideal.ieee, -EReal.coe_mul]; norm_num

/-- The pattern of the float 0.0 denotes the real 0. -/
theorem zero_eq : zero = ((0 : ℝ) : EReal) := by
  rw [EReal.coe_zero]; unfold zero
  simp [Ideal.ofBits, Ideal.ieee]

/-- The coercion ℝ → EReal is monotone, so it commutes with max. -/
theorem coe_max' (x y : ℝ) : ((max x y : ℝ) : EReal) = max (x : EReal) (y : EReal) :=
  LibERealMatMul.coe_max x y

/-- On real arguments the gated mix is real: the logistic of a real is the real (1 + e^(-s))⁻¹, and products,
    differences, sums and the maximum of reals are real. -/
theorem mix_coe (s o l c : ℝ) :
    mix (s : EReal) (o : EReal) (l : EReal) (c : EReal)
      = ((max ((1 + Real.exp (-s))⁻¹ * o + (1 - (1 + Real.exp (-s))⁻¹) * l + c) 0 : ℝ) : EReal) := by
  rw [mix, Ideal.logistic_coe, one_eq, zero_eq, ← EReal.coe_sub, ← EReal.coe_mul, ← EReal.coe_mul,
    ← EReal.coe_add, ← EReal.coe_add, ← coe_max']

/-- One layer of real arguments has real entries. -/
theorem layer_real {n d : Nat} {inp : Mat n d} {adj gate : Mat n n} {W : Mat d d} {b : Vc d}
    {l1W : Mat d d} {l1b : Vc d} {l2W : Mat d d} {l2b : Vc d}
    (hinp : IsReal inp) (hadj : IsReal adj) (hgate : IsReal gate) (hW : IsReal W) (hb : IsReal b)
    (hl1W : IsReal l1W) (hl1b : IsReal l1b) (hl2W : IsReal l2W) (hl2b : IsReal l2b) :
    IsReal (layer inp adj gate W b l1W l1b l2W l2b) := by
  intro j
  obtain ⟨p, hp⟩ := mm_real (mm_real hadj (mm_real hinp hW)) hl1W j
  obtain ⟨q, hq⟩ := mm_real (mm_real hgate (mm_real hinp hW)) hl2W j
  obtain ⟨o, ho⟩ := mm_real hadj (mm_real hinp hW) j
  obtain ⟨t, ht⟩ := mm_real hgate (mm_real hinp hW) j
  obtain ⟨u, hu⟩ := hl1b (ix1 (j 1))
  obtain ⟨v, hv⟩ := hl2b (ix1 (j 1))
  obtain ⟨c, hc⟩ := hb (ix1 (j 1))
  have key : layer inp adj gate W b l1W l1b l2W l2b j
      = mix (((p + u + q + v : ℝ)) : EReal) (o : EReal) (t : EReal) (c : EReal) := by
    show mix (((mm (mm adj (mm inp W)) l1W j + l1b (ix1 (j 1))) + mm (mm gate (mm inp W)) l2W j) + l2b (ix1 (j 1)))
        (mm adj (mm inp W) j) (mm gate (mm inp W) j) (b (ix1 (j 1))) = _
    rw [hp, hq, ho, ht, hu, hv, hc, ← EReal.coe_add, ← EReal.coe_add, ← EReal.coe_add]
  exact ⟨_, key.trans (mix_coe _ _ _ _)⟩

/-! ## 4. The two spellings of a layer agree on real arguments -/

/-- Only the gate's argument differs. adj · (inp · (W · l1W)) = (adj · (inp · W)) · l1W by associativity twice
    (likewise for gate and l2W), and (p + q) + (u + v) = ((p + u) + q) + v in any commutative additive monoid. -/
theorem layerFused_eq_layer {n d : Nat} {inp : Mat n d} {adj gate : Mat n n} {W : Mat d d} {b : Vc d}
    {l1W : Mat d d} {l1b : Vc d} {l2W : Mat d d} {l2b : Vc d}
    (hinp : IsReal inp) (hadj : IsReal adj) (hgate : IsReal gate) (hW : IsReal W) (hb : IsReal b)
    (hl1W : IsReal l1W) (hl1b : IsReal l1b) (hl2W : IsReal l2W) (hl2b : IsReal l2b) :
    layerFused inp adj gate W b l1W l1b l2W l2b = layer inp adj gate W b l1W l1b l2W l2b := by
  have h1 : mm adj (mm inp (mm W l1W)) = mm (mm adj (mm inp W)) l1W := by
    rw [← mm_assoc hinp hW hl1W, ← mm_assoc hadj (mm_real hinp hW) hl1W]
  have h2 : mm gate (mm inp (mm W l2W)) = mm (mm gate (mm inp W)) l2W := by
    rw [← mm_assoc hinp hW hl2W, ← mm_assoc hgate (mm_real hinp hW) hl2W]
  funext j
  show mix ((mm adj (mm inp (mm W l1W)) j + mm gate (mm inp (mm W l2W)) j) + (l1b (ix1 (j 1)) + l2b (ix1 (j 1))))
      (mm adj (mm inp W) j) (mm gate (mm inp W) j) (b (ix1 (j 1)))
    = mix (((mm (mm adj (mm inp W)) l1W j + l1b (ix1 (j 1))) + mm (mm gate (mm inp W)) l2W j) + l2b (ix1 (j 1)))
      (mm adj (mm inp W) j) (mm gate (mm inp W) j) (b (ix1 (j 1)))
  rw [h1, h2, add_add_add_comm, ← add_assoc]

/-! ## 5. The two spellings of the network agree on real arguments -/

/-- Rewrite the inner layer, then the outer one, whose input (a layer of real arguments) is real. -/
theorem netFused_eq_net {n d : Nat} {x : Mat n d} {adj gate : Mat n n}
    {W1 : Mat d d} {b1 : Vc d} {l1W1 : Mat d d} {l1b1 : Vc d} {l2W1 : Mat d d} {l2b1 : Vc d}
    {W2 : Mat d d} {b2 : Vc d} {l1W2 : Mat d d} {l1b2 : Vc d} {l2W2 : Mat d d} {l2b2 : Vc d}
    (hx : IsReal x) (hadj : IsReal adj) (hgate : IsReal gate)
    (hW1 : IsReal W1) (hb1 : IsReal b1) (hl1W1 : IsReal l1W1) (hl1b1 : IsReal l1b1)
    (hl2W1 : IsReal l2W1) (hl2b1 : IsReal l2b1)
    (hW2 : IsReal W2) (hb2 : IsReal b2) (hl1W2 : IsReal l1W2) (hl1b2 : IsReal l1b2)
    (hl2W2 : IsReal l2W2) (hl2b2 : IsReal l2b2) :
    netFused x adj gate W1 b1 l1W1 l1b1 l2W1 l2b1 W2 b2 l1W2 l1b2 l2W2 l2b2
      = net x adj gate W1 b1 l1W1 l1b1 l2W1 l2b1 W2 b2 l1W2 l1b2 l2W2 l2b2 := by
  funext j
  show layerFused (layerFused x adj gate W1 b1 l1W1 l1b1 l2W1 l2b1) adj gate W2 b2 l1W2 l1b2 l2W2 l2b2 j + x j
    = layer (layer x adj gate W1 b1 l1W1 l1b1 l2W1 l2b1) adj gate W2 b2 l1W2 l1b2 l2W2 l2b2 j + x j
  rw [layerFused_eq_layer hx hadj hgate hW1 hb1 hl1W1 hl1b1 hl2W1 hl2b1,
    layerFused_eq_layer (layer_real hx hadj hgate hW1 hb1 hl1W1 hl1b1 hl2W1 hl2b1) hadj hgate hW2 hb2 hl1W2 hl1b2
      hl2W2 hl2b2]

end GatedConv

end
-- ==== Proof.GatedConvBlockAlgebra.lean ====
/-
  Row and column bookkeeping for the banded, two-halves arrangement of a gated graph-convolution layer.

  Entry (r, c) of a product A · B reads row r of A and column c of B only. Hence a product against two 128-column
  matrices side by side is the two products side by side, band q (rows 200 q … 200 q + 199) of a product is the product
  of band q, and a matrix with 10000 rows is determined by its 50 bands. With these, the gate-mix-rectify step on band q
  of the two adjacency products against x · [W | W · l1W] and x · [W | W · l2W] is band q of a layer in the second
  spelling, and the same step on the second layer's products plus band q of the input is band q of the two-layer
  network. None of this needs the entries to be finite: it holds for arbitrary extended-real matrices.
-/
import proofs.«177975_g80453327389404_cont_9to1c4b_650_7_alg».proof.Proof.GatedConvBlocks
import proofs.«177975_g80453327389404_cont_9to1c4b_650_7_alg».proof.Proof.GatedConvAlgebra

noncomputable section

open scoped BigOperators

namespace GatedConv

open Idealize.ShloMosaic Idealize.ShloMosaic.ValueIdx

/-! ## a. The halves of two matrices side by side -/

/-- An entry of `hcat A B` in a column below 128 is the entry of `A`. -/
theorem hcat_apply_lt {a : Nat} (A B : Mat a 128) (j : (⟨2, ![a, 256]⟩ : Shape).Idx) (h : (j 1).val < 128) :
    hcat A B j = A (ix2 (j 0) ⟨(j 1).val, h⟩) := by
  unfold hcat
  exact dif_pos h

/-- An entry of `hcat A B` in a column from 128 on is the entry of `B` 128 columns to the left. -/
theorem hcat_apply_ge {a : Nat} (A B : Mat a 128) (j : (⟨2, ![a, 256]⟩ : Shape).Idx) (h : ¬ (j 1).val < 128) :
    hcat A B j = B (ix2 (j 0) ⟨(j 1).val - 128, by have := idx2_lt1 j; omega⟩) := by
  unfold hcat
  exact dif_neg h

/-- The left half of `A` and `B` side by side is `A`. -/
theorem lhalf_hcat {a : Nat} (A B : Mat a 128) : lhalf (hcat A B) = A := by
  funext j
  have hj : (j 1).val < 128 := idx2_lt1 j
  show hcat A B (ix2 (j 0) ⟨(j 1).val, by omega⟩) = A j
  rw [hcat_apply_lt A B _ hj]
  exact congrArg A (eq_ix2 j).symm

/-- The right half of `A` and `B` side by side is `B`. -/
theorem rhalf_hcat {a : Nat} (A B : Mat a 128) : rhalf (hcat A B) = B := by
  funext j
  have hj : (j 1).val < 128 := idx2_lt1 j
  show hcat A B (ix2 (j 0) ⟨(j 1).val + 128, by omega⟩) = B j
  rw [hcat_apply_ge A B _ (by show ¬ (j 1).val + 128 < 128; omega)]
  have e : (⟨(j 1).val + 128 - 128, by omega⟩ : Fin 128) = j 1 := Fin.ext (by show (j 1).val + 128 - 128 = (j 1).val; omega)
  show B (ix2 (j 0) ⟨(j 1).val + 128 - 128, _⟩) = B j
  rw [e]
  exact congrArg B (eq_ix2 j).symm

/-! ## b. A product against two matrices side by side -/

/-- Column c of X · [A | B] reads column c of [A | B] only: it is column c of X · A below 128 and column c − 128 of
    X · B from 128 on. -/
theorem mm_hcat {a k : Nat} (X : Mat a k) (A B : Mat k 128) : mm X (hcat A B) = hcat (mm X A) (mm X B) := by
  funext j
  by_cases h : (j 1).val < 128
  · rw [hcat_apply_lt _ _ j h]
    show ∑ l : Fin k, X (ix2 (j 0) l) * hcat A B (ix2 l (j 1)) = ∑ l : Fin k, X (ix2 (j 0) l) * A (ix2 l ⟨(j 1).val, h⟩)
    exact Finset.sum_congr rfl fun l _ => congrArg (X (ix2 (j 0) l) * ·) (hcat_apply_lt A B (ix2 l (j 1)) h)
  · rw [hcat_apply_ge _ _ j h]
    show ∑ l : Fin k, X (ix2 (j 0) l) * hcat A B (ix2 l (j 1))
        = ∑ l : Fin k, X (ix2 (j 0) l) * B (ix2 l ⟨(j 1).val - 128, _⟩)
    exact Finset.sum_congr rfl fun l _ => congrArg (X (ix2 (j 0) l) * ·) (hcat_apply_ge A B (ix2 l (j 1)) h)

/-! ## c. A band of a product -/

/-- Row r of A · B reads row r of A only, so band q of the product is the product of band q. -/
theorem mm_rows {k d : Nat} (q : Fin 50) (A : Mat 10000 k) (B : Mat k d) : mm (rows q A) B = rows q (mm A B) := by
  funext j
  exact Finset.sum_congr rfl fun l _ => rfl

/-! ## d. A matrix with 10000 rows is determined by its 50 bands -/

/-- Every row index r below 10000 is 200 · (r / 200) + r % 200 with r / 200 below 50 and r % 200 below 200. -/
theorem rows_ext {d : Nat} (M M' : Mat 10000 d) (h : ∀ q : Fin 50, rows q M = rows q M') : M = M' := by
  funext j
  have hr : (j 0).val < 10000 := idx2_lt0 j
  have hq : (j 0).val / 200 < 50 := by omega
  have ht : (j 0).val % 200 < 200 := Nat.mod_lt _ (by norm_num)
  have key : ∀ N : Mat 10000 d, N j = rows ⟨(j 0).val / 200, hq⟩ N (ix2 ⟨(j 0).val % 200, ht⟩ (j 1)) := by
    intro N
    have e : (⟨200 * ((j 0).val / 200) + (j 0).val % 200, by omega⟩ : Fin 10000) = j 0 :=
      Fin.ext (Nat.div_add_mod (j 0).val 200)
    show N j = N (ix2 ⟨200 * ((j 0).val / 200) + (j 0).val % 200, _⟩ (j 1))
    rw [e]
    exact congrArg N (eq_ix2 j)
  rw [key M, key M', h]

/-! ## e. One band of a layer in the second spelling -/

/-- With the two 256-column right-hand sides x · [W | W · l1W] and x · [W | W · l2W], band q of the two adjacency
    products splits into the aggregated features (left halves) and the aggregated projected features (right halves)
    of band q, and the gate-mix-rectify step on them is band q of the layer. -/
theorem band_layerFused (q : Fin 50) (x : Mat 10000 128) (adj gate : Mat 10000 10000) (W l1W l2W : Mat 128 128)
    (b l1b l2b : Vc 128) :
    band (mm (rows q adj) (mm x (hcat W (mm W l1W)))) (mm (rows q gate) (mm x (hcat W (mm W l2W))))
        (asRow (vadd l1b l2b)) (asRow b)
      = rows q (layerFused x adj gate W b l1W l1b l2W l2b) := by
  rw [mm_hcat x, mm_hcat x, mm_hcat (rows q adj), mm_hcat (rows q gate), mm_rows, mm_rows, mm_rows, mm_rows]
  funext j
  unfold band
  rw [lhalf_hcat, rhalf_hcat, lhalf_hcat, rhalf_hcat]
  rfl

/-! ## f. One band of the network in the second spelling -/

/-- If band q of H is (band q of the first layer) · [W2 | W2 · l1W2] for every q, then H is the first layer times that
    right-hand side (c and d); likewise H'. Then e at the second layer, and the residual is added entrywise. -/
theorem band_netFused (q : Fin 50) (x : Mat 10000 128) (adj gate : Mat 10000 10000)
    (W1 : Mat 128 128) (b1 : Vc 128) (l1W1 : Mat 128 128) (l1b1 : Vc 128) (l2W1 : Mat 128 128) (l2b1 : Vc 128)
    (W2 : Mat 128 128) (b2 : Vc 128) (l1W2 : Mat 128 128) (l1b2 : Vc 128) (l2W2 : Mat 128 128) (l2b2 : Vc 128)
    (H H' : Mat 10000 256)
    (hH : ∀ q : Fin 50, rows q H
      = mm (rows q (layerFused x adj gate W1 b1 l1W1 l1b1 l2W1 l2b1)) (hcat W2 (mm W2 l1W2)))
    (hH' : ∀ q : Fin 50, rows q H'
      = mm (rows q (layerFused x adj gate W1 b1 l1W1 l1b1 l2W1 l2b1)) (hcat W2 (mm W2 l2W2))) :
    (fun j => band (mm (rows q adj) H) (mm (rows q gate) H') (asRow (vadd l1b2 l2b2)) (asRow b2) j + rows q x j)
      = rows q (netFused x adj gate W1 b1 l1W1 l1b1 l2W1 l2b1 W2 b2 l1W2 l1b2 l2W2 l2b2) := by
  have e1 : H = mm (layerFused x adj gate W1 b1 l1W1 l1b1 l2W1 l2b1) (hcat W2 (mm W2 l1W2)) :=
    rows_ext _ _ fun p => by rw [hH p, mm_rows]
  have e2 : H' = mm (layerFused x adj gate W1 b1 l1W1 l1b1 l2W1 l2b1) (hcat W2 (mm W2 l2W2)) :=
    rows_ext _ _ fun p => by rw [hH' p, mm_rows]
  rw [e1, e2, band_layerFused]
  rfl

end GatedConv

end
-- ==== Proof.KernelIdealValue.lean ====
/-
  The value of the kernel's result array at the ideal instance: the two-layer gated graph-convolution network in its
  second spelling, applied to the fifteen argument arrays.

  Given what each window's block is in terms of the argument arrays, the four buffers position 0 fills are the two
  first-layer right-hand sides X · [W1 | W1 · l1W1], X · [W1 | W1 · l2W1] and the two second-layer weight pairs
  [W2 | W2 · l1W2], [W2 | W2 · l2W2]. The band a first-layer position q stores is band q of the first layer times a
  weight pair, so the two banded buffers, once full, have exactly the bands that the second layer's right-hand sides
  have. A second-layer position then writes band (t mod 50) of the network: the gate-mix-rectify step on its two
  adjacency bands against those buffers, plus its band of the input. The fifty bands written back cover the result array,
  so the array ends holding the network's value.
-/
import proofs.«177975_g80453327389404_cont_9to1c4b_650_7_alg».proof.Proof.KernelIdealCarried
import proofs.«177975_g80453327389404_cont_9to1c4b_650_7_alg».proof.Proof.KernelIdealBlockFacts
import proofs.«177975_g80453327389404_cont_9to1c4b_650_7_alg».proof.Proof.KernelIdealPayloads
import proofs.«177975_g80453327389404_cont_9to1c4b_650_7_alg».proof.Proof.GatedConvBlockAlgebra
import proofs.«177975_g80453327389404_cont_9to1c4b_650_7_alg».proof.Proof.RowBands

noncomputable section

namespace Cert.KernelIdeal.Hand

open Idealize.ShloMosaic Idealize.ShloMosaic.TcCoe Idealize.SL.Sem
open Cert.KernelIdeal Cert.KernelIdeal.Gen GatedConv

variable (m : (ℓ : Loc nD τ sig) → Buf (Elt Ideal) ℓ) (c : Dev nD)

/-- The first-layer position that stores band q works on band q. -/
theorem bandOf_pos1 (q : Fin 50) : bandOf (pos1 q) = q := Fin.ext (Nat.mod_eq_of_lt q.isLt)

/-! ## 1. What position 0 leaves in the carried buffers -/

theorem rhsAdj1_eq (hb : BlockFacts m c) :
    (rhsAdj1 (F := Ideal) m c : Mat 10000 256) = mm (aX m c) (hcat (aW1 m c) (mm (aW1 m c) (al1W1 m c))) := by
  unfold rhsAdj1
  refine (Payloads.pay9 (iblk m c 3 p0) (iblk m c 3 p0) (iblk m c 4 p0) (iblk m c 2 p0)).trans ?_
  rw [hb.feat p0, hb.w1 p0, hb.l1w1 p0]

theorem rhsGate1_eq (hb : BlockFacts m c) :
    (rhsGate1 (F := Ideal) m c : Mat 10000 256) = mm (aX m c) (hcat (aW1 m c) (mm (aW1 m c) (al2W1 m c))) := by
  unfold rhsGate1
  refine (Payloads.pay10 (iblk m c 3 p0) (iblk m c 3 p0) (iblk m c 5 p0) (iblk m c 2 p0)).trans ?_
  rw [hb.feat p0, hb.w1 p0, hb.l2w1 p0]

theorem projAdj2_eq (hb : BlockFacts m c) :
    (projAdj2 (F := Ideal) m c : Mat 128 256) = hcat (aW2 m c) (mm (aW2 m c) (al1W2 m c)) := by
  unfold projAdj2
  refine (Payloads.pay1 (iblk m c 6 p0) (iblk m c 6 p0) (iblk m c 7 p0)).trans ?_
  rw [hb.w2 p0, hb.l1w2 p0]

theorem projGate2_eq (hb : BlockFacts m c) :
    (projGate2 (F := Ideal) m c : Mat 128 256) = hcat (aW2 m c) (mm (aW2 m c) (al2W2 m c)) := by
  unfold projGate2
  refine (Payloads.pay2 (iblk m c 6 p0) (iblk m c 6 p0) (iblk m c 8 p0)).trans ?_
  rw [hb.w2 p0, hb.l2w2 p0]

/-! ## 2. The band a first-layer position stores: band q of the first layer times the second layer's weights -/

theorem bandAdj_eq (hb : BlockFacts m c) (q : Fin 50) :
    (bandAdjAt (F := Ideal) m c (pos1 q) : Mat 200 256)
      = mm (rows q (layerFused (aX m c) (aAdj m c) (aGate m c) (aW1 m c) (ab1 m c) (al1W1 m c) (al1b1 m c) (al2W1 m c) (al2b1 m c))) (hcat (aW2 m c) (mm (aW2 m c) (al1W2 m c))) := by
  unfold bandAdjAt
  refine (Payloads.pay14 (k0_pay3 (iblk m c 0 (pos1 q))) (k0_pay4 (iblk m c 1 (pos1 q))) (rhsAdj1 m c) (rhsGate1 m c)
    (iblk m c 10 (pos1 q)) (iblk m c 9 (pos1 q)) (projAdj2 m c)).trans ?_
  rw [Payloads.pay3 (iblk m c 0 (pos1 q)), Payloads.pay4 (iblk m c 1 (pos1 q)), hb.adj (pos1 q), hb.gate (pos1 q),
    hb.gb1 (pos1 q), hb.b1 (pos1 q), rhsAdj1_eq m c hb, rhsGate1_eq m c hb, projAdj2_eq m c hb, bandOf_pos1,
    band_layerFused]

theorem bandGate_eq (hb : BlockFacts m c) (q : Fin 50) :
    (bandGateAt (F := Ideal) m c (pos1 q) : Mat 200 256)
      = mm (rows q (layerFused (aX m c) (aAdj m c) (aGate m c) (aW1 m c) (ab1 m c) (al1W1 m c) (al1b1 m c) (al2W1 m c) (al2b1 m c))) (hcat (aW2 m c) (mm (aW2 m c) (al2W2 m c))) := by
  unfold bandGateAt
  refine (Payloads.pay5 _).trans ?_
  refine (Payloads.pay15 (k0_pay3 (iblk m c 0 (pos1 q))) (k0_pay4 (iblk m c 1 (pos1 q))) (rhsAdj1 m c) (rhsGate1 m c)
    (iblk m c 10 (pos1 q)) (iblk m c 9 (pos1 q)) (projGate2 m c)).trans ?_
  rw [Payloads.pay3 (iblk m c 0 (pos1 q)), Payloads.pay4 (iblk m c 1 (pos1 q)), hb.adj (pos1 q), hb.gate (pos1 q),
    hb.gb1 (pos1 q), hb.b1 (pos1 q), rhsAdj1_eq m c hb, rhsGate1_eq m c hb, projGate2_eq m c hb, bandOf_pos1,
    band_layerFused]

/-! ## 3. The output block of a second-layer position: its band of the two-layer network -/

theorem outAt_eq (hb : BlockFacts m c) (t : Fin cfg0.N) (ht : 50 ≤ t.val) :
    (outAt (F := Ideal) m c t : Mat 200 128) = rows (bandOf t) (netFused (aX m c) (aAdj m c) (aGate m c) (aW1 m c) (ab1 m c) (al1W1 m c) (al1b1 m c) (al2W1 m c) (al2b1 m c) (aW2 m c) (ab2 m c) (al1W2 m c) (al1b2 m c) (al2W2 m c) (al2b2 m c)) := by
  have hc : k0_cond3 (grid0.coords t) = 1#1 := (condLayer2_iff t).mpr ht
  unfold outAt
  rw [dif_pos hc]
  refine (Payloads.pay6 (iblk m c 0 t) (iblk m c 1 t) (fullAdj2 m c) (fullGate2 m c) (iblk m c 12 t) (iblk m c 11 t)
    _).trans ?_
  rw [hb.adj t, hb.gate t, hb.gb2 t, hb.b2 t, hb.resid t hc]
  exact band_netFused (bandOf t) (aX m c) (aAdj m c) (aGate m c) (aW1 m c) (ab1 m c) (al1W1 m c) (al1b1 m c) (al2W1 m c) (al2b1 m c) (aW2 m c) (ab2 m c) (al1W2 m c) (al1b2 m c) (al2W2 m c) (al2b2 m c) (fullAdj2 m c) (fullGate2 m c)
    (fun q => (RowBands.rows_full _ q).trans (bandAdj_eq m c hb q))
    (fun q => (RowBands.rows_full _ q).trans (bandGate_eq m c hb q))

/-! ## 4. The result array after the pipeline: the two-layer network -/

theorem final_out (hb : BlockFacts m c) :
    (dats (F := Ideal) m 0 c).arrAt 13 cfg0.N = (netFused (aX m c) (aAdj m c) (aGate m c) (aW1 m c) (ab1 m c) (al1W1 m c) (al1b1 m c) (al2W1 m c) (al2b1 m c) (aW2 m c) (ab2 m c) (al1W2 m c) (al1b2 m c) (al2W2 m c) (al2b2 m c) : Mat 10000 128) := by
  refine (dats (F := Ideal) m 0 c).arrAt_eq_of_cover 13 _ (fun t hf => ?_) hb.outCover
  have ht : 50 ≤ t.val := of_decide_eq_true ((flush_out t).symm.trans hf)
  exact (outAt_eq m c hb t ht).trans (hb.outRead t _ ht).symm

end Cert.KernelIdeal.Hand

end
-- ==== Proof.KernelIdealBlocks.lean ====
/-
  Each window's block of the one pallas_call, at the ideal instance, in terms of the argument arrays.

  The grid is 2 x 50, walked in row-major order: position t = 50 * layer + block. A window's block at position t is
  the rectangle of its array that starts, on each axis, at (block index) x (block size) and has the block's size: an
  element of the block with coordinate y on an axis sits in the array at index x size + y on that axis. The block
  indices are the printed index maps read over the 100 positions:
    * the features, the six weights and the four bias rows have a block as large as their array and index (0, 0) at
      every position, so the block is the array;
    * the two adjacencies have blocks of 200 rows and index (t mod 50, 0), so the block is rows 200 (t mod 50) …
      200 (t mod 50) + 199: band t mod 50;
    * the output has blocks of 200 rows and, at a second-layer position (50 ≤ t), index (t - 50, 0): band t mod 50
      again. Row r of the result lies in the band of position 50 + r / 200, which is written back; so the fifty
      second-layer bands cover the result array.
  The four bias rows are arrays the host lines before the call write: a length-128 bias recast as a 1 x 128 row reads,
  at (0, column), the bias at that column; two of them are the entrywise sum of two gate biases recast the same way.
  A second-layer position also loads 200 rows of the (whole) feature block through a unit-stride rectangle whose row
  offset is 200 (t - 50): band t mod 50 of the features.
-/
import proofs.«177975_g80453327389404_cont_9to1c4b_650_7_alg».proof.Proof.KernelIdealBlockFacts
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen GatedConv

variable (m : (ℓ : Loc nD τ sig) → Buf (Elt Ideal) ℓ) (c : Dev nD)

/-! ## The block indices, decided over the 100 positions -/

/-- Window 0's block index at position t is (t mod 50, 0). -/
theorem index0 : ∀ t : Fin cfg0.N, win0_0.index t (0 : Fin 2) = t.val % 50 ∧ win0_0.index t (1 : Fin 2) = 0 :=
  (by decide +kernel : ∀ t : Fin grid0.N, win0_0.index t (0 : Fin 2) = t.val % 50 ∧ win0_0.index t (1 : Fin 2) = 0)
/-- Window 1's block index at position t is (t mod 50, 0). -/
theorem index1 : ∀ t : Fin cfg0.N, win0_1.index t (0 : Fin 2) = t.val % 50 ∧ win0_1.index t (1 : Fin 2) = 0 :=
  (by decide +kernel : ∀ t : Fin grid0.N, win0_1.index t (0 : Fin 2) = t.val % 50 ∧ win0_1.index t (1 : Fin 2) = 0)
/-- Window 2's block index is (0, 0) at every position of the grid. -/
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- Window 3's block index is (0, 0) at every position of the grid. -/
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4's block index is (0, 0) at every position of the grid. -/
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 5's block index is (0, 0) at every position of the grid. -/
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6's block index is (0, 0) at every position of the grid. -/
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7's block index is (0, 0) at every position of the grid. -/
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 8's block index is (0, 0) at every position of the grid. -/
theorem index8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 9's block index is (0, 0) at every position of the grid. -/
theorem index9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
/-- Window 10's block index is (0, 0) at every position of the grid. -/
theorem index10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
/-- Window 11's block index is (0, 0) at every position of the grid. -/
theorem index11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
/-- Window 12's block index is (0, 0) at every position of the grid. -/
theorem index12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
/-- The output's block index at a second-layer position t is (t - 50, 0). -/
theorem index13 : ∀ t : Fin cfg0.N, (50 ≤ t.val → win0_13.index t (0 : Fin 2) = t.val - 50) ∧ win0_13.index t (1 : Fin 2) = 0 :=
  (by decide +kernel : ∀ t : Fin grid0.N, (50 ≤ t.val → win0_13.index t (0 : Fin 2) = t.val - 50) ∧ win0_13.index t (1 : Fin 2) = 0)

/-- A position is below 100. -/
theorem pos_lt (t : Fin cfg0.N) : t.val < 100 := Nat.lt_of_lt_of_eq t.isLt N_0

/-! ## The windows staged whole -/

/-- The features are staged whole: block (0, 0) of a block as large as the array is the array. -/
theorem feat_eq (t : Fin cfg0.N) : (iblk (F := Ideal) m c 2 t : Mat 10000 128) = aX m c := by
  funext x
  obtain ⟨e0, e1⟩ := index2 t
  unfold iblk
  rw [View.read_apply]
  show V m c main_arg0 _ = m ((c.tc : Thread nD τ).loc main_arg0) x
  rw [V_main_arg0]
  congr 1
  funext a
  apply Fin.ext
  match a with
  | ⟨0, _⟩ => show win0_2.index t (0 : Fin 2) * 10000 + 1 * (x 0).val = (x 0).val; rw [e0]; omega
  | ⟨1, _⟩ => show win0_2.index t (1 : Fin 2) * 128 + 1 * (x 1).val = (x 1).val; rw [e1]; omega

/-- The first layer's weight is staged whole: block (0, 0) of a block as large as the array is the array. -/
theorem w1_eq (t : Fin cfg0.N) : (iblk (F := Ideal) m c 3 t : Mat 128 128) = aW1 m c := by
  funext x
  obtain ⟨e0, e1⟩ := index3 t
  unfold iblk
  rw [View.read_apply]
  show V m c main_arg3 _ = m ((c.tc : Thread nD τ).loc main_arg3) x
  rw [V_main_arg3]
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- The first layer's first gate projection is staged whole: block (0, 0) of a block as large as the array is the array. -/
theorem l1w1_eq (t : Fin cfg0.N) : (iblk (F := Ideal) m c 4 t : Mat 128 128) = al1W1 m c := by
  funext x
  obtain ⟨e0, e1⟩ := index4 t
  unfold iblk
  rw [View.read_apply]
  show V m c main_arg5 _ = m ((c.tc : Thread nD τ).loc main_arg5) x
  rw [V_main_arg5]
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- The first layer's second gate projection is staged whole: block (0, 0) of a block as large as the array is the array. -/
theorem l2w1_eq (t : Fin cfg0.N) : (iblk (F := Ideal) m c 5 t : Mat 128 128) = al2W1 m c := by
  funext x
  obtain ⟨e0, e1⟩ := index5 t
  unfold iblk
  rw [View.read_apply]
  show V m c main_arg7 _ = m ((c.tc : Thread nD τ).loc main_arg7) x
  rw [V_main_arg7]
  congr 1
  funext a
  apply Fin.ext
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

/-- The second layer's weight is staged whole: block (0, 0) of a block as large as the array is the array. -/
theorem w2_eq (t : Fin cfg0.N) : (iblk (F := Ideal) m c 6 t : Mat 128 128) = aW2 m c := by
  funext x
  obtain ⟨e0, e1⟩ := index6 t
  unfold iblk
  rw [View.read_apply]
  show V m c main_arg9 _ = m ((c.tc : Thread nD τ).loc main_arg9) x
  rw [V_main_arg9]
  congr 1
  funext a
  apply Fin.ext
  match a with
  | ⟨0, _⟩ => show win0_6.index t (0 : Fin 2) * 128 + 1 * (x 0).val = (x 0).val; rw [e0]; omega
  | ⟨1, _⟩ => show win0_6.index t (1 : Fin 2) * 128 + 1 * (x 1).val = (x 1).val; rw [e1]; omega

/-- The second layer's first gate projection is staged whole: block (0, 0) of a block as large as the array is the array. -/
theorem l1w2_eq (t : Fin cfg0.N) : (iblk (F := Ideal) m c 7 t : Mat 128 128) = al1W2 m c := by
  funext x
  obtain ⟨e0, e1⟩ := index7 t
  unfold iblk
  rw [View.read_apply]
  show V m c main_arg11 _ = m ((c.tc : Thread nD τ).loc main_arg11) x
  rw [V_main_arg11]
  congr 1
  funext a
  apply Fin.ext
  match a with
  | ⟨0, _⟩ => show win0_7.index t (0 : Fin 2) * 128 + 1 * (x 0).val = (x 0).val; rw [e0]; omega
  | ⟨1, _⟩ => show win0_7.index t (1 : Fin 2) * 128 + 1 * (x 1).val = (x 1).val; rw [e1]; omega

/-- The second layer's second gate projection is staged whole: block (0, 0) of a block as large as the array is the array. -/
theorem l2w2_eq (t : Fin cfg0.N) : (iblk (F := Ideal) m c 8 t : Mat 128 128) = al2W2 m c := by
  funext x
  obtain ⟨e0, e1⟩ := index8 t
  unfold iblk
  rw [View.read_apply]
  show V m c main_arg13 _ = m ((c.tc : Thread nD τ).loc main_arg13) x
  rw [V_main_arg13]
  congr 1
  funext a
  apply Fin.ext
  match a with
  | ⟨0, _⟩ => show win0_8.index t (0 : Fin 2) * 128 + 1 * (x 0).val = (x 0).val; rw [e0]; omega
  | ⟨1, _⟩ => show win0_8.index t (1 : Fin 2) * 128 + 1 * (x 1).val = (x 1).val; rw [e1]; omega

/-! ## The two adjacencies, a band per position -/

/-- The adjacency is staged one band of 200 rows per position: position t reads band t mod 50. -/
theorem adj_eq (t : Fin cfg0.N) : (iblk (F := Ideal) m c 0 t : Mat 200 10000) = rows (bandOf t) (aAdj m c) := by
  funext x
  obtain ⟨e0, e1⟩ := index0 t
  unfold iblk
  rw [View.read_apply]
  show V m c main_arg1 _ = m ((c.tc : Thread nD τ).loc main_arg1) _
  rw [V_main_arg1]
  congr 1
  funext a
  apply Fin.ext
  match a with
  | ⟨0, _⟩ => show win0_0.index t (0 : Fin 2) * 200 + 1 * (x 0).val = 200 * (t.val % 50) + (x 0).val; rw [e0]; omega
  | ⟨1, _⟩ => show win0_0.index t (1 : Fin 2) * 10000 + 1 * (x 1).val = (x 1).val; rw [e1]; omega

/-- The gate adjacency is staged one band of 200 rows per position: position t reads band t mod 50. -/
theorem gate_eq (t : Fin cfg0.N) : (iblk (F := Ideal) m c 1 t : Mat 200 10000) = rows (bandOf t) (aGate m c) := by
  funext x
  obtain ⟨e0, e1⟩ := index1 t
  unfold iblk
  rw [View.read_apply]
  show V m c main_arg2 _ = m ((c.tc : Thread nD τ).loc main_arg2) _
  rw [V_main_arg2]
  congr 1
  funext a
  apply Fin.ext
  match a with
  | ⟨0, _⟩ => show win0_1.index t (0 : Fin 2) * 200 + 1 * (x 0).val = 200 * (t.val % 50) + (x 0).val; rw [e0]; omega
  | ⟨1, _⟩ => show win0_1.index t (1 : Fin 2) * 10000 + 1 * (x 1).val = (x 1).val; rw [e1]; omega

/-! ## The four bias rows the host lines prepare -/

/-- The first host line recasts the first layer's bias as a 1 x 128 row. -/
theorem host_main_v0 : (V m c main_v0 : S1x128.Idx → EReal) = shapeCast S1x128 (m ((c.tc : Thread nD τ).loc main_arg4)) shapeCasts_S128_S1x128 := by
  dsimp only [Gen.V, Gen.hostOps0]
  after_results
  rfl

/-- The second and third host lines add the first layer's two gate biases and recast the sum as a 1 x 128 row. -/
theorem host_main_v2 : (V m c main_v2 : S1x128.Idx → EReal) = shapeCast S1x128 (addf (F := Ideal) (s := S128) (φ := .f32) (m ((c.tc : Thread nD τ).loc main_arg6)) (m ((c.tc : Thread nD τ).loc main_arg8))) shapeCasts_S128_S1x128 := by
  dsimp only [Gen.V, Gen.hostOps0]
  after_results
  rfl

/-- The fourth host line recasts the second layer's bias as a 1 x 128 row. -/
theorem host_main_v3 : (V m c main_v3 : S1x128.Idx → EReal) = shapeCast S1x128 (m ((c.tc : Thread nD τ).loc main_arg10)) shapeCasts_S128_S1x128 := by
  dsimp only [Gen.V, Gen.hostOps0]
  after_results
  rfl

/-- The fifth and sixth host lines add the second layer's two gate biases and recast the sum as a 1 x 128 row. -/
theorem host_main_v5 : (V m c main_v5 : S1x128.Idx → EReal) = shapeCast S1x128 (addf (F := Ideal) (s := S128) (φ := .f32) (m ((c.tc : Thread nD τ).loc main_arg12)) (m ((c.tc : Thread nD τ).loc main_arg14))) shapeCasts_S128_S1x128 := by
  dsimp only [Gen.V, Gen.hostOps0]
  after_results
  rfl

/-- The first layer's bias, as a row: block (0, 0) of the 1 x 128 array the host lines prepared, read at (0, column). -/
theorem b1_eq (t : Fin cfg0.N) : (iblk (F := Ideal) m c 9 t : Mat 1 128) = asRow (ab1 m c) := by
  funext x
  obtain ⟨e0, e1⟩ := index9 t
  unfold iblk
  rw [View.read_apply]
  show V m c main_v0 _ = (asRow (ab1 m c)) x
  have hx : ((cfg0.win 9).blk t).view.emb x = ix2 (x 0) (x 1) := by
    funext a
    apply Fin.ext
    match a with
    | ⟨0, _⟩ => show win0_9.index t (0 : Fin 2) * 1 + 1 * (x 0).val = (x 0).val; rw [e0]; omega
    | ⟨1, _⟩ => show win0_9.index t (1 : Fin 2) * 128 + 1 * (x 1).val = (x 1).val; rw [e1]; omega
  rw [hx, host_main_v0]
  exact shapeCast_a_1a_apply _ _ (x 0) (x 1)

/-- The first layer's two gate biases added, as a row: block (0, 0) of the 1 x 128 array the host lines prepared, read at (0, column). -/
theorem gb1_eq (t : Fin cfg0.N) : (iblk (F := Ideal) m c 10 t : Mat 1 128) = asRow (vadd (al1b1 m c) (al2b1 m c)) := by
  funext x
  obtain ⟨e0, e1⟩ := index10 t
  unfold iblk
  rw [View.read_apply]
  show V m c main_v2 _ = (asRow (vadd (al1b1 m c) (al2b1 m c))) x
  have hx : ((cfg0.win 10).blk t).view.emb x = ix2 (x 0) (x 1) := by
    funext a
    apply Fin.ext
    match a with
    | ⟨0, _⟩ => show win0_10.index t (0 : Fin 2) * 1 + 1 * (x 0).val = (x 0).val; rw [e0]; omega
    | ⟨1, _⟩ => show win0_10.index t (1 : Fin 2) * 128 + 1 * (x 1).val = (x 1).val; rw [e1]; omega
  rw [hx, host_main_v2]
  exact shapeCast_a_1a_apply _ _ (x 0) (x 1)

/-- The second layer's bias, as a row: block (0, 0) of the 1 x 128 array the host lines prepared, read at (0, column). -/
theorem b2_eq (t : Fin cfg0.N) : (iblk (F := Ideal) m c 11 t : Mat 1 128) = asRow (ab2 m c) := by
  funext x
  obtain ⟨e0, e1⟩ := index11 t
  unfold iblk
  rw [View.read_apply]
  show V m c main_v3 _ = (asRow (ab2 m c)) x
  have hx : ((cfg0.win 11).blk t).view.emb x = ix2 (x 0) (x 1) := by
    funext a
    apply Fin.ext
    match a with
    | ⟨0, _⟩ => show win0_11.index t (0 : Fin 2) * 1 + 1 * (x 0).val = (x 0).val; rw [e0]; omega
    | ⟨1, _⟩ => show win0_11.index t (1 : Fin 2) * 128 + 1 * (x 1).val = (x 1).val; rw [e1]; omega
  rw [hx, host_main_v3]
  exact shapeCast_a_1a_apply _ _ (x 0) (x 1)

/-- The second layer's two gate biases added, as a row: block (0, 0) of the 1 x 128 array the host lines prepared, read at (0, column). -/
theorem gb2_eq (t : Fin cfg0.N) : (iblk (F := Ideal) m c 12 t : Mat 1 128) = asRow (vadd (al1b2 m c) (al2b2 m c)) := by
  funext x
  obtain ⟨e0, e1⟩ := index12 t
  unfold iblk
  rw [View.read_apply]
  show V m c main_v5 _ = (asRow (vadd (al1b2 m c) (al2b2 m c))) x
  have hx : ((cfg0.win 12).blk t).view.emb x = ix2 (x 0) (x 1) := by
    funext a
    apply Fin.ext
    match a with
    | ⟨0, _⟩ => show win0_12.index t (0 : Fin 2) * 1 + 1 * (x 0).val = (x 0).val; rw [e0]; omega
    | ⟨1, _⟩ => show win0_12.index t (1 : Fin 2) * 128 + 1 * (x 1).val = (x 1).val; rw [e1]; omega
  rw [hx, host_main_v5]
  exact shapeCast_a_1a_apply _ _ (x 0) (x 1)

/-! ## The rows a second-layer position adds back -/

/-- At a second-layer position t the load of 200 rows of the feature block at row offset 200 (t - 50) is band
    t mod 50 of the features. -/
theorem resid_eq (t : Fin cfg0.N) (h : k0_cond3 (grid0.coords t) = 1#1) :
    (View.ld (iblk (F := Ideal) m c 2 t) (Rect.unit (s := S10000x128) (k0_off2 (grid0.coords t)) S200x128.size (k0_off2_inb (grid0.coords t) h)) : Mat 200 128)
      = rows (bandOf t) (aX m c) := by
  have h50 : 50 ≤ t.val := (condLayer2_iff t).mp h
  have hN : t.val < 100 := pos_lt t
  have ho := residualOffset t h50
  have h0 : k0_off2 (grid0.coords t) (0 : Fin 2) = 200 * (t.val - 50) := by rw [ho]; rfl
  have h1 : k0_off2 (grid0.coords t) (1 : Fin 2) = 0 := by rw [ho]; rfl
  funext j
  refine (congrFun (feat_eq m c t) _).trans ?_
  show aX m c _ = aX m c _
  congr 1
  funext a
  apply Fin.ext
  match a with
  | ⟨0, _⟩ =>
    show k0_off2 (grid0.coords t) (0 : Fin 2) + 1 * (j 0).val = 200 * (t.val % 50) + (j 0).val
    omega
  | ⟨1, _⟩ =>
    show k0_off2 (grid0.coords t) (1 : Fin 2) + 1 * (j 1).val = (j 1).val
    omega

/-! ## The output's bands -/

/-- At a second-layer position t the output's block of any [10000, 128] array is its band t mod 50. -/
theorem outRead_eq (t : Fin cfg0.N) (G : Mat 10000 128) (h50 : 50 ≤ t.val) :
    (((cfg0.win 13).blk t).view.read (Elt Ideal) G : Mat 200 128) = rows (bandOf t) G := by
  have hN : t.val < 100 := pos_lt t
  obtain ⟨e0, e1⟩ := index13 t
  funext x
  rw [View.read_apply]
  show G _ = G _
  congr 1
  funext a
  apply Fin.ext
  match a with
  | ⟨0, _⟩ => show win0_13.index t (0 : Fin 2) * 200 + 1 * (x 0).val = 200 * (t.val % 50) + (x 0).val; rw [e0 h50]; omega
  | ⟨1, _⟩ => show win0_13.index t (1 : Fin 2) * 128 + 1 * (x 1).val = (x 1).val; rw [e1]; omega

/-- Every index of the result array lies in the block of a position that writes back: row r in that of position
    50 + r / 200. -/
theorem outCover_ex (i : ((cfg0.win 13).arr.view.loc (c.tc : Thread nD τ)).2.ty.Idx) :
    ∃ t : Fin cfg0.N, (cfg0.win 13).flush t = true ∧ i ∈ ((cfg0.win 13).blk t).view.set := by
  have hi0 : (i 0).val < 10000 := (i 0).isLt
  have hi1 : (i 1).val < 128 := (i 1).isLt
  have hN : cfg0.N = 100 := N_0
  let t : Fin cfg0.N := ⟨50 + (i 0).val / 200, by rw [hN]; omega⟩
  have ht : t.val = 50 + (i 0).val / 200 := rfl
  obtain ⟨e0, e1⟩ := index13 t
  have e0' := e0 (by omega)
  refine ⟨t, by rw [flush_out t]; exact decide_eq_true (by omega), ?_⟩
  show i ∈ ((View.whole main_v6).slice (win0_13.rect t)).set
  rw [View.set_slice_whole, Rect.mem_set_unit]
  intro a
  match a with
  | ⟨0, _⟩ =>
    show win0_13.index t (0 : Fin 2) * 200 ≤ (i 0).val ∧ (i 0).val < win0_13.index t (0 : Fin 2) * 200 + 200
    rw [e0']; omega
  | ⟨1, _⟩ =>
    show win0_13.index t (1 : Fin 2) * 128 ≤ (i 1).val ∧ (i 1).val < win0_13.index t (1 : Fin 2) * 128 + 128
    rw [e1]; omega

/-! ## All sixteen together -/

/-- Each window's block, read off the arrays as the region finds them, in terms of the argument arrays. -/
theorem blockFacts (m : (ℓ : Loc nD τ sig) → Buf (Elt Ideal) ℓ) (c : Dev nD) : BlockFacts m c where
  feat := feat_eq m c
  w1 := w1_eq m c
  l1w1 := l1w1_eq m c
  l2w1 := l2w1_eq m c
  w2 := w2_eq m c
  l1w2 := l1w2_eq m c
  l2w2 := l2w2_eq m c
  b1 := b1_eq m c
  gb1 := gb1_eq m c
  b2 := b2_eq m c
  gb2 := gb2_eq m c
  adj := adj_eq m c
  gate := gate_eq m c
  resid := resid_eq m c
  outRead := outRead_eq
  outCover := outCover_ex c

end Cert.KernelIdeal.Hand

end
-- ==== Proof.KernelIdealResult.lean ====
/-
  The idealized kernel's run with its result named: every weakly fair execution terminates, the argument arrays
  end unchanged, and the result array ends holding the two fused layers and the residual of the argument
  arrays — the fifty bands the second-layer positions wrote back, each the matching band of that function,
  cover it.
-/
import proofs.«177975_g80453327389404_cont_9to1c4b_650_7_alg».proof.Proof.KernelIdealObligation
import proofs.«177975_g80453327389404_cont_9to1c4b_650_7_alg».proof.Proof.KernelIdealValue
import proofs.«177975_g80453327389404_cont_9to1c4b_650_7_alg».proof.Proof.KernelIdealBlocks

noncomputable section

namespace Cert.KernelIdeal.Hand

open Idealize.ShloMosaic Idealize.ShloMosaic.TcCoe Idealize.SL.Sem
open Cert.KernelIdeal Cert.KernelIdeal.Gen GatedConv

variable (m : (ℓ : Loc nD τ sig) → Buf (Elt Ideal) ℓ) (ρ : Dev nD → PrngReg)

/-- The result array on core `c`: the fused network of the argument arrays. -/
def result (c : Dev nD) : Buf (Elt Ideal) ((c.tc : Thread nD τ).loc main_v6) :=
  (netFused (aX m c) (aAdj m c) (aGate m c) (aW1 m c) (ab1 m c) (al1W1 m c) (al1b1 m c) (al2W1 m c) (al2b1 m c) (aW2 m c) (ab2 m c) (al1W2 m c) (al1b2 m c) (al2W2 m c) (al2b2 m c) : Mat 10000 128)

theorem run_value : θ_run (defs (F := Ideal)) (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 13).trans (final_out m c (blockFacts m c)),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c))),
      ((h c).2 main_arg6 (Pipeline.mem_restRefs_of main_arg6 (by decide) (by decide))).trans (V_main_arg6 m c),
      ((h c).1 5).trans (((dats m 0 c).arrAt_in 5 rfl _).trans ((A_eq m c 5).trans (V_main_arg7 m c))),
      ((h c).2 main_arg8 (Pipeline.mem_restRefs_of main_arg8 (by decide) (by decide))).trans (V_main_arg8 m c),
      ((h c).1 6).trans (((dats m 0 c).arrAt_in 6 rfl _).trans ((A_eq m c 6).trans (V_main_arg9 m c))),
      ((h c).2 main_arg10 (Pipeline.mem_restRefs_of main_arg10 (by decide) (by decide))).trans (V_main_arg10 m c),
      ((h c).1 7).trans (((dats m 0 c).arrAt_in 7 rfl _).trans ((A_eq m c 7).trans (V_main_arg11 m c))),
      ((h c).2 main_arg12 (Pipeline.mem_restRefs_of main_arg12 (by decide) (by decide))).trans (V_main_arg12 m c),
      ((h c).1 8).trans (((dats m 0 c).arrAt_in 8 rfl _).trans ((A_eq m c 8).trans (V_main_arg13 m c))),
      ((h c).2 main_arg14 (Pipeline.mem_restRefs_of main_arg14 (by decide) (by decide))).trans (V_main_arg14 m c)⟩) (run_main (F := Ideal) m ρ)

end Cert.KernelIdeal.Hand

end
-- ==== Proof.ReferenceNet.lean ====
/-
  The reference program computes two gated graph-convolution layers and a residual, as one function of its
  fifteen argument arrays over the extended reals.

  One layer, with node features `inp` [10000, 128], dense adjacencies `adj`, `gate` [10000, 10000], a weight `W`
  [128, 128], a bias `b` [128] and two gate projections `l1W`, `l2W` [128, 128] with biases `l1b`, `l2b` [128], is
  the chain of operations

      h = inp · W,   out = adj · h,   lat = gate · h,
      s = ((out · l1W + l1b) + lat · l2W) + l2b,
      g = 1 / (1 + exp (−s)),                      (negate, exponential, add one, divide)
      y = max (g · out + (1 − g) · lat + b, 0),

  every matrix product the sum over the contracted coordinate of products of entries, every bias read at the
  column of the index (it is broadcast along the rows), the constants one and zero broadcast from scalars. On the
  extended reals 1 / (1 + exp (−s)) is the logistic function by its definition (the float pattern of 1.0 is the
  extended real one), so `y` is the specification's `GatedConv.layer`. The second layer's operations are the first
  layer's operations, read at the first layer's result and the second set of weights: the two chains are one term.
  The last operation adds the input back. So the result is `GatedConv.net` of the arguments, index by index
  (`result_eq`); every weakly fair execution of the program terminates with its result array at that function of
  the launch contents of its arguments and with the arguments unchanged (`run_net`, `frame`).
-/
import proofs.«177975_g80453327389404_cont_9to1c4b_650_7_alg».proof.Defs
import proofs.«177975_g80453327389404_cont_9to1c4b_650_7_alg».proof.Proof.Gen.ReferenceIdeal.Run
import proofs.«177975_g80453327389404_cont_9to1c4b_650_7_alg».proof.Proof.Gen.ReferenceIdeal.Read
import proofs.«177975_g80453327389404_cont_9to1c4b_650_7_alg».proof.Proof.GatedConvSpec
import Idealize.ShloMosaic.Lib.IdealHost

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- Node features: a [10000, 128] array of extended reals. -/
abbrev Feat : Type := (⟨S10000x128, .f32⟩ : BufTy).Contents (Elt Ideal)
/-- A dense adjacency: a [10000, 10000] array of extended reals. -/
abbrev Adj : Type := (⟨S10000x10000, .f32⟩ : BufTy).Contents (Elt Ideal)
/-- A weight: a [128, 128] array of extended reals. -/
abbrev Wt : Type := (⟨S128x128, .f32⟩ : BufTy).Contents (Elt Ideal)
/-- A bias: a [128] array of extended reals. -/
abbrev Bias : Type := (⟨S128, .f32⟩ : BufTy).Contents (Elt Ideal)

/-! ## A matrix product read at an index -/

/-- An array whose entry at `i` is the sum over `q` of `A` at (row of `i`, `q`) times `B` at (`q`, column of `i`) is the
    matrix product `A · B`. -/
theorem eq_mm {a k b : Nat} (A : GatedConv.Mat a k) (B : GatedConv.Mat k b) (v : GatedConv.Mat a b)
    (li : (⟨2, ![a, b]⟩ : Shape).Idx → Fin k → (⟨2, ![a, k]⟩ : Shape).Idx)
    (ri : (⟨2, ![a, b]⟩ : Shape).Idx → Fin k → (⟨2, ![k, b]⟩ : Shape).Idx)
    (hv : ∀ i, v i = ∑ q : Fin k, A (li i q) * B (ri i q))
    (hl : ∀ i q, li i q = ix2 (i 0) q) (hr : ∀ i q, ri i q = ix2 q (i 1)) : v = GatedConv.mm A B := by
  funext i
  rw [hv i]
  unfold GatedConv.mm
  exact Finset.sum_congr rfl fun q _ => congrArg₂ (· * ·) (congrArg A (hl i q)) (congrArg B (hr i q))

/-! ## The first layer's five products -/

/-- h = inp · W. -/
theorem h_eq (inp : Feat) (W : Wt) : val_main_v0 (F := Ideal) inp W = GatedConv.mm inp W :=
  eq_mm inp W _ lidx_main_v0 ridx_main_v0 (val_main_v0_apply inp W)
    (fun i q => funext fun a => Fin.ext (by match a with | ⟨0, _⟩ => rfl | ⟨1, _⟩ => rfl))
    (fun i q => funext fun a => Fin.ext (by match a with | ⟨0, _⟩ => rfl | ⟨1, _⟩ => rfl))

/-- out = adj · (inp · W). -/
theorem out_eq (inp : Feat) (adj : Adj) (W : Wt) :
    val_main_v1 (F := Ideal) inp adj W = GatedConv.mm adj (GatedConv.mm inp W) := by
  rw [← h_eq]
  exact eq_mm adj (val_main_v0 (F := Ideal) inp W) _ lidx_main_v1 ridx_main_v1 (val_main_v1_apply inp adj W)
    (fun i q => funext fun a => Fin.ext (by match a with | ⟨0, _⟩ => rfl | ⟨1, _⟩ => rfl))
    (fun i q => funext fun a => Fin.ext (by match a with | ⟨0, _⟩ => rfl | ⟨1, _⟩ => rfl))

/-- lat = gate · (inp · W). -/
theorem lat_eq (inp : Feat) (gate : Adj) (W : Wt) :
    val_main_v2 (F := Ideal) inp gate W = GatedConv.mm gate (GatedConv.mm inp W) := by
  rw [← h_eq]
  exact eq_mm gate (val_main_v0 (F := Ideal) inp W) _ lidx_main_v2 ridx_main_v2 (val_main_v2_apply inp gate W)
    (fun i q => funext fun a => Fin.ext (by match a with | ⟨0, _⟩ => rfl | ⟨1, _⟩ => rfl))
    (fun i q => funext fun a => Fin.ext (by match a with | ⟨0, _⟩ => rfl | ⟨1, _⟩ => rfl))

/-- out · l1W. -/
theorem outProj_eq (inp : Feat) (adj : Adj) (W l1W : Wt) :
    val_main_v3 (F := Ideal) inp adj W l1W = GatedConv.mm (GatedConv.mm adj (GatedConv.mm inp W)) l1W := by
  rw [← out_eq]
  exact eq_mm (val_main_v1 (F := Ideal) inp adj W) l1W _ lidx_main_v3 ridx_main_v3 (val_main_v3_apply inp adj W l1W)
    (fun i q => funext fun a => Fin.ext (by match a with | ⟨0, _⟩ => rfl | ⟨1, _⟩ => rfl))
    (fun i q => funext fun a => Fin.ext (by match a with | ⟨0, _⟩ => rfl | ⟨1, _⟩ => rfl))

/-- lat · l2W. -/
theorem latProj_eq (inp : Feat) (gate : Adj) (W l2W : Wt) :
    val_main_v7 (F := Ideal) inp gate W l2W = GatedConv.mm (GatedConv.mm gate (GatedConv.mm inp W)) l2W := by
  rw [← lat_eq]
  exact eq_mm (val_main_v2 (F := Ideal) inp gate W) l2W _ lidx_main_v7 ridx_main_v7 (val_main_v7_apply inp gate W l2W)
    (fun i q => funext fun a => Fin.ext (by match a with | ⟨0, _⟩ => rfl | ⟨1, _⟩ => rfl))
    (fun i q => funext fun a => Fin.ext (by match a with | ⟨0, _⟩ => rfl | ⟨1, _⟩ => rfl))

/-! ## A bias broadcast along the rows is read at the column -/

theorem l1b_idx (j : S10000x128.Idx) : idx_main_v4 (idx_main_v5 j) = ix1 (j 1) :=
  funext fun a => Fin.ext (by match a with | ⟨0, _⟩ => rfl)
theorem l2b_idx (j : S10000x128.Idx) : idx_main_v9 (idx_main_v10 j) = ix1 (j 1) :=
  funext fun a => Fin.ext (by match a with | ⟨0, _⟩ => rfl)
theorem b_idx (j : S10000x128.Idx) : idx_main_v23 (idx_main_v24 j) = ix1 (j 1) :=
  funext fun a => Fin.ext (by match a with | ⟨0, _⟩ => rfl)

/-! ## The gate, the mix and the rectifier at one entry -/

/-- 1 / (1 + exp (−s)), the ones spelt as the float pattern of 1.0, is the logistic function. -/
theorem logistic_spelt (s : EReal) :
    Ideal.div (Ideal.ofBits .f32 0x3F800000#32) (Ideal.ofBits .f32 0x3F800000#32 + Ideal.exp (-s)) = Ideal.logistic s := by
  rw [Ideal.ofBits_one_f32]
  rfl

/-- The program's operations on one entry — negate, exponential, add one, divide; multiply, subtract from one,
    multiply, add, add the bias, maximum with zero — are the specification's `mix`. -/
theorem mix_spelt (s out lat bias : Ideal .f32) :
    FloatOps.maximumf
      (FloatOps.addf
        (FloatOps.addf
          (FloatOps.mulf
            (FloatOps.hostDivf (FloatOps.ofBits (F := Ideal) .f32 0x3F800000#32)
              (FloatOps.addf (FloatOps.ofBits (F := Ideal) .f32 0x3F800000#32) (FloatOps.hostUnary .exp (FloatOps.hostNegf s))))
            out)
          (FloatOps.mulf
            (FloatOps.subf (FloatOps.ofBits (F := Ideal) .f32 0x3F800000#32)
              (FloatOps.hostDivf (FloatOps.ofBits (F := Ideal) .f32 0x3F800000#32)
                (FloatOps.addf (FloatOps.ofBits (F := Ideal) .f32 0x3F800000#32) (FloatOps.hostUnary .exp (FloatOps.hostNegf s)))))
            lat))
        bias)
      (FloatOps.ofBits (F := Ideal) .f32 0x00000000#32)
    = GatedConv.mix s out lat bias := by
  show max ((Ideal.div (Ideal.ofBits .f32 0x3F800000#32) (Ideal.ofBits .f32 0x3F800000#32 + Ideal.exp (-s))) * out
      + (Ideal.ofBits .f32 0x3F800000#32
          - Ideal.div (Ideal.ofBits .f32 0x3F800000#32) (Ideal.ofBits .f32 0x3F800000#32 + Ideal.exp (-s))) * lat
      + bias) (Ideal.ofBits .f32 0x00000000#32) = _
  rw [logistic_spelt]
  rfl

/-! ## One layer -/

/-- The first 27 operations (through the first rectifier), as a function of the nine arrays they read, are one
    layer of the specification. -/
theorem layer_eq (inp : Feat) (adj gate : Adj) (W : Wt) (b : Bias) (l1W : Wt) (l1b : Bias) (l2W : Wt) (l2b : Bias) :
    val_main_v26 (F := Ideal) inp adj gate W b l1W l1b l2W l2b
      = GatedConv.layer (n := 10000) (d := 128) inp adj gate W b l1W l1b l2W l2b := by
  funext j
  rw [val_main_v26_apply, val_main_v25_apply, val_main_v22_apply, val_main_v18_apply, val_main_v21_apply,
    val_main_v20_apply, val_main_v17_apply, val_main_v15_apply, val_main_v13_apply, val_main_v12_apply,
    val_main_v11_apply, val_main_v8_apply, val_main_v6_apply, val_main_v5_apply, val_main_v4_apply,
    val_main_v10_apply, val_main_v9_apply, val_main_v24_apply, val_main_v23_apply,
    val_main_v14_apply, val_main_cst_apply, val_main_v16_apply, val_main_cst_0_apply,
    val_main_v19_apply, val_main_cst_1_apply, val_main_call0_v0_apply, val_main_call0_cst_apply]
  refine (mix_spelt _ _ _ _).trans ?_
  rw [outProj_eq, latProj_eq, out_eq, lat_eq, l1b_idx, l2b_idx, b_idx]
  rfl

/-! ## The second layer is the first layer's chain at the first layer's result -/

/-- Operations 27 … 53 (through the second rectifier) are operations 0 … 26 read at the first layer's result, the
    same adjacencies and the second set of weights: the two chains unfold to one term. -/
theorem second_layer (a0 : Feat) (a1 a2 : Adj) (a3 : Wt) (a4 : Bias) (a5 : Wt) (a6 : Bias) (a7 : Wt) (a8 : Bias)
    (a9 : Wt) (a10 : Bias) (a11 : Wt) (a12 : Bias) (a13 : Wt) (a14 : Bias) :
    val_main_v53 (F := Ideal) a0 a1 a2 a3 a4 a5 a6 a7 a8 a9 a10 a11 a12 a13 a14
      = val_main_v26 (F := Ideal) (val_main_v26 (F := Ideal) a0 a1 a2 a3 a4 a5 a6 a7 a8) a1 a2 a9 a10 a11 a12 a13 a14 :=
  rfl

/-! ## The result -/

/-- The program's last stage, as a function of the fifteen arguments, is the specification's two layers and
    residual. -/
theorem result_eq (a0 : Feat) (a1 a2 : Adj) (a3 : Wt) (a4 : Bias) (a5 : Wt) (a6 : Bias) (a7 : Wt) (a8 : Bias)
    (a9 : Wt) (a10 : Bias) (a11 : Wt) (a12 : Bias) (a13 : Wt) (a14 : Bias) :
    val_main_v54 (F := Ideal) a0 a1 a2 a3 a4 a5 a6 a7 a8 a9 a10 a11 a12 a13 a14
      = GatedConv.net (n := 10000) (d := 128) a0 a1 a2 a3 a4 a5 a6 a7 a8 a9 a10 a11 a12 a13 a14 := by
  funext j
  rw [val_main_v54_apply, second_layer, layer_eq, layer_eq]
  rfl

/-- Every weakly fair execution of the reference terminates with its result array at `GatedConv.net` of the launch
    contents of its arguments, and with the arguments unchanged. -/
theorem run_net (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v54)
        = GatedConv.net (n := 10000) (d := 128)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run Cert.ReferenceIdeal.defs _ _).mono
    (fun _ h c => ⟨(h c).1.trans ((val_main_v54_eq m c).trans (result_eq _ _ _ _ _ _ _ _ _ _ _ _ _ _ _)), (h c).2⟩)
    (Cert.ReferenceIdeal.Value.run (F := Ideal) m ρ)

/-- Every weakly fair execution of the reference terminates with its arguments unchanged. -/
theorem frame (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run Cert.ReferenceIdeal.defs _ _).mono (fun _ h c => (h c).2) (Cert.ReferenceIdeal.Value.run (F := Ideal) m ρ)

end Cert.ReferenceIdeal.RefValue

end
-- ==== Proof.FiniteInputs.lean ====
/-
  The precondition read back: every argument array has only real entries.

  The predicate computes, for each of the fifteen argument arrays x, the scalar  all(|x| < +∞)  — the absolute value
  max(x, −x) at every entry, compared (strictly below) with the f32 pattern 0x7F800000, which denotes +∞, and the
  comparisons reduced by "and" from 1 — and then the conjunction of the fifteen scalars. If the result is 1, each
  scalar is 1, so each comparison is 1 at every entry, so max(x, −x) < ⊤ at every entry: an extended real whose
  absolute value is below ⊤ is neither infinity, that is, it is a real number.
-/
import proofs.«177975_g80453327389404_cont_9to1c4b_650_7_alg».proof.Pre_finite_inputs
import proofs.«177975_g80453327389404_cont_9to1c4b_650_7_alg».proof.Proof.Gen.Pre_finite_inputs
import proofs.«177975_g80453327389404_cont_9to1c4b_650_7_alg».proof.Proof.GatedConvSpec
import Idealize.ShloMosaic.Lib.ReduceAll
import Idealize.ShloMosaic.Lib.ValueIdx

noncomputable section

namespace Cert.FiniteInputs

open Idealize.ShloMosaic Idealize.ShloMosaic.ValueIdx Cert.Pre_finite_inputs

/-- The rank-0 shape has one index. -/
instance subsingleton_S_ : Subsingleton S_.Idx := ⟨fun a b => funext fun d => d.elim0⟩

/-- The f32 pattern 0x7F800000 (exponent all ones, fraction zero, sign clear) denotes +∞. -/
theorem inf_bits : Ideal.ofBits .f32 0x7F800000#32 = (⊤ : EReal) := by simp [Ideal.ofBits, Ideal.ieee]

/-- An extended real whose absolute value max(x, −x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One comparison |x| < +∞ that came out 1 says x is real. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  change Ideal.cmp .olt (max x (-x)) (Ideal.ofBits .f32 0x7F800000#32) = 1#1 at h
  rw [inf_bits] at h
  unfold Ideal.cmp at h
  by_contra hn
  simp [hn] at h

/-- all(|x| < +∞) = 1, in the predicate's own form and over any shape, says every entry of x is real. -/
theorem isReal_of_all {s : Shape} {axes : List (Fin s.rank)} (x : FVec Ideal s .f32)
    (hb : S_.BroadcastsInDim s (![] : Fin 0 → Fin s.rank)) (hr : s.ReducesTo axes S_) (hS : 0 < S_.numel)
    (e : Host.reduce IntOp.andi
        (cmpf .olt (Host.absf x) (broadcastInDim s ![] hb (constant (F := Ideal) S_ .f32 0x7F800000#32)))
        (constantI S_ 1 1#1) hr hS ix0 = 1#1) :
    GatedConv.IsReal (s := s) x := by
  intro i
  have hi := Host.reduce_andi_all _ _ hr hS ix0 e i
  exact real_of_cmp (x i) hi

/-- THE PRECONDITION DECODED: if the predicate answers 1, every entry of each of the fifteen argument arrays is a real
    number. The predicate's value at its one index is the "and" of fifteen scalars, nested to the left in argument
    order; a conjunction of bits that is 1 has every bit 1, and each scalar is all(|x| < +∞) of its array. -/
theorem all_real [Cert.Pre_finite_inputs.Facts]
    (a0 : FVec Ideal S10000x128 .f32) (a1 : FVec Ideal S10000x10000 .f32) (a2 : FVec Ideal S10000x10000 .f32) (a3 : FVec Ideal S128x128 .f32) (a4 : FVec Ideal S128 .f32) (a5 : FVec Ideal S128x128 .f32) (a6 : FVec Ideal S128 .f32) (a7 : FVec Ideal S128x128 .f32) (a8 : FVec Ideal S128 .f32) (a9 : FVec Ideal S128x128 .f32) (a10 : FVec Ideal S128 .f32) (a11 : FVec Ideal S128x128 .f32) (a12 : FVec Ideal S128 .f32) (a13 : FVec Ideal S128x128 .f32) (a14 : FVec Ideal S128 .f32)
    (h : Cert.Pre_finite_inputs.fn (F := Ideal) a0 a1 a2 a3 a4 a5 a6 a7 a8 a9 a10 a11 a12 a13 a14 = fun _ => 1#1) :
    GatedConv.IsReal a0 ∧ GatedConv.IsReal a1 ∧ GatedConv.IsReal a2 ∧ GatedConv.IsReal a3 ∧ GatedConv.IsReal a4 ∧ GatedConv.IsReal a5 ∧ GatedConv.IsReal a6 ∧ GatedConv.IsReal a7 ∧ GatedConv.IsReal a8 ∧ GatedConv.IsReal a9 ∧ GatedConv.IsReal a10 ∧ GatedConv.IsReal a11 ∧ GatedConv.IsReal a12 ∧ GatedConv.IsReal a13 ∧ GatedConv.IsReal a14 := by
  have e := congrFun h ix0
  unfold Cert.Pre_finite_inputs.fn Cert.Pre_finite_inputs.fn_part1 Cert.Pre_finite_inputs.fn_part2
    Cert.Pre_finite_inputs.fn_part3 Cert.Pre_finite_inputs.fn_part4 at e
  dsimp only [andi] at e
  simp only [IntOp.andi_eq_one] at e
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := e
  exact ⟨isReal_of_all a0 _ _ _ h0,
    isReal_of_all a1 _ _ _ h1,
    isReal_of_all a2 _ _ _ h2,
    isReal_of_all a3 _ _ _ h3,
    isReal_of_all a4 _ _ _ h4,
    isReal_of_all a5 _ _ _ h5,
    isReal_of_all a6 _ _ _ h6,
    isReal_of_all a7 _ _ _ h7,
    isReal_of_all a8 _ _ _ h8,
    isReal_of_all a9 _ _ _ h9,
    isReal_of_all a10 _ _ _ h10,
    isReal_of_all a11 _ _ _ h11,
    isReal_of_all a12 _ _ _ h12,
    isReal_of_all a13 _ _ _ h13,
    isReal_of_all a14 _ _ _ h14⟩

end Cert.FiniteInputs

end
-- ==== Proof.lean ====
/-
  Two gated graph-convolution layers and a residual: the kernel against its reference, over the extended reals.

  Per layer the reference multiplies the features by a weight, aggregates them through two dense adjacencies,
  projects the two aggregates to form a gate, mixes them and rectifies. The kernel aggregates the features
  and the PROJECTED features at once (one product per adjacency against a right-hand side of twice the
  width), forms the gate from the aggregated projections, and works on bands of 200 rows, carrying the
  right-hand sides of both layers from one grid position to the next. At the ideal instance the two agree
  entry by entry: the kernel's result is the fused form of the network, the reference's the plain form, and
  for real entries — which the precondition gives — the two forms are equal because a product of real
  matrices is associative and the four summands of the gate's argument may be regrouped.
  The three frames: each program terminates with its argument arrays unchanged; for the kernel (at both
  instances) from the body's run at each of the three kinds of grid position and an invariant naming what the
  carried buffers hold, for the reference from its run. The idealization rewrote nothing, so there is nothing
  to preserve.
-/
import proofs.«177975_g80453327389404_cont_9to1c4b_650_7_alg».proof.Defs
import proofs.«177975_g80453327389404_cont_9to1c4b_650_7_alg».proof.Proof.Gen.Kernel
import proofs.«177975_g80453327389404_cont_9to1c4b_650_7_alg».proof.Proof.Gen.KernelIdeal
import proofs.«177975_g80453327389404_cont_9to1c4b_650_7_alg».proof.Proof.Gen.ReferenceIdeal
import proofs.«177975_g80453327389404_cont_9to1c4b_650_7_alg».proof.Proof.Gen.Pre_finite_inputs
import proofs.«177975_g80453327389404_cont_9to1c4b_650_7_alg».proof.Proof.KernelObligation
import proofs.«177975_g80453327389404_cont_9to1c4b_650_7_alg».proof.Proof.KernelIdealResult
import proofs.«177975_g80453327389404_cont_9to1c4b_650_7_alg».proof.Proof.ReferenceNet
import proofs.«177975_g80453327389404_cont_9to1c4b_650_7_alg».proof.Proof.FiniteInputs
import proofs.«177975_g80453327389404_cont_9to1c4b_650_7_alg».proof.Proof.GatedConvAlgebra
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame (F := Bits) m ρ

theorem frame_kernelIdeal : Cert.frame_KernelIdeal := fun m ρ _ => Cert.KernelIdeal.Hand.frame (F := Ideal) m ρ

theorem frame_reference : Cert.frame_ReferenceIdeal := fun m ρ _ => Cert.ReferenceIdeal.RefValue.frame m ρ

/-- Both programs end; the kernel's result is the fused network of its arguments, the reference's the plain
    network of its own; the arguments agree and are real, so the two are equal. -/
theorem algebraic : Cert.algebraic_KernelIdeal_ReferenceIdeal := by
  intro m ρ m' ρ' hpre hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.RefValue.run_net m' ρ')
  obtain ⟨e0, e1, e2, e3, e4, e5, e6, e7, e8, e9, e10, e11, e12, e13, e14⟩ := hagree c
  rw [e0, e1, e2, e3, e4, e5, e6, e7, e8, e9, e10, e11, e12, e13, e14]
  obtain ⟨r0, r1, r2, r3, r4, r5, r6, r7, r8, r9, r10, r11, r12, r13, r14⟩ := Cert.FiniteInputs.all_real _ _ _ _ _ _ _ _ _ _ _ _ _ _ _ (hpre c)
  exact (GatedConv.netFused_eq_net r0 r1 r2 r3 r4 r5 r6 r7 r8 r9 r10 r11 r12 r13 r14).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
